-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S132651x1 : Shape := ⟨2, ![132651, 1]⟩
abbrev S1x2 : Shape := ⟨2, ![1, 2]⟩
abbrev S2 : Shape := ⟨1, ![2]⟩
abbrev S2x8489664 : Shape := ⟨2, ![2, 8489664]⟩
abbrev S_ : Shape := ⟨0, ![]⟩

class Facts : Prop where
  bcast_S_S132651x1 : S_.BroadcastsInDim S132651x1 (![] : Fin 0 → Fin S132651x1.rank)
  reducesTo_S132651x1_S_d0_1 : S132651x1.ReducesTo [0, 1] S_
  h_S_ : 0 < S_.numel
  bcast_S_S1x2 : S_.BroadcastsInDim S1x2 (![] : Fin 0 → Fin S1x2.rank)
  reducesTo_S1x2_S_d0_1 : S1x2.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S132651x1 .f32) (main_arg1 : FVec F S1x2 .f32) (main_arg2 : FVec F S2 .f32) (main_arg3 : IVec S2x8489664 32) : IVec S_ 1 :=
  let main_v0 : FVec F S132651x1 .f32 := Host.absf main_arg0
  let main_cst : FVec F S_ .f32 := constant S_ .f32 0x7F800000#32
  let main_v1 : FVec F S132651x1 .f32 := broadcastInDim S132651x1 ![] bcast_S_S132651x1 main_cst
  let main_v2 : IVec S132651x1 1 := cmpf .olt main_v0 main_v1
  let main_c : IVec S_ 1 := constantI S_ 1 1#1
  let main_v3 : IVec S_ 1 := (fun x v => Host.reduce IntOp.andi x v reducesTo_S132651x1_S_d0_1 h_S_) main_v2 main_c
  let main_v4 : FVec F S1x2 .f32 := Host.absf main_arg1
  let main_cst_0 : FVec F S_ .f32 := constant S_ .f32 0x7F800000#32
  let main_v5 : FVec F S1x2 .f32 := broadcastInDim S1x2 ![] bcast_S_S1x2 main_cst_0
  let main_v6 : IVec S1x2 1 := cmpf .olt main_v4 main_v5
  let main_c_1 : IVec S_ 1 := constantI S_ 1 1#1
  let main_v7 : IVec S_ 1 := (fun x v => Host.reduce IntOp.andi x v reducesTo_S1x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S132651x1 : Shape := ⟨2, ![132651, 1]⟩
abbrev S1x2 : Shape := ⟨2, ![1, 2]⟩
abbrev S2 : Shape := ⟨1, ![2]⟩
abbrev S2x8489664 : Shape := ⟨2, ![2, 8489664]⟩
abbrev S1x8489664 : Shape := ⟨2, ![1, 8489664]⟩
abbrev S8489664 : Shape := ⟨1, ![8489664]⟩
abbrev S132651 : Shape := ⟨1, ![132651]⟩
abbrev S8622315 : Shape := ⟨1, ![8622315]⟩
abbrev S_ : Shape := ⟨0, ![]⟩
abbrev S8622315x1 : Shape := ⟨2, ![8622315, 1]⟩
abbrev S132651x2 : Shape := ⟨2, ![132651, 2]⟩
abbrev S4244832 : Shape := ⟨1, ![4244832]⟩
abbrev S4244832x1 : Shape := ⟨2, ![4244832, 1]⟩
abbrev S1x4244832 : Shape := ⟨2, ![1, 4244832]⟩
abbrev S1x98304 : Shape := ⟨2, ![1, 98304]⟩

abbrev nBuf : Space → Nat
  | .hbm => 122
  | .vmem => 10
  | .smem => 0
  | _ => 0

abbrev bufTy : (tb : Table) → Fin (tcTables nBuf tb) → BufTy
  | .hbm, ⟨0, _⟩ => ⟨S132651x1, .f32⟩
  | .hbm, ⟨1, _⟩ => ⟨S1x2, .f32⟩
  | .hbm, ⟨2, _⟩ => ⟨S2, .f32⟩
  | .hbm, ⟨3, _⟩ => ⟨S2x8489664, .i32⟩
  | .hbm, ⟨4, _⟩ => ⟨S1x8489664, .i32⟩
  | .hbm, ⟨5, _⟩ => ⟨S8489664, .i32⟩
  | .hbm, ⟨6, _⟩ => ⟨S1x8489664, .i32⟩
  | .hbm, ⟨7, _⟩ => ⟨S8489664, .i32⟩
  | .hbm, ⟨8, _⟩ => ⟨S132651, .i32⟩
  | .hbm, ⟨9, _⟩ => ⟨S8622315, .i32⟩
  | .hbm, ⟨10, _⟩ => ⟨S8622315, .i32⟩
  | .hbm, ⟨11, _⟩ => ⟨S_, .f32⟩
  | .hbm, ⟨12, _⟩ => ⟨S8622315, .f32⟩
  | .hbm, ⟨13, _⟩ => ⟨S_, .f32⟩
  | .hbm, ⟨14, _⟩ => ⟨S132651, .f32⟩
  | .hbm, ⟨15, _⟩ => ⟨S8622315x1, .i32⟩
  | .hbm, ⟨16, _⟩ => ⟨S132651, .f32⟩
  | .hbm, ⟨17, _⟩ => ⟨S_, .f32⟩
  | .hbm, ⟨18, _⟩ => ⟨S132651, .f32⟩
  | .hbm, ⟨19, _⟩ => ⟨S132651, .i1⟩
  | .hbm, ⟨20, _⟩ => ⟨S_, .f32⟩
  | .hbm, ⟨21, _⟩ => ⟨S132651, .f32⟩
  | .hbm, ⟨22, _⟩ => ⟨S132651, .f32⟩
  | .hbm, ⟨23, _⟩ => ⟨S132651, .f32⟩
  | .hbm, ⟨24, _⟩ => ⟨S_, .f32⟩
  | .hbm, ⟨25, _⟩ => ⟨S_, .f32⟩
  | .hbm, ⟨26, _⟩ => ⟨S132651, .f32⟩
  | .hbm, ⟨27, _⟩ => ⟨S132651, .f32⟩
  | .hbm, ⟨28, _⟩ => ⟨S_, .i32⟩
  | .hbm, ⟨29, _⟩ => ⟨S8622315, .i32⟩
  | .hbm, ⟨30, _⟩ => ⟨S8622315, .i1⟩
  | .hbm, ⟨31, _⟩ => ⟨S_, .i32⟩
  | .hbm, ⟨32, _⟩ => ⟨S8622315, .i32⟩
  | .hbm, ⟨33, _⟩ => ⟨S8622315, .i32⟩
  | .hbm, ⟨34, _⟩ => ⟨S8622315, .i32⟩
  | .hbm, ⟨35, _⟩ => ⟨S8622315x1, .i32⟩
  | .hbm, ⟨36, _⟩ => ⟨S8622315, .f32⟩
  | .hbm, ⟨37, _⟩ => ⟨S_, .i32⟩
  | .hbm, ⟨38, _⟩ => ⟨S8622315, .i32⟩
  | .hbm, ⟨39, _⟩ => ⟨S8622315, .i1⟩
  | .hbm, ⟨40, _⟩ => ⟨S_, .i32⟩
  | .hbm, ⟨41, _⟩ => ⟨S8622315, .i32⟩
  | .hbm, ⟨42, _⟩ => ⟨S8622315, .i32⟩
  | .hbm, ⟨43, _⟩ => ⟨S8622315, .i32⟩
  | .hbm, ⟨44, _⟩ => ⟨S8622315x1, .i32⟩
  | .hbm, ⟨45, _⟩ => ⟨S8622315, .f32⟩
  | .hbm, ⟨46, _⟩ => ⟨S8622315, .f32⟩
  | .hbm, ⟨47, _⟩ => ⟨S132651, .f32⟩
  | .hbm, ⟨48, _⟩ => ⟨S_, .i32⟩
  | .hbm, ⟨49, _⟩ => ⟨S8622315, .i32⟩
  | .hbm, ⟨50, _⟩ => ⟨S8622315, .i1⟩
  | .hbm, ⟨51, _⟩ => ⟨S_, .i32⟩
  | .hbm, ⟨52, _⟩ => ⟨S8622315, .i32⟩
  | .hbm, ⟨53, _⟩ => ⟨S8622315, .i32⟩
  | .hbm, ⟨54, _⟩ => ⟨S8622315, .i32⟩
  | .hbm, ⟨55, _⟩ => ⟨S8622315x1, .i32⟩
  | .hbm, ⟨56, _⟩ => ⟨S8622315, .f32⟩
  | .hbm, ⟨57, _⟩ => ⟨S8622315, .f32⟩
  | .hbm, ⟨58, _⟩ => ⟨S_, .f32⟩
  | .hbm, ⟨59, _⟩ => ⟨S132651, .f32⟩
  | .hbm, ⟨60, _⟩ => ⟨S8622315x1, .i32⟩
  | .hbm, ⟨61, _⟩ => ⟨S132651, .f32⟩
  | .hbm, ⟨62, _⟩ => ⟨S132651x1, .f32⟩
  | .hbm, ⟨63, _⟩ => ⟨S2, .f32⟩
  | .hbm, ⟨64, _⟩ => ⟨S1x2, .f32⟩
  | .hbm, ⟨65, _⟩ => ⟨S132651x2, .f32⟩
  | .hbm, ⟨66, _⟩ => ⟨S132651x2, .f32⟩
  | .hbm, ⟨67, _⟩ => ⟨S132651x2, .f32⟩
  | .hbm, ⟨68, _⟩ => ⟨S1x2, .f32⟩
  | .hbm, ⟨69, _⟩ => ⟨S132651x2, .f32⟩
  | .hbm, ⟨70, _⟩ => ⟨S132651x2, .f32⟩
  | .hbm, ⟨71, _⟩ => ⟨S_, .f32⟩
  | .hbm, ⟨72, _⟩ => ⟨S132651x2, .f32⟩
  | .hbm, ⟨73, _⟩ => ⟨S132651x2, .f32⟩
  | .hbm, ⟨74, _⟩ => ⟨S_, .f32⟩
  | .hbm, ⟨75, _⟩ => ⟨S132651, .f32⟩
  | .hbm, ⟨76, _⟩ => ⟨S4244832, .i32⟩
  | .hbm, ⟨77, _⟩ => ⟨S4244832, .i32⟩
  | .hbm, ⟨78, _⟩ => ⟨S4244832, .i32⟩
  | .hbm, ⟨79, _⟩ => ⟨S4244832, .i32⟩
  | .hbm, ⟨80, _⟩ => ⟨S_, .i32⟩
  | .hbm, ⟨81, _⟩ => ⟨S4244832, .i32⟩
  | .hbm, ⟨82, _⟩ => ⟨S4244832, .i1⟩
  | .hbm, ⟨83, _⟩ => ⟨S_, .i32⟩
  | .hbm, ⟨84, _⟩ => ⟨S4244832, .i32⟩
  | .hbm, ⟨85, _⟩ => ⟨S4244832, .i32⟩
  | .hbm, ⟨86, _⟩ => ⟨S4244832, .i32⟩
  | .hbm, ⟨87, _⟩ => ⟨S4244832x1, .i32⟩
  | .hbm, ⟨88, _⟩ => ⟨S4244832, .f32⟩
  | .hbm, ⟨89, _⟩ => ⟨S1x4244832, .f32⟩
  | .hbm, ⟨90, _⟩ => ⟨S_, .i32⟩
  | .hbm, ⟨91, _⟩ => ⟨S4244832, .i32⟩
  | .hbm, ⟨92, _⟩ => ⟨S4244832, .i1⟩
  | .hbm, ⟨93, _⟩ => ⟨S_, .i32⟩
  | .hbm, ⟨94, _⟩ => ⟨S4244832, .i32⟩
  | .hbm, ⟨95, _⟩ => ⟨S4244832, .i32⟩
  | .hbm, ⟨96, _⟩ => ⟨S4244832, .i32⟩
  | .hbm, ⟨97, _⟩ => ⟨S4244832x1, .i32⟩
  | .hbm, ⟨98, _⟩ => ⟨S4244832, .f32⟩
  | .hbm, ⟨99, _⟩ => ⟨S1x4244832, .f32⟩
  | .hbm, ⟨100, _⟩ => ⟨S_, .i32⟩
  | .hbm, ⟨101, _⟩ => ⟨S4244832, .i32⟩
  | .hbm, ⟨102, _⟩ => ⟨S4244832, .i1⟩
  | .hbm, ⟨103, _⟩ => ⟨S_, .i32⟩
  | .hbm, ⟨104, _⟩ => ⟨S4244832, .i32⟩
  | .hbm, ⟨105, _⟩ => ⟨S4244832, .i32⟩
  | .hbm, ⟨106, _⟩ => ⟨S4244832, .i32⟩
  | .hbm, ⟨107, _⟩ => ⟨S4244832x1, .i32⟩
  | .hbm, ⟨108, _⟩ => ⟨S4244832, .f32⟩
  | .hbm, ⟨109, _⟩ => ⟨S1x4244832, .f32⟩
  | .hbm, ⟨110, _⟩ => ⟨S_, .i32⟩
  | .hbm, ⟨111, _⟩ => ⟨S4244832, .i32⟩
  | .hbm, ⟨112, _⟩ => ⟨S4244832, .i1⟩
  | .hbm, ⟨113, _⟩ => ⟨S_, .i32⟩
  | .hbm, ⟨114, _⟩ => ⟨S4244832, .i32⟩
  | .hbm, ⟨115, _⟩ => ⟨S4244832, .i32⟩
  | .hbm, ⟨116, _⟩ => ⟨S4244832, .i32⟩
  | .hbm, ⟨117, _⟩ => ⟨S4244832x1, .i32⟩
  | .hbm, ⟨118, _⟩ => ⟨S4244832, .f32⟩
  | .hbm, ⟨119, _⟩ => ⟨S1x4244832, .f32⟩
  | .hbm, ⟨120, _⟩ => ⟨S1x4244832, .f32⟩
  | .hbm, ⟨121, _⟩ => ⟨S4244832x1, .f32⟩
  | .local _ .vmem, ⟨0, _⟩ => ⟨S1x98304, .f32⟩
  | .local _ .vmem, ⟨1, _⟩ => ⟨S1x98304, .f32⟩
  | .local _ .vmem, ⟨2, _⟩ => ⟨S1x98304, .f32⟩
  | .local _ .vmem, ⟨3, _⟩ => ⟨S1x98304, .f32⟩
  | .local _ .vmem, ⟨4, _⟩ => ⟨S1x98304, .f32⟩
  | .local _ .vmem, ⟨5, _⟩ => ⟨S1x98304, .f32⟩
  | .local _ .vmem, ⟨6, _⟩ => ⟨S1x98304, .f32⟩
  | .local _ .vmem, ⟨7, _⟩ => ⟨S1x98304, .f32⟩
  | .local _ .vmem, ⟨8, _⟩ => ⟨S1x98304, .f32⟩
  | .local _ .vmem, ⟨9, _⟩ => ⟨S1x98304, .f32⟩
  | _, _ => ⟨S132651x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call1_cst : Ref sig .tc := ⟨.hbm, 71, rfl⟩
abbrev main_call1_v0 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_15 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_17 : Ref sig .tc := ⟨.hbm, 110, rfl⟩
abbrev main_v83 : Ref sig .tc := ⟨.hbm, 111, rfl⟩
abbrev main_v84 : Ref sig .tc := ⟨.hbm, 112, rfl⟩
abbrev main_c_18 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x98304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x98304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x98304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x98304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x98304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x8489664_S1x8489664_0_0 : S2x8489664.Slices ![0, 0] S1x8489664
  shapeCasts_S1x8489664_S8489664 : S1x8489664.ShapeCasts S8489664
  slices_S2x8489664_S1x8489664_1_0 : S2x8489664.Slices ![1, 0] S1x8489664
  concatenates_S8489664_S132651_S8622315_d0 : Shape.Concatenates [S8489664, S132651] S8622315 0
  bcast_S_S8622315 : S_.BroadcastsInDim S8622315 (![] : Fin 0 → Fin S8622315.rank)
  bcast_S_S132651 : S_.BroadcastsInDim S132651 (![] : Fin 0 → Fin S132651.rank)
  bcast_S8622315_S8622315x1_0 : S8622315.BroadcastsInDim S8622315x1 (![0] : Fin 1 → Fin S8622315x1.rank)
  shapeCasts_S132651x1_S132651 : S132651x1.ShapeCasts S132651
  bcast_S132651_S132651x1_0 : S132651.BroadcastsInDim S132651x1 (![0] : Fin 1 → Fin S132651x1.rank)
  shapeCasts_S1x2_S2 : S1x2.ShapeCasts S2
  bcast_S2_S1x2_1 : S2.BroadcastsInDim S1x2 (![1] : Fin 1 → Fin S1x2.rank)
  bcast_S132651x1_S132651x2_0_1 : S132651x1.BroadcastsInDim S132651x2 (![0, 1] : Fin 2 → Fin S132651x2.rank)
  bcast_S1x2_S132651x2_0_1 : S1x2.BroadcastsInDim S132651x2 (![0, 1] : Fin 2 → Fin S132651x2.rank)
  bcast_S_S132651x2 : S_.BroadcastsInDim S132651x2 (![] : Fin 0 → Fin S132651x2.rank)
  reducesTo_S132651x2_S132651_d1 : S132651x2.ReducesTo [1] S132651
  h_S_ : 0 < S_.numel
  slices_S8489664_S4244832_0 : S8489664.Slices ![0] S4244832
  slices_S8489664_S4244832_4244832 : S8489664.Slices ![4244832] S4244832
  bcast_S_S4244832 : S_.BroadcastsInDim S4244832 (![] : Fin 0 → Fin S4244832.rank)
  bcast_S4244832_S4244832x1_0 : S4244832.BroadcastsInDim S4244832x1 (![0] : Fin 1 → Fin S4244832x1.rank)
  bcast_S4244832_S1x4244832_1 : S4244832.BroadcastsInDim S1x4244832 (![1] : Fin 1 → Fin S1x4244832.rank)
  inb_S1x98304_S1x98304_0_0 : ∀ a, (![0, 0] : Fin 2 → Nat) a + S1x98304.size a ≤ S1x98304.size a
  h_S1x98304 : 0 < S1x98304.numel
  shapeCasts_S1x98304_S1x98304 : S1x98304.ShapeCasts S1x98304
  shapeCasts_S1x4244832_S4244832x1 : S1x4244832.ShapeCasts S4244832x1
  scatter_S132651_S8622315x1_S8622315_n_0_0_1_wf : ScatterDims.WF S132651 S8622315x1 S8622315 [] [0] [0] 1
  gather_S132651_S8622315x1_S8622315_n_0_n_n_0_1_1_wf : GatherDims.WF S132651 S8622315x1 S8622315 [] [0] [] [0] [] 1 ![1]
  gather_S132651_S4244832x1_S4244832_n_0_n_n_0_1_1_wf : GatherDims.WF S132651 S4244832x1 S4244832 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x98304.size a < S1x4244832.size a
  hwx0_0 : ∀ i : grid0.Coords, EltTy.bits .f32 = 32 ∨ (Rect.unit (s := S1x4244832) (fun a => cc0_transform_0 i a * S1x98304.size a) (fun a => (Pipeline.Clip.of (cc0_transform_0 i a) (S1x98304.size a) (S1x4244832.size a)).extent (S1x98304.size a)) fun a => Pipeline.Clip.inb (Pipeline.Clip.ok_of (hstart0_0 i a))).WholeWords (EltTy.packing .f32)
  hwxs0_0 : ∀ i : grid0.Coords, EltTy.bits .f32 = 32 ∨ (Rect.unit (s := S1x98304) (fun _ => 0) (fun a => (Pipeline.Clip.of (cc0_transform_0 i a) (S1x98304.size a) (S1x4244832.size a)).extent (S1x98304.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x98304.size a < S1x4244832.size a
  hwx0_1 : ∀ i : grid0.Coords, EltTy.bits .f32 = 32 ∨ (Rect.unit (s := S1x4244832) (fun a => cc0_transform_1 i a * S1x98304.size a) (fun a => (Pipeline.Clip.of (cc0_transform_1 i a) (S1x98304.size a) (S1x4244832.size a)).extent (S1x98304.size a)) fun a => Pipeline.Clip.inb (Pipeline.Clip.ok_of (hstart0_1 i a))).WholeWords (EltTy.packing .f32)
  hwxs0_1 : ∀ i : grid0.Coords, EltTy.bits .f32 = 32 ∨ (Rect.unit (s := S1x98304) (fun _ => 0) (fun a => (Pipeline.Clip.of (cc0_transform_1 i a) (S1x98304.size a) (S1x4244832.size a)).extent (S1x98304.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x98304.size a < S1x4244832.size a
  hwx0_2 : ∀ i : grid0.Coords, EltTy.bits .f32 = 32 ∨ (Rect.unit (s := S1x4244832) (fun a => cc0_transform_2 i a * S1x98304.size a) (fun a => (Pipeline.Clip.of (cc0_transform_2 i a) (S1x98304.size a) (S1x4244832.size a)).extent (S1x98304.size a)) fun a => Pipeline.Clip.inb (Pipeline.Clip.ok_of (hstart0_2 i a))).WholeWords (EltTy.packing .f32)
  hwxs0_2 : ∀ i : grid0.Coords, EltTy.bits .f32 = 32 ∨ (Rect.unit (s := S1x98304) (fun _ => 0) (fun a => (Pipeline.Clip.of (cc0_transform_2 i a) (S1x98304.size a) (S1x4244832.size a)).extent (S1x98304.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x98304.size a < S1x4244832.size a
  hwx0_3 : ∀ i : grid0.Coords, EltTy.bits .f32 = 32 ∨ (Rect.unit (s := S1x4244832) (fun a => cc0_transform_3 i a * S1x98304.size a) (fun a => (Pipeline.Clip.of (cc0_transform_3 i a) (S1x98304.size a) (S1x4244832.size a)).extent (S1x98304.size a)) fun a => Pipeline.Clip.inb (Pipeline.Clip.ok_of (hstart0_3 i a))).WholeWords (EltTy.packing .f32)
  hwxs0_3 : ∀ i : grid0.Coords, EltTy.bits .f32 = 32 ∨ (Rect.unit (s := S1x98304) (fun _ => 0) (fun a => (Pipeline.Clip.of (cc0_transform_3 i a) (S1x98304.size a) (S1x4244832.size a)).extent (S1x98304.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x98304.size a < S1x4244832.size a
  hwx0_4 : ∀ i : grid0.Coords, EltTy.bits .f32 = 32 ∨ (Rect.unit (s := S1x4244832) (fun a => cc0_transform_4 i a * S1x98304.size a) (fun a => (Pipeline.Clip.of (cc0_transform_4 i a) (S1x98304.size a) (S1x4244832.size a)).extent (S1x98304.size a)) fun a => Pipeline.Clip.inb (Pipeline.Clip.ok_of (hstart0_4 i a))).WholeWords (EltTy.packing .f32)
  hwxs0_4 : ∀ i : grid0.Coords, EltTy.bits .f32 = 32 ∨ (Rect.unit (s := S1x98304) (fun _ => 0) (fun a => (Pipeline.Clip.of (cc0_transform_4 i a) (S1x98304.size a) (S1x4244832.size a)).extent (S1x98304.size a)) fun a => (Nat.zero_add _).trans_le (Pipeline.Clip.extent_le (Pipeline.Clip.ok_of (hstart0_4 i a)))).WholeWords (EltTy.packing .f32)

variable [Facts₀]

def scatter_S132651_S8622315x1_S8622315_n_0_0_1 : ScatterDims S132651 S8622315x1 S8622315 where
  updateWindowDims := []
  insertedWindowDims := [0]
  scatterDimsToOperandDims := [0]
  indexVectorDim := 1
  wf := scatter_S132651_S8622315x1_S8622315_n_0_0_1_wf
def gather_S132651_S8622315x1_S8622315_n_0_n_n_0_1_1 : GatherDims S132651 S8622315x1 S8622315 where
  offsetDims := []
  collapsedSliceDims := [0]
  operandBatchingDims := []
  startIndicesBatchingDims := []
  startIndexMap := [0]
  indexVectorDim := 1
  sliceSizes := ![1]
  wf := gather_S132651_S8622315x1_S8622315_n_0_n_n_0_1_1_wf
def gather_S132651_S4244832x1_S4244832_n_0_n_n_0_1_1 : GatherDims S132651 S4244832x1 S4244832 where
  offsetDims := []
  collapsedSliceDims := [0]
  operandBatchingDims := []
  startIndicesBatchingDims := []
  startIndexMap := [0]
  indexVectorDim := 1
  sliceSizes := ![1]
  wf := gather_S132651_S4244832x1_S4244832_n_0_n_n_0_1_1_wf

abbrev win0_0 : Pipeline.Window sig grid0 :=
  Pipeline.Window.ofSpecClip (Memref.whole main_v66) S1x98304.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v74) S1x98304.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v82) S1x98304.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v90) S1x98304.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v91) S1x98304.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S132651x1 : Shape := ⟨2, ![132651, 1]⟩
abbrev S1x2 : Shape := ⟨2, ![1, 2]⟩
abbrev S2 : Shape := ⟨1, ![2]⟩
abbrev S2x8489664 : Shape := ⟨2, ![2, 8489664]⟩
abbrev S1x8489664 : Shape := ⟨2, ![1, 8489664]⟩
abbrev S8489664 : Shape := ⟨1, ![8489664]⟩
abbrev S132651 : Shape := ⟨1, ![132651]⟩
abbrev S8622315 : Shape := ⟨1, ![8622315]⟩
abbrev S_ : Shape := ⟨0, ![]⟩
abbrev S8622315x1 : Shape := ⟨2, ![8622315, 1]⟩
abbrev S132651x2 : Shape := ⟨2, ![132651, 2]⟩
abbrev S8622315x2 : Shape := ⟨2, ![8622315, 2]⟩
abbrev S8489664x1 : Shape := ⟨2, ![8489664, 1]⟩
abbrev S8489664x2 : Shape := ⟨2, ![8489664, 2]⟩
abbrev S2x4244832 : Shape := ⟨2, ![2, 4244832]⟩
abbrev S4244832 : Shape := ⟨1, ![4244832]⟩
abbrev S4244832x1 : Shape := ⟨2, ![4244832, 1]⟩

abbrev nBuf : Space → Nat
  | .hbm => 106
  | .vmem => 0
  | .smem => 0
  | _ => 0

abbrev bufTy : (tb : Table) → Fin (tcTables nBuf tb) → BufTy
  | .hbm, ⟨0, _⟩ => ⟨S132651x1, .f32⟩
  | .hbm, ⟨1, _⟩ => ⟨S1x2, .f32⟩
  | .hbm, ⟨2, _⟩ => ⟨S2, .f32⟩
  | .hbm, ⟨3, _⟩ => ⟨S2x8489664, .i32⟩
  | .hbm, ⟨4, _⟩ => ⟨S1x8489664, .i32⟩
  | .hbm, ⟨5, _⟩ => ⟨S8489664, .i32⟩
  | .hbm, ⟨6, _⟩ => ⟨S1x8489664, .i32⟩
  | .hbm, ⟨7, _⟩ => ⟨S8489664, .i32⟩
  | .hbm, ⟨8, _⟩ => ⟨S132651, .i32⟩
  | .hbm, ⟨9, _⟩ => ⟨S8622315, .i32⟩
  | .hbm, ⟨10, _⟩ => ⟨S8622315, .i32⟩
  | .hbm, ⟨11, _⟩ => ⟨S_, .f32⟩
  | .hbm, ⟨12, _⟩ => ⟨S8622315, .f32⟩
  | .hbm, ⟨13, _⟩ => ⟨S_, .f32⟩
  | .hbm, ⟨14, _⟩ => ⟨S132651, .f32⟩
  | .hbm, ⟨15, _⟩ => ⟨S8622315x1, .i32⟩
  | .hbm, ⟨16, _⟩ => ⟨S132651, .f32⟩
  | .hbm, ⟨17, _⟩ => ⟨S_, .f32⟩
  | .hbm, ⟨18, _⟩ => ⟨S132651, .f32⟩
  | .hbm, ⟨19, _⟩ => ⟨S132651, .i1⟩
  | .hbm, ⟨20, _⟩ => ⟨S_, .f32⟩
  | .hbm, ⟨21, _⟩ => ⟨S132651, .f32⟩
  | .hbm, ⟨22, _⟩ => ⟨S132651, .f32⟩
  | .hbm, ⟨23, _⟩ => ⟨S132651, .f32⟩
  | .hbm, ⟨24, _⟩ => ⟨S_, .f32⟩
  | .hbm, ⟨25, _⟩ => ⟨S_, .f32⟩
  | .hbm, ⟨26, _⟩ => ⟨S132651, .f32⟩
  | .hbm, ⟨27, _⟩ => ⟨S132651, .f32⟩
  | .hbm, ⟨28, _⟩ => ⟨S_, .i32⟩
  | .hbm, ⟨29, _⟩ => ⟨S8622315, .i32⟩
  | .hbm, ⟨30, _⟩ => ⟨S8622315, .i1⟩
  | .hbm, ⟨31, _⟩ => ⟨S_, .i32⟩
  | .hbm, ⟨32, _⟩ => ⟨S8622315, .i32⟩
  | .hbm, ⟨33, _⟩ => ⟨S8622315, .i32⟩
  | .hbm, ⟨34, _⟩ => ⟨S8622315, .i32⟩
  | .hbm, ⟨35, _⟩ => ⟨S8622315x1, .i32⟩
  | .hbm, ⟨36, _⟩ => ⟨S8622315, .f32⟩
  | .hbm, ⟨37, _⟩ => ⟨S_, .i32⟩
  | .hbm, ⟨38, _⟩ => ⟨S8622315, .i32⟩
  | .hbm, ⟨39, _⟩ => ⟨S8622315, .i1⟩
  | .hbm, ⟨40, _⟩ => ⟨S_, .i32⟩
  | .hbm, ⟨41, _⟩ => ⟨S8622315, .i32⟩
  | .hbm, ⟨42, _⟩ => ⟨S8622315, .i32⟩
  | .hbm, ⟨43, _⟩ => ⟨S8622315, .i32⟩
  | .hbm, ⟨44, _⟩ => ⟨S8622315x1, .i32⟩
  | .hbm, ⟨45, _⟩ => ⟨S8622315, .f32⟩
  | .hbm, ⟨46, _⟩ => ⟨S8622315, .f32⟩
  | .hbm, ⟨47, _⟩ => ⟨S132651x2, .f32⟩
  | .hbm, ⟨48, _⟩ => ⟨S8622315x1, .f32⟩
  | .hbm, ⟨49, _⟩ => ⟨S_, .i32⟩
  | .hbm, ⟨50, _⟩ => ⟨S8622315, .i32⟩
  | .hbm, ⟨51, _⟩ => ⟨S8622315, .i1⟩
  | .hbm, ⟨52, _⟩ => ⟨S_, .i32⟩
  | .hbm, ⟨53, _⟩ => ⟨S8622315, .i32⟩
  | .hbm, ⟨54, _⟩ => ⟨S8622315, .i32⟩
  | .hbm, ⟨55, _⟩ => ⟨S8622315, .i32⟩
  | .hbm, ⟨56, _⟩ => ⟨S8622315x1, .i32⟩
  | .hbm, ⟨57, _⟩ => ⟨S8622315x2, .f32⟩
  | .hbm, ⟨58, _⟩ => ⟨S8622315x2, .f32⟩
  | .hbm, ⟨59, _⟩ => ⟨S8622315x2, .f32⟩
  | .hbm, ⟨60, _⟩ => ⟨S_, .f32⟩
  | .hbm, ⟨61, _⟩ => ⟨S132651x2, .f32⟩
  | .hbm, ⟨62, _⟩ => ⟨S8622315x1, .i32⟩
  | .hbm, ⟨63, _⟩ => ⟨S132651x2, .f32⟩
  | .hbm, ⟨64, _⟩ => ⟨S1x2, .f32⟩
  | .hbm, ⟨65, _⟩ => ⟨S132651x2, .f32⟩
  | .hbm, ⟨66, _⟩ => ⟨S132651x2, .f32⟩
  | .hbm, ⟨67, _⟩ => ⟨S_, .f32⟩
  | .hbm, ⟨68, _⟩ => ⟨S132651x2, .f32⟩
  | .hbm, ⟨69, _⟩ => ⟨S132651x2, .f32⟩
  | .hbm, ⟨70, _⟩ => ⟨S_, .i32⟩
  | .hbm, ⟨71, _⟩ => ⟨S8489664, .i32⟩
  | .hbm, ⟨72, _⟩ => ⟨S8489664, .i1⟩
  | .hbm, ⟨73, _⟩ => ⟨S_, .i32⟩
  | .hbm, ⟨74, _⟩ => ⟨S8489664, .i32⟩
  | .hbm, ⟨75, _⟩ => ⟨S8489664, .i32⟩
  | .hbm, ⟨76, _⟩ => ⟨S8489664, .i32⟩
  | .hbm, ⟨77, _⟩ => ⟨S8489664x1, .i32⟩
  | .hbm, ⟨78, _⟩ => ⟨S8489664x2, .f32⟩
  | .hbm, ⟨79, _⟩ => ⟨S_, .i32⟩
  | .hbm, ⟨80, _⟩ => ⟨S8489664, .i32⟩
  | .hbm, ⟨81, _⟩ => ⟨S8489664, .i1⟩
  | .hbm, ⟨82, _⟩ => ⟨S_, .i32⟩
  | .hbm, ⟨83, _⟩ => ⟨S8489664, .i32⟩
  | .hbm, ⟨84, _⟩ => ⟨S8489664, .i32⟩
  | .hbm, ⟨85, _⟩ => ⟨S8489664, .i32⟩
  | .hbm, ⟨86, _⟩ => ⟨S8489664x1, .i32⟩
  | .hbm, ⟨87, _⟩ => ⟨S8489664x2, .f32⟩
  | .hbm, ⟨88, _⟩ => ⟨S8489664x2, .f32⟩
  | .hbm, ⟨89, _⟩ => ⟨S_, .f32⟩
  | .hbm, ⟨90, _⟩ => ⟨S8489664, .f32⟩
  | .hbm, ⟨91, _⟩ => ⟨S2x4244832, .f32⟩
  | .hbm, ⟨92, _⟩ => ⟨S_, .f32⟩
  | .hbm, ⟨93, _⟩ => ⟨S4244832, .f32⟩
  | .hbm, ⟨94, _⟩ => ⟨S_, .f32⟩
  | .hbm, ⟨95, _⟩ => ⟨S4244832, .f32⟩
  | .hbm, ⟨96, _⟩ => ⟨S4244832, .f32⟩
  | .hbm, ⟨97, _⟩ => ⟨S4244832x1, .f32⟩
  | .hbm, ⟨98, _⟩ => ⟨S4244832x1, .f32⟩
  | .hbm, ⟨99, _⟩ => ⟨S4244832x1, .f32⟩
  | .hbm, ⟨100, _⟩ => ⟨S_, .f32⟩
  | .hbm, ⟨101, _⟩ => ⟨S4244832x1, .f32⟩
  | .hbm, ⟨102, _⟩ => ⟨S4244832x1, .f32⟩
  | .hbm, ⟨103, _⟩ => ⟨S_, .f32⟩
  | .hbm, ⟨104, _⟩ => ⟨S4244832x1, .f32⟩
  | .hbm, ⟨105, _⟩ => ⟨S4244832x1, .f32⟩
  | _, _ => ⟨S132651x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_cst_18 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]

class Facts₀ : Prop where
  slices_S2x8489664_S1x8489664_0_0 : S2x8489664.Slices ![0, 0] S1x8489664
  shapeCasts_S1x8489664_S8489664 : S1x8489664.ShapeCasts S8489664
  slices_S2x8489664_S1x8489664_1_0 : S2x8489664.Slices ![1, 0] S1x8489664
  concatenates_S8489664_S132651_S8622315_d0 : Shape.Concatenates [S8489664, S132651] S8622315 0
  bcast_S_S8622315 : S_.BroadcastsInDim S8622315 (![] : Fin 0 → Fin S8622315.rank)
  bcast_S_S132651 : S_.BroadcastsInDim S132651 (![] : Fin 0 → Fin S132651.rank)
  bcast_S8622315_S8622315x1_0 : S8622315.BroadcastsInDim S8622315x1 (![0] : Fin 1 → Fin S8622315x1.rank)
  bcast_S8622315x1_S8622315x2_0_1 : S8622315x1.BroadcastsInDim S8622315x2 (![0, 1] : Fin 2 → Fin S8622315x2.rank)
  bcast_S_S132651x2 : S_.BroadcastsInDim S132651x2 (![] : Fin 0 → Fin S132651x2.rank)
  bcast_S2_S1x2_1 : S2.BroadcastsInDim S1x2 (![1] : Fin 1 → Fin S1x2.rank)
  bcast_S1x2_S132651x2_0_1 : S1x2.BroadcastsInDim S132651x2 (![0, 1] : Fin 2 → Fin S132651x2.rank)
  bcast_S_S8489664 : S_.BroadcastsInDim S8489664 (![] : Fin 0 → Fin S8489664.rank)
  bcast_S8489664_S8489664x1_0 : S8489664.BroadcastsInDim S8489664x1 (![0] : Fin 1 → Fin S8489664x1.rank)
  reducesTo_S8489664x2_S8489664_d1 : S8489664x2.ReducesTo [1] S8489664
  h_S_ : 0 < S_.numel
  shapeCasts_S8489664_S2x4244832 : S8489664.ShapeCasts S2x4244832
  reducesTo_S2x4244832_S4244832_d0 : S2x4244832.ReducesTo [0] S4244832
  bcast_S_S4244832 : S_.BroadcastsInDim S4244832 (![] : Fin 0 → Fin S4244832.rank)
  bcast_S4244832_S4244832x1_0 : S4244832.BroadcastsInDim S4244832x1 (![0] : Fin 1 → Fin S4244832x1.rank)
  bcast_S_S4244832x1 : S_.BroadcastsInDim S4244832x1 (![] : Fin 0 → Fin S4244832x1.rank)
  scatter_S132651_S8622315x1_S8622315_n_0_0_1_wf : ScatterDims.WF S132651 S8622315x1 S8622315 [] [0] [0] 1
  gather_S132651_S8622315x1_S8622315_n_0_n_n_0_1_1_wf : GatherDims.WF S132651 S8622315x1 S8622315 [] [0] [] [0] [] 1 ![1]
  dot_S132651x1_S1x2_S132651x2_1_0_0_1_n_n_wf : DotDims.WF S132651x1 S1x2 S132651x2 [1] [0] [0] [1] [] []
  gather_S132651x2_S8622315x1_S8622315x2_1_0_n_n_0_1_12_wf : GatherDims.WF S132651x2 S8622315x1 S8622315x2 [1] [0] [] [0] [] 1 ![1, 2]
  scatter_S132651x2_S8622315x1_S8622315x2_1_0_0_1_wf : ScatterDims.WF S132651x2 S8622315x1 S8622315x2 [1] [0] [0] 1
  gather_S132651x2_S8489664x1_S8489664x2_1_0_n_n_0_1_12_wf : GatherDims.WF S132651x2 S8489664x1 S8489664x2 [1] [0] [] [0] [] 1 ![1, 2]

variable [Facts₀]

def scatter_S132651_S8622315x1_S8622315_n_0_0_1 : ScatterDims S132651 S8622315x1 S8622315 where
  updateWindowDims := []
  insertedWindowDims := [0]
  scatterDimsToOperandDims := [0]
  indexVectorDim := 1
  wf := scatter_S132651_S8622315x1_S8622315_n_0_0_1_wf
def gather_S132651_S8622315x1_S8622315_n_0_n_n_0_1_1 : GatherDims S132651 S8622315x1 S8622315 where
  offsetDims := []
  collapsedSliceDims := [0]
  operandBatchingDims := []
  startIndicesBatchingDims := []
  startIndexMap := [0]
  indexVectorDim := 1
  sliceSizes := ![1]
  wf := gather_S132651_S8622315x1_S8622315_n_0_n_n_0_1_1_wf
def dot_S132651x1_S1x2_S132651x2_1_0_0_1_n_n : DotDims S132651x1 S1x2 S132651x2 where
  lhsContracting := [1]
  rhsContracting := [0]
  lhsNonContracting := [0]
  rhsNonContracting := [1]
  lhsBatch := []
  rhsBatch := []
  wf := dot_S132651x1_S1x2_S132651x2_1_0_0_1_n_n_wf
def gather_S132651x2_S8622315x1_S8622315x2_1_0_n_n_0_1_12 : GatherDims S132651x2 S8622315x1 S8622315x2 where
  offsetDims := [1]
  collapsedSliceDims := [0]
  operandBatchingDims := []
  startIndicesBatchingDims := []
  startIndexMap := [0]
  indexVectorDim := 1
  sliceSizes := ![1, 2]
  wf := gather_S132651x2_S8622315x1_S8622315x2_1_0_n_n_0_1_12_wf
def scatter_S132651x2_S8622315x1_S8622315x2_1_0_0_1 : ScatterDims S132651x2 S8622315x1 S8622315x2 where
  updateWindowDims := [1]
  insertedWindowDims := [0]
  scatterDimsToOperandDims := [0]
  indexVectorDim := 1
  wf := scatter_S132651x2_S8622315x1_S8622315x2_1_0_0_1_wf
def gather_S132651x2_S8489664x1_S8489664x2_1_0_n_n_0_1_12 : GatherDims S132651x2 S8489664x1 S8489664x2 where
  offsetDims := [1]
  collapsedSliceDims := [0]
  operandBatchingDims := []
  startIndicesBatchingDims := []
  startIndexMap := [0]
  indexVectorDim := 1
  sliceSizes := ![1, 2]
  wf := gather_S132651x2_S8489664x1_S8489664x2_1_0_n_n_0_1_12_wf

class Facts : Prop extends Facts₀ where

variable [Facts]
-- ==== Proof.BodyK.lean ====
/-
  The pipelined kernel of `Kernel`: a one-axis grid of 44 points over [1, 4244832] arrays in [1, 98304] blocks, the
  last block overhanging the arrays' end, so that every window's transfers are cut there. At each point the body loads
  the four operand blocks whole, forms the logistic of one half of their four-term sum, lane by lane, and stores it
  whole into the result's block.

  This module gives the proof data (after the body each operand's staging buffer holds its block of the array on the
  part inside the array, and the result's holds the payload of those four), the body's triple, the body obligation in
  its form for cut windows (each buffer is stated only on the part inside the array: the payload is pointwise, so its
  part inside the array depends on the operands' parts inside the array only), the run of @main around the region,
  and the frame: the four argument arrays end as they were.
-/
import proofs.«148812_j62852551409829_2_alg».proof.Proof.Gen.Kernel.Frame
import proofs.«148812_j62852551409829_2_alg».proof.Proof.Gen.Kernel.Skeleton
import Idealize.ShloMosaic.Lib.Pipeline.Kit
import Idealize.ShloMosaic.Lib.Pipeline.Value
import Idealize.ShloMosaic.Lib.Tactic

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block payload at one index: the logistic of one half of the four-term sum of the operands there. -/
theorem k0_pay1_apply (X0 X1 X2 X3 : Vec F S1x98304 .f32) (j : S1x98304.Idx) :
    k0_pay1 X0 X1 X2 X3 j
      = FloatOps.logistic (FloatOps.mulf (Scalar.ofBits .f32 0x3F000000#32)
          (FloatOps.addf (FloatOps.addf (FloatOps.addf (X0 j) (X1 j)) (X2 j)) (X3 j))) := by
  unfold k0_pay1
  simp only [shapeCast_self]
  rfl

/-! ## The body's accesses -/

/-- The rectangle of every access of the body: the whole staging block, at offsets zero. -/
abbrev r0 : Rect S1x98304 := Rect.unit (s := S1x98304) ![0, 0] S1x98304.size inb_S1x98304_S1x98304_0_0

theorem hz : (![0, 0] : Fin 2 → Nat) = fun _ => 0 := funext fun a => by fin_cases a <;> rfl

/-- What the body leaves in the result's staging buffer, from what the four operand buffers hold: its one store as
    a piece over the four loads. -/
def out4 (x0 x1 x2 x3 : Vec F S1x98304 .f32) : Vec F S1x98304 .f32 :=
  View.canon [⟨r0, k0_pay1 (View.ld x0 r0) (View.ld x1 r0) (View.ld x2 r0) (View.ld x3 r0)⟩]

/-- The store covers the buffer and the loads read all of theirs: the buffer ends at the payload of the contents. -/
theorem out4_eq (x0 x1 x2 x3 : Vec F S1x98304 .f32) : out4 x0 x1 x2 x3 = k0_pay1 x0 x1 x2 x3 := by
  unfold out4 r0
  rw [View.canon_unit_zero hz, View.ld_unit_zero hz, View.ld_unit_zero hz, View.ld_unit_zero hz, View.ld_unit_zero hz]

theorem cover4 (p0 : Vec F S1x98304 .f32) (y : S1x98304.Idx) :
    ∃ pc ∈ ([⟨r0, p0⟩] : List (View.Piece (Elt F) S1x98304 .f32)), y ∈ pc.1.set :=
  ⟨_, List.mem_singleton_self _, View.mem_set_unit_zero hz inb_S1x98304_S1x98304_0_0 y⟩

set_option maxHeartbeats 1000000 in
/-- The kernel body on whole staging memrefs, the four operands' at contents `x0 … x3` and the result's at anything:
    it runs to the continuation holding the operands' buffers as they were and the result's at `out4` of them. -/
theorem sound_kernel (c : Dev nD) (E : Set ℕ) (i : grid0.Coords)
    (arg1 : Memref sig .tc .vmem S1x98304 .f32) (harg1 : arg1.IsWhole) (arg2 : Memref sig .tc .vmem S1x98304 .f32) (harg2 : arg2.IsWhole)
    (arg3 : Memref sig .tc .vmem S1x98304 .f32) (harg3 : arg3.IsWhole) (arg4 : Memref sig .tc .vmem S1x98304 .f32) (harg4 : arg4.IsWhole)
    (arg5 : Memref sig .tc .vmem S1x98304 .f32) (harg5 : arg5.IsWhole)
    (x0 x1 x2 x3 : Vec F S1x98304 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 x0 x1 x2 x3)) -∗ K ⟨⟩))
      ⊢ wp frame (wpE (defs₀ (F := F)) Variants.none c none) E
          (cc0__fold_sigmoid_kernel i arg1 harg1 arg2 harg2 arg3 harg3 arg4 harg4 arg5 harg5) K := by
  simp only [cc0__fold_sigmoid_kernel_eq_skeleton]; unfold cc0__fold_sigmoid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The zero word: what the proof data puts in a staging buffer past the array's end, where nothing is stated. -/
abbrev zw : Elt F .f32 := Scalar.ofBits .f32 0#32

/-- Operand window `w`'s staging buffer after the body at point `t`, as the proof data names it: the window's block
    of its array on the part inside the array, the zero word past the array's end. -/
def inb0 (c : Dev nD) (t : Fin cfg0.N) : Vec F S1x98304 .f32 :=
  (cfg0.win 0).fill (cfg0.grid.coords t) (fun _ => zw) (iblk m c 0 t)
def inb1 (c : Dev nD) (t : Fin cfg0.N) : Vec F S1x98304 .f32 :=
  (cfg0.win 1).fill (cfg0.grid.coords t) (fun _ => zw) (iblk m c 1 t)
def inb2 (c : Dev nD) (t : Fin cfg0.N) : Vec F S1x98304 .f32 :=
  (cfg0.win 2).fill (cfg0.grid.coords t) (fun _ => zw) (iblk m c 2 t)
def inb3 (c : Dev nD) (t : Fin cfg0.N) : Vec F S1x98304 .f32 :=
  (cfg0.win 3).fill (cfg0.grid.coords t) (fun _ => zw) (iblk m c 3 t)

/-- The proof data of the one pipeline on core `c`: the arrays as the region finds them; after the body at point
    `t` each operand's buffer at its filled-out block and the result's at the payload of those four; the class's
    invariant; nothing owed; full shares. Every window is cut at the array's end, so the body obligation states
    each buffer only on the part inside the array. -/
def dats (_ : Fin 1) (c : Dev nD) : Dat τ (Elt F) Unit ℕ (UR sig nD τ) ℕ cfg0 c where
  A w := V m c (Pipeline.arrRef spec0 w)
  after w t := match w with
    | ⟨0, _⟩ => inb0 m c t
    | ⟨1, _⟩ => inb1 m c t
    | ⟨2, _⟩ => inb2 m c t
    | ⟨3, _⟩ => inb3 m c t
    | ⟨4, _⟩ => k0_pay1 (inb0 m c t) (inb1 m c t) (inb2 m c t) (inb3 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = inb0 m c t := by dsimp only [dats]
theorem after_1 (c : Dev nD) (t : Fin cfg0.N) : (dats m 0 c).after 1 t = inb1 m c t := by dsimp only [dats]
theorem after_2 (c : Dev nD) (t : Fin cfg0.N) : (dats m 0 c).after 2 t = inb2 m c t := by dsimp only [dats]
theorem after_3 (c : Dev nD) (t : Fin cfg0.N) : (dats m 0 c).after 3 t = inb3 m c t := by dsimp only [dats]
theorem after_4 (c : Dev nD) (t : Fin cfg0.N) :
    (dats m 0 c).after 4 t = k0_pay1 (inb0 m c t) (inb1 m c t) (inb2 m c t) (inb3 m c t) := by dsimp only [dats]

/-- What the body finds: each operand's buffer just fetched — its block on the part inside the array, `d`
    elsewhere —, -/
theorem before_0 (c : Dev nD) (t : Fin cfg0.N) (d) :
    (dats m 0 c).before 0 t d = (cfg0.win 0).fill (cfg0.grid.coords t) d (iblk m c 0 t) := by
  unfold Dat.before; rw [if_pos (fetch0_0 t)]; rfl
theorem before_1 (c : Dev nD) (t : Fin cfg0.N) (d) :
    (dats m 0 c).before 1 t d = (cfg0.win 1).fill (cfg0.grid.coords t) d (iblk m c 1 t) := by
  unfold Dat.before; rw [if_pos (fetch0_1 t)]; rfl
theorem before_2 (c : Dev nD) (t : Fin cfg0.N) (d) :
    (dats m 0 c).before 2 t d = (cfg0.win 2).fill (cfg0.grid.coords t) d (iblk m c 2 t) := by
  unfold Dat.before; rw [if_pos (fetch0_2 t)]; rfl
theorem before_3 (c : Dev nD) (t : Fin cfg0.N) (d) :
    (dats m 0 c).before 3 t d = (cfg0.win 3).fill (cfg0.grid.coords t) d (iblk m c 3 t) := by
  unfold Dat.before; rw [if_pos (fetch0_3 t)]; rfl
/-- and the result's buffer at contents nothing names (every point writes it back). -/
theorem before_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## The body obligation, at a generic point -/

/-- Two fillings of one operand block agree on the part inside the array, read through the result window's cut
    (the five windows have one index map and one cut, by unfolding the maps). -/
theorem fill_agree_0 (i : grid0.Coords) (d d' : (cfg0.win 0).block.Idx → Elt F .f32) (g) (j : ((cfg0.win 0).xblock i).Idx) :
    (cfg0.win 0).fill i d g ((cfg0.win 0).xinj i j) = (cfg0.win 0).fill i d' g ((cfg0.win 0).xinj i j) := by
  rw [Window.fill_xinj, Window.fill_xinj]
theorem fill_agree_1 (i : grid0.Coords) (d d' : (cfg0.win 1).block.Idx → Elt F .f32) (g) (j : ((cfg0.win 1).xblock i).Idx) :
    (cfg0.win 1).fill i d g ((cfg0.win 1).xinj i j) = (cfg0.win 1).fill i d' g ((cfg0.win 1).xinj i j) := by
  rw [Window.fill_xinj, Window.fill_xinj]
theorem fill_agree_2 (i : grid0.Coords) (d d' : (cfg0.win 2).block.Idx → Elt F .f32) (g) (j : ((cfg0.win 2).xblock i).Idx) :
    (cfg0.win 2).fill i d g ((cfg0.win 2).xinj i j) = (cfg0.win 2).fill i d' g ((cfg0.win 2).xinj i j) := by
  rw [Window.fill_xinj, Window.fill_xinj]
theorem fill_agree_3 (i : grid0.Coords) (d d' : (cfg0.win 3).block.Idx → Elt F .f32) (g) (j : ((cfg0.win 3).xblock i).Idx) :
    (cfg0.win 3).fill i d g ((cfg0.win 3).xinj i j) = (cfg0.win 3).fill i d' g ((cfg0.win 3).xinj i j) := by
  rw [Window.fill_xinj, Window.fill_xinj]

/-- The payload is pointwise, so its part inside the array depends on the operands' parts inside the array only. -/
theorem pay_cut_congr (i : grid0.Coords) (X0 Y0 X1 Y1 X2 Y2 X3 Y3 : Vec F S1x98304 .f32)
    (h0 : ∀ j, X0 ((cfg0.win 4).xinj i j) = Y0 ((cfg0.win 4).xinj i j))
    (h1 : ∀ j, X1 ((cfg0.win 4).xinj i j) = Y1 ((cfg0.win 4).xinj i j))
    (h2 : ∀ j, X2 ((cfg0.win 4).xinj i j) = Y2 ((cfg0.win 4).xinj i j))
    (h3 : ∀ j, X3 ((cfg0.win 4).xinj i j) = Y3 ((cfg0.win 4).xinj i j)) :
    (cfg0.win 4).cut i (k0_pay1 X0 X1 X2 X3) = (cfg0.win 4).cut i (k0_pay1 Y0 Y1 Y2 Y3) := by
  funext j
  show k0_pay1 X0 X1 X2 X3 ((cfg0.win 4).xinj i j) = k0_pay1 Y0 Y1 Y2 Y3 ((cfg0.win 4).xinj i j)
  rw [k0_pay1_apply, k0_pay1_apply, h0 j, h1 j, h2 j, h3 j]

/-- What the body is called with at point `t` (the library's obligation, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: each buffer stated on the part inside the array. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t)))))

/-- The body at any point: the operands' memrefs hold their blocks filled out with whatever was there, the
    result's anything; the body leaves the operands' as they were and the result's at the payload of the four,
    which on the part inside the array is the payload of the proof data's four blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  iapply (sound_kernel c Set.univ (grid0.coords t) _ _ _ _ _ _ _ _ _ _
    ((cfg0.win 0).fill (cfg0.grid.coords t) d0 (iblk m c 0 t)) ((cfg0.win 1).fill (cfg0.grid.coords t) d1 (iblk m c 1 t))
    ((cfg0.win 2).fill (cfg0.grid.coords t) d2 (iblk m c 2 t)) ((cfg0.win 3).fill (cfg0.grid.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0; unfold inb0; rw [Window.cut_fill]; iexact H0
  isplitl [H1]
  · iexists d1; unfold inb1; rw [Window.cut_fill]; iexact H1
  isplitl [H2]
  · iexists d2; unfold inb2; rw [Window.cut_fill]; iexact H2
  isplitl [H3]
  · iexists d3; unfold inb3; rw [Window.cut_fill]; iexact H3
  · iexists (k0_pay1 ((cfg0.win 0).fill (cfg0.grid.coords t) d0 (iblk m c 0 t)) ((cfg0.win 1).fill (cfg0.grid.coords t) d1 (iblk m c 1 t))
      ((cfg0.win 2).fill (cfg0.grid.coords t) d2 (iblk m c 2 t)) ((cfg0.win 3).fill (cfg0.grid.coords t) d3 (iblk m c 3 t)))
    rw [out4_eq]
    unfold inb0 inb1 inb2 inb3
    rw [Window.fill_congr_cut (cfg0.win 4) (cfg0.grid.coords t)
      (pay_cut_congr (cfg0.grid.coords t) _ _ _ _ _ _ _ _
        (fun j => fill_agree_0 _ d0 (fun _ => zw) (iblk m c 0 t) j) (fun j => fill_agree_1 _ d1 (fun _ => zw) (iblk m c 1 t) j)
        (fun j => fill_agree_2 _ d2 (fun _ => zw) (iblk m c 2 t) j) (fun j => fill_agree_3 _ d3 (fun _ => zw) (iblk m c 3 t) j))]
    iexact H4

/-- The library's body obligation, at every point. -/
theorem body_obligation (c : Dev nD) :
    BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: after every run the four argument arrays hold what they held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyKI.lean ====
/-
  The pipelined kernel of `KernelIdeal`: a one-axis grid of 44 points over [1, 4244832] arrays in [1, 98304] blocks, the
  last block overhanging the arrays' end, so that every window's transfers are cut there. At each point the body loads
  the four operand blocks whole, forms the logistic of one half of their four-term sum, lane by lane, and stores it
  whole into the result's block.

  This module gives the proof data (after the body each operand's staging buffer holds its block of the array on the
  part inside the array, and the result's holds the payload of those four), the body's triple, the body obligation in
  its form for cut windows (each buffer is stated only on the part inside the array: the payload is pointwise, so its
  part inside the array depends on the operands' parts inside the array only), the run of @main around the region,
  and the frame: the four argument arrays end as they were.
-/
import proofs.«148812_j62852551409829_2_alg».proof.Proof.Gen.KernelIdeal.Frame
import proofs.«148812_j62852551409829_2_alg».proof.Proof.Gen.KernelIdeal.Skeleton
import Idealize.ShloMosaic.Lib.Pipeline.Kit
import Idealize.ShloMosaic.Lib.Pipeline.Value
import Idealize.ShloMosaic.Lib.Tactic

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block payload at one index: the logistic of one half of the four-term sum of the operands there. -/
theorem k0_pay1_apply (X0 X1 X2 X3 : Vec F S1x98304 .f32) (j : S1x98304.Idx) :
    k0_pay1 X0 X1 X2 X3 j
      = FloatOps.logistic (FloatOps.mulf (Scalar.ofBits .f32 0x3F000000#32)
          (FloatOps.addf (FloatOps.addf (FloatOps.addf (X0 j) (X1 j)) (X2 j)) (X3 j))) := by
  unfold k0_pay1
  simp only [shapeCast_self]
  rfl

/-! ## The body's accesses -/

/-- The rectangle of every access of the body: the whole staging block, at offsets zero. -/
abbrev r0 : Rect S1x98304 := Rect.unit (s := S1x98304) ![0, 0] S1x98304.size inb_S1x98304_S1x98304_0_0

theorem hz : (![0, 0] : Fin 2 → Nat) = fun _ => 0 := funext fun a => by fin_cases a <;> rfl

/-- What the body leaves in the result's staging buffer, from what the four operand buffers hold: its one store as
    a piece over the four loads. -/
def out4 (x0 x1 x2 x3 : Vec F S1x98304 .f32) : Vec F S1x98304 .f32 :=
  View.canon [⟨r0, k0_pay1 (View.ld x0 r0) (View.ld x1 r0) (View.ld x2 r0) (View.ld x3 r0)⟩]

/-- The store covers the buffer and the loads read all of theirs: the buffer ends at the payload of the contents. -/
theorem out4_eq (x0 x1 x2 x3 : Vec F S1x98304 .f32) : out4 x0 x1 x2 x3 = k0_pay1 x0 x1 x2 x3 := by
  unfold out4 r0
  rw [View.canon_unit_zero hz, View.ld_unit_zero hz, View.ld_unit_zero hz, View.ld_unit_zero hz, View.ld_unit_zero hz]

theorem cover4 (p0 : Vec F S1x98304 .f32) (y : S1x98304.Idx) :
    ∃ pc ∈ ([⟨r0, p0⟩] : List (View.Piece (Elt F) S1x98304 .f32)), y ∈ pc.1.set :=
  ⟨_, List.mem_singleton_self _, View.mem_set_unit_zero hz inb_S1x98304_S1x98304_0_0 y⟩

set_option maxHeartbeats 1000000 in
/-- The kernel body on whole staging memrefs, the four operands' at contents `x0 … x3` and the result's at anything:
    it runs to the continuation holding the operands' buffers as they were and the result's at `out4` of them. -/
theorem sound_kernel (c : Dev nD) (E : Set ℕ) (i : grid0.Coords)
    (arg1 : Memref sig .tc .vmem S1x98304 .f32) (harg1 : arg1.IsWhole) (arg2 : Memref sig .tc .vmem S1x98304 .f32) (harg2 : arg2.IsWhole)
    (arg3 : Memref sig .tc .vmem S1x98304 .f32) (harg3 : arg3.IsWhole) (arg4 : Memref sig .tc .vmem S1x98304 .f32) (harg4 : arg4.IsWhole)
    (arg5 : Memref sig .tc .vmem S1x98304 .f32) (harg5 : arg5.IsWhole)
    (x0 x1 x2 x3 : Vec F S1x98304 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 x0 x1 x2 x3)) -∗ K ⟨⟩))
      ⊢ wp frame (wpE (defs₀ (F := F)) Variants.none c none) E
          (cc0__fold_sigmoid_kernel i arg1 harg1 arg2 harg2 arg3 harg3 arg4 harg4 arg5 harg5) K := by
  simp only [cc0__fold_sigmoid_kernel_eq_skeleton]; unfold cc0__fold_sigmoid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The zero word: what the proof data puts in a staging buffer past the array's end, where nothing is stated. -/
abbrev zw : Elt F .f32 := Scalar.ofBits .f32 0#32

/-- Operand window `w`'s staging buffer after the body at point `t`, as the proof data names it: the window's block
    of its array on the part inside the array, the zero word past the array's end. -/
def inb0 (c : Dev nD) (t : Fin cfg0.N) : Vec F S1x98304 .f32 :=
  (cfg0.win 0).fill (cfg0.grid.coords t) (fun _ => zw) (iblk m c 0 t)
def inb1 (c : Dev nD) (t : Fin cfg0.N) : Vec F S1x98304 .f32 :=
  (cfg0.win 1).fill (cfg0.grid.coords t) (fun _ => zw) (iblk m c 1 t)
def inb2 (c : Dev nD) (t : Fin cfg0.N) : Vec F S1x98304 .f32 :=
  (cfg0.win 2).fill (cfg0.grid.coords t) (fun _ => zw) (iblk m c 2 t)
def inb3 (c : Dev nD) (t : Fin cfg0.N) : Vec F S1x98304 .f32 :=
  (cfg0.win 3).fill (cfg0.grid.coords t) (fun _ => zw) (iblk m c 3 t)

/-- The proof data of the one pipeline on core `c`: the arrays as the region finds them; after the body at point
    `t` each operand's buffer at its filled-out block and the result's at the payload of those four; the class's
    invariant; nothing owed; full shares. Every window is cut at the array's end, so the body obligation states
    each buffer only on the part inside the array. -/
def dats (_ : Fin 1) (c : Dev nD) : Dat τ (Elt F) Unit ℕ (UR sig nD τ) ℕ cfg0 c where
  A w := V m c (Pipeline.arrRef spec0 w)
  after w t := match w with
    | ⟨0, _⟩ => inb0 m c t
    | ⟨1, _⟩ => inb1 m c t
    | ⟨2, _⟩ => inb2 m c t
    | ⟨3, _⟩ => inb3 m c t
    | ⟨4, _⟩ => k0_pay1 (inb0 m c t) (inb1 m c t) (inb2 m c t) (inb3 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = inb0 m c t := by dsimp only [dats]
theorem after_1 (c : Dev nD) (t : Fin cfg0.N) : (dats m 0 c).after 1 t = inb1 m c t := by dsimp only [dats]
theorem after_2 (c : Dev nD) (t : Fin cfg0.N) : (dats m 0 c).after 2 t = inb2 m c t := by dsimp only [dats]
theorem after_3 (c : Dev nD) (t : Fin cfg0.N) : (dats m 0 c).after 3 t = inb3 m c t := by dsimp only [dats]
theorem after_4 (c : Dev nD) (t : Fin cfg0.N) :
    (dats m 0 c).after 4 t = k0_pay1 (inb0 m c t) (inb1 m c t) (inb2 m c t) (inb3 m c t) := by dsimp only [dats]

/-- What the body finds: each operand's buffer just fetched — its block on the part inside the array, `d`
    elsewhere —, -/
theorem before_0 (c : Dev nD) (t : Fin cfg0.N) (d) :
    (dats m 0 c).before 0 t d = (cfg0.win 0).fill (cfg0.grid.coords t) d (iblk m c 0 t) := by
  unfold Dat.before; rw [if_pos (fetch0_0 t)]; rfl
theorem before_1 (c : Dev nD) (t : Fin cfg0.N) (d) :
    (dats m 0 c).before 1 t d = (cfg0.win 1).fill (cfg0.grid.coords t) d (iblk m c 1 t) := by
  unfold Dat.before; rw [if_pos (fetch0_1 t)]; rfl
theorem before_2 (c : Dev nD) (t : Fin cfg0.N) (d) :
    (dats m 0 c).before 2 t d = (cfg0.win 2).fill (cfg0.grid.coords t) d (iblk m c 2 t) := by
  unfold Dat.before; rw [if_pos (fetch0_2 t)]; rfl
theorem before_3 (c : Dev nD) (t : Fin cfg0.N) (d) :
    (dats m 0 c).before 3 t d = (cfg0.win 3).fill (cfg0.grid.coords t) d (iblk m c 3 t) := by
  unfold Dat.before; rw [if_pos (fetch0_3 t)]; rfl
/-- and the result's buffer at contents nothing names (every point writes it back). -/
theorem before_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## The body obligation, at a generic point -/

/-- Two fillings of one operand block agree on the part inside the array, read through the result window's cut
    (the five windows have one index map and one cut, by unfolding the maps). -/
theorem fill_agree_0 (i : grid0.Coords) (d d' : (cfg0.win 0).block.Idx → Elt F .f32) (g) (j : ((cfg0.win 0).xblock i).Idx) :
    (cfg0.win 0).fill i d g ((cfg0.win 0).xinj i j) = (cfg0.win 0).fill i d' g ((cfg0.win 0).xinj i j) := by
  rw [Window.fill_xinj, Window.fill_xinj]
theorem fill_agree_1 (i : grid0.Coords) (d d' : (cfg0.win 1).block.Idx → Elt F .f32) (g) (j : ((cfg0.win 1).xblock i).Idx) :
    (cfg0.win 1).fill i d g ((cfg0.win 1).xinj i j) = (cfg0.win 1).fill i d' g ((cfg0.win 1).xinj i j) := by
  rw [Window.fill_xinj, Window.fill_xinj]
theorem fill_agree_2 (i : grid0.Coords) (d d' : (cfg0.win 2).block.Idx → Elt F .f32) (g) (j : ((cfg0.win 2).xblock i).Idx) :
    (cfg0.win 2).fill i d g ((cfg0.win 2).xinj i j) = (cfg0.win 2).fill i d' g ((cfg0.win 2).xinj i j) := by
  rw [Window.fill_xinj, Window.fill_xinj]
theorem fill_agree_3 (i : grid0.Coords) (d d' : (cfg0.win 3).block.Idx → Elt F .f32) (g) (j : ((cfg0.win 3).xblock i).Idx) :
    (cfg0.win 3).fill i d g ((cfg0.win 3).xinj i j) = (cfg0.win 3).fill i d' g ((cfg0.win 3).xinj i j) := by
  rw [Window.fill_xinj, Window.fill_xinj]

/-- The payload is pointwise, so its part inside the array depends on the operands' parts inside the array only. -/
theorem pay_cut_congr (i : grid0.Coords) (X0 Y0 X1 Y1 X2 Y2 X3 Y3 : Vec F S1x98304 .f32)
    (h0 : ∀ j, X0 ((cfg0.win 4).xinj i j) = Y0 ((cfg0.win 4).xinj i j))
    (h1 : ∀ j, X1 ((cfg0.win 4).xinj i j) = Y1 ((cfg0.win 4).xinj i j))
    (h2 : ∀ j, X2 ((cfg0.win 4).xinj i j) = Y2 ((cfg0.win 4).xinj i j))
    (h3 : ∀ j, X3 ((cfg0.win 4).xinj i j) = Y3 ((cfg0.win 4).xinj i j)) :
    (cfg0.win 4).cut i (k0_pay1 X0 X1 X2 X3) = (cfg0.win 4).cut i (k0_pay1 Y0 Y1 Y2 Y3) := by
  funext j
  show k0_pay1 X0 X1 X2 X3 ((cfg0.win 4).xinj i j) = k0_pay1 Y0 Y1 Y2 Y3 ((cfg0.win 4).xinj i j)
  rw [k0_pay1_apply, k0_pay1_apply, h0 j, h1 j, h2 j, h3 j]

/-- What the body is called with at point `t` (the library's obligation, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: each buffer stated on the part inside the array. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t)))))

/-- The body at any point: the operands' memrefs hold their blocks filled out with whatever was there, the
    result's anything; the body leaves the operands' as they were and the result's at the payload of the four,
    which on the part inside the array is the payload of the proof data's four blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  iapply (sound_kernel c Set.univ (grid0.coords t) _ _ _ _ _ _ _ _ _ _
    ((cfg0.win 0).fill (cfg0.grid.coords t) d0 (iblk m c 0 t)) ((cfg0.win 1).fill (cfg0.grid.coords t) d1 (iblk m c 1 t))
    ((cfg0.win 2).fill (cfg0.grid.coords t) d2 (iblk m c 2 t)) ((cfg0.win 3).fill (cfg0.grid.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0; unfold inb0; rw [Window.cut_fill]; iexact H0
  isplitl [H1]
  · iexists d1; unfold inb1; rw [Window.cut_fill]; iexact H1
  isplitl [H2]
  · iexists d2; unfold inb2; rw [Window.cut_fill]; iexact H2
  isplitl [H3]
  · iexists d3; unfold inb3; rw [Window.cut_fill]; iexact H3
  · iexists (k0_pay1 ((cfg0.win 0).fill (cfg0.grid.coords t) d0 (iblk m c 0 t)) ((cfg0.win 1).fill (cfg0.grid.coords t) d1 (iblk m c 1 t))
      ((cfg0.win 2).fill (cfg0.grid.coords t) d2 (iblk m c 2 t)) ((cfg0.win 3).fill (cfg0.grid.coords t) d3 (iblk m c 3 t)))
    rw [out4_eq]
    unfold inb0 inb1 inb2 inb3
    rw [Window.fill_congr_cut (cfg0.win 4) (cfg0.grid.coords t)
      (pay_cut_congr (cfg0.grid.coords t) _ _ _ _ _ _ _ _
        (fun j => fill_agree_0 _ d0 (fun _ => zw) (iblk m c 0 t) j) (fun j => fill_agree_1 _ d1 (fun _ => zw) (iblk m c 1 t) j)
        (fun j => fill_agree_2 _ d2 (fun _ => zw) (iblk m c 2 t) j) (fun j => fill_agree_3 _ d3 (fun _ => zw) (iblk m c 3 t) j))]
    iexact H4

/-- The library's body obligation, at every point. -/
theorem body_obligation (c : Dev nD) :
    BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: after every run the four argument arrays hold what they held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.RefStages.lean ====
/-
  The reference program, one operation at a time. `val_<buffer>` is the value an operation writes, as a function of the
  argument arrays it depends on; `val_<buffer>_apply` reads it at an index from its operands at an index, for every
  operation whose result element depends on one element of each operand (a layout operation reads its operand at
  `idx_<buffer> i`); on the extended reals a product of matrices is the sum over the contracted index and a sum along an
  axis is the initial value plus the sum over that axis. The gathers, the scatters and the two joins of index vectors
  are read in the next module.
-/
import proofs.«148812_j62852551409829_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.slice %arg3 [0:1, 0:8489664] : (tensor<2x8489664xi32>) -> tensor<1x8489664xi32>
def val_main_v0 (x3 : (⟨S2x8489664, .i32⟩ : BufTy).Contents (Elt F)) : (⟨S1x8489664, .i32⟩ : BufTy).Contents (Elt F) :=
  extractStridedSlice S1x8489664 ![0, 0] (x3) slices_S2x8489664_S1x8489664_0_0
abbrev idx_main_v0 (i : S1x8489664.Idx) : S2x8489664.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (x3 : (⟨S2x8489664, .i32⟩ : BufTy).Contents (Elt F)) (i : S1x8489664.Idx) :
    val_main_v0 (F := F) x3 i = x3 (idx_main_v0 i) := by
  unfold val_main_v0
  exact extractStridedSlice_apply ![0, 0] x3 slices_S2x8489664_S1x8489664_0_0 i (idx_main_v0 i) (fun a => match a with
    | ⟨0, _⟩ => by show (i 0).val = 0 + (i 0).val; omega
    | ⟨1, _⟩ => by show (i 1).val = 0 + (i 1).val; omega)

-- %1 = stablehlo.reshape %0 : (tensor<1x8489664xi32>) -> tensor<8489664xi32>
def val_main_v1 (x3 : (⟨S2x8489664, .i32⟩ : BufTy).Contents (Elt F)) : (⟨S8489664, .i32⟩ : BufTy).Contents (Elt F) :=
  shapeCast _ (val_main_v0 (F := F) x3) shapeCasts_S1x8489664_S8489664
abbrev idx_main_v1 (i : S8489664.Idx) : S1x8489664.Idx := fun a => match a with
  | ⟨0, _⟩ => ⟨0, Nat.one_pos⟩
  | ⟨1, _⟩ => ⟨((i 0).val) % 8489664, by have h0 : (i 0).val < 8489664 := (i 0).isLt; show ((i 0).val) % 8489664 < 8489664; omega⟩
theorem val_main_v1_apply (x3 : (⟨S2x8489664, .i32⟩ : BufTy).Contents (Elt F)) (i : S8489664.Idx) :
    val_main_v1 (F := F) x3 i = val_main_v0 (F := F) x3 (idx_main_v1 i) := by
  unfold val_main_v1
  generalize val_main_v0 (F := F) x3 = y
  exact shapeCast_apply y shapeCasts_S1x8489664_S8489664 i (idx_main_v1 i)
    (by rewrite [Shape.rowMajor_val_two, Shape.rowMajor_val_one]; have h0 : (i 0).val < 8489664 := (i 0).isLt; show 0 * 8489664 + ((i 0).val) % 8489664 = (i 0).val; omega)

-- %2 = stablehlo.slice %arg3 [1:2, 0:8489664] : (tensor<2x8489664xi32>) -> tensor<1x8489664xi32>
def val_main_v2 (x3 : (⟨S2x8489664, .i32⟩ : BufTy).Contents (Elt F)) : (⟨S1x8489664, .i32⟩ : BufTy).Contents (Elt F) :=
  extractStridedSlice S1x8489664 ![1, 0] (x3) slices_S2x8489664_S1x8489664_1_0
abbrev idx_main_v2 (i : S1x8489664.Idx) : S2x8489664.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (x3 : (⟨S2x8489664, .i32⟩ : BufTy).Contents (Elt F)) (i : S1x8489664.Idx) :
    val_main_v2 (F := F) x3 i = x3 (idx_main_v2 i) := by
  unfold val_main_v2
  exact extractStridedSlice_apply ![1, 0] x3 slices_S2x8489664_S1x8489664_1_0 i (idx_main_v2 i) (fun a => match a with
    | ⟨0, _⟩ => by show 1 + (i 0).val = 1 + (i 0).val; omega
    | ⟨1, _⟩ => by show (i 1).val = 0 + (i 1).val; omega)

-- %3 = stablehlo.reshape %2 : (tensor<1x8489664xi32>) -> tensor<8489664xi32>
def val_main_v3 (x3 : (⟨S2x8489664, .i32⟩ : BufTy).Contents (Elt F)) : (⟨S8489664, .i32⟩ : BufTy).Contents (Elt F) :=
  shapeCast _ (val_main_v2 (F := F) x3) shapeCasts_S1x8489664_S8489664
abbrev idx_main_v3 (i : S8489664.Idx) : S1x8489664.Idx := fun a => match a with
  | ⟨0, _⟩ => ⟨0, Nat.one_pos⟩
  | ⟨1, _⟩ => ⟨((i 0).val) % 8489664, by have h0 : (i 0).val < 8489664 := (i 0).isLt; show ((i 0).val) % 8489664 < 8489664; omega⟩
theorem val_main_v3_apply (x3 : (⟨S2x8489664, .i32⟩ : BufTy).Contents (Elt F)) (i : S8489664.Idx) :
    val_main_v3 (F := F) x3 i = val_main_v2 (F := F) x3 (idx_main_v3 i) := by
  unfold val_main_v3
  generalize val_main_v2 (F := F) x3 = y
  exact shapeCast_apply y shapeCasts_S1x8489664_S8489664 i (idx_main_v3 i)
    (by rewrite [Shape.rowMajor_val_two, Shape.rowMajor_val_one]; have h0 : (i 0).val < 8489664 := (i 0).isLt; show 0 * 8489664 + ((i 0).val) % 8489664 = (i 0).val; omega)

-- %4 = stablehlo.iota dim = 0 : tensor<132651xi32>
def val_main_v4 : (⟨S132651, .i32⟩ : BufTy).Contents (Elt F) :=
  iotaInDim S132651 32 0
theorem val_main_v4_apply (i : S132651.Idx) :
    val_main_v4 (F := F) i = BitVec.ofNat 32 (i 0).val := rfl

-- %5 = stablehlo.concatenate %1, %4, dim = 0 : (tensor<8489664xi32>, tensor<132651xi32>) -> tensor<8622315xi32>
def val_main_v5 (x3 : (⟨S2x8489664, .i32⟩ : BufTy).Contents (Elt F)) : (⟨S8622315, .i32⟩ : BufTy).Contents (Elt F) :=
  concatenate S8622315 0 [⟨S8489664, (val_main_v1 (F := F) x3)⟩, ⟨S132651, (val_main_v4 (F := F))⟩] concatenates_S8489664_S132651_S8622315_d0

-- %6 = stablehlo.concatenate %3, %4, dim = 0 : (tensor<8489664xi32>, tensor<132651xi32>) -> tensor<8622315xi32>
def val_main_v6 (x3 : (⟨S2x8489664, .i32⟩ : BufTy).Contents (Elt F)) : (⟨S8622315, .i32⟩ : BufTy).Contents (Elt F) :=
  concatenate S8622315 0 [⟨S8489664, (val_main_v3 (F := F) x3)⟩, ⟨S132651, (val_main_v4 (F := F))⟩] concatenates_S8489664_S132651_S8622315_d0

-- %cst = stablehlo.constant dense<1.000000e+00> : tensor<f32>
def val_main_cst : (⟨S_, .f32⟩ : BufTy).Contents (Elt F) :=
  constant S_ .f32 0x3F800000#32
theorem val_main_cst_apply (i : S_.Idx) :
    val_main_cst (F := F) i = FloatOps.ofBits .f32 0x3F800000#32 := rfl

-- %7 = stablehlo.broadcast_in_dim %cst, dims = [] : (tensor<f32>) -> tensor<8622315xf32>
def val_main_v7 : (⟨S8622315, .f32⟩ : BufTy).Contents (Elt F) :=
  broadcastInDim S8622315 ![] bcast_S_S8622315 (val_main_cst (F := F))
abbrev idx_main_v7 (i : S8622315.Idx) : S_.Idx := fun a => a.elim0
theorem val_main_v7_apply (i : S8622315.Idx) :
    val_main_v7 (F := F) i = val_main_cst (F := F) (idx_main_v7 i) := by
  unfold val_main_v7
  generalize val_main_cst (F := F) = y
  exact broadcastInDim_apply _ bcast_S_S8622315 y i (idx_main_v7 i) (fun a => a.elim0)

-- %cst_0 = stablehlo.constant dense<0.000000e+00> : tensor<f32>
def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

-- %8 = stablehlo.broadcast_in_dim %cst_0, dims = [] : (tensor<f32>) -> tensor<132651xf32>
def val_main_v8 : (⟨S132651, .f32⟩ : BufTy).Contents (Elt F) :=
  broadcastInDim S132651 ![] bcast_S_S132651 (val_main_cst_0 (F := F))
abbrev idx_main_v8 (i : S132651.Idx) : S_.Idx := fun a => a.elim0
theorem val_main_v8_apply (i : S132651.Idx) :
    val_main_v8 (F := F) i = val_main_cst_0 (F := F) (idx_main_v8 i) := by
  unfold val_main_v8
  generalize val_main_cst_0 (F := F) = y
  exact broadcastInDim_apply _ bcast_S_S132651 y i (idx_main_v8 i) (fun a => a.elim0)

-- %9 = stablehlo.broadcast_in_dim %6, dims = [0] : (tensor<8622315xi32>) -> tensor<8622315x1xi32>
def val_main_v9 (x3 : (⟨S2x8489664, .i32⟩ : BufTy).Contents (Elt F)) : (⟨S8622315x1, .i32⟩ : BufTy).Contents (Elt F) :=
  broadcastInDim S8622315x1 ![0] bcast_S8622315_S8622315x1_0 (val_main_v6 (F := F) x3)
abbrev idx_main_v9 (i : S8622315x1.Idx) : S8622315.Idx := fun a => match a with
  | ⟨0, _⟩ => ⟨(i 0).val, (i 0).isLt⟩
theorem val_main_v9_apply (x3 : (⟨S2x8489664, .i32⟩ : BufTy).Contents (Elt F)) (i : S8622315x1.Idx) :
    val_main_v9 (F := F) x3 i = val_main_v6 (F := F) x3 (idx_main_v9 i) := by
  unfold val_main_v9
  generalize val_main_v6 (F := F) x3 = y
  exact broadcastInDim_apply _ bcast_S8622315_S8622315x1_0 y i (idx_main_v9 i) (fun a => match a with
    | ⟨0, _⟩ => by show (i 0).val = if (8622315 : Nat) = 1 then 0 else (i 0).val; rw [if_neg (by decide)])

-- %10 = "stablehlo.scatter"(%8, %9, %7) <{indices_are_sorted = false, scatter_dimension_numbers = #stablehlo.scatter<inserted_window_dims = [0], scatter_dims_to_operand_dims = [0], index_vector_dim = 1>, unique_indices = false}> ( {
def val_main_v10 (x3 : (⟨S2x8489664, .i32⟩ : BufTy).Contents (Elt F)) : (⟨S132651, .f32⟩ : BufTy).Contents (Elt F) :=
  Host.scatterAdd scatter_S132651_S8622315x1_S8622315_n_0_0_1 (val_main_v8 (F := F)) (val_main_v9 (F := F) x3) (val_main_v7 (F := F))

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %11 = stablehlo.broadcast_in_dim %cst_1, dims = [] : (tensor<f32>) -> tensor<132651xf32>
def val_main_v11 : (⟨S132651, .f32⟩ : BufTy).Contents (Elt F) :=
  broadcastInDim S132651 ![] bcast_S_S132651 (val_main_cst_1 (F := F))
abbrev idx_main_v11 (i : S132651.Idx) : S_.Idx := fun a => a.elim0
theorem val_main_v11_apply (i : S132651.Idx) :
    val_main_v11 (F := F) i = val_main_cst_1 (F := F) (idx_main_v11 i) := by
  unfold val_main_v11
  generalize val_main_cst_1 (F := F) = y
  exact broadcastInDim_apply _ bcast_S_S132651 y i (idx_main_v11 i) (fun a => a.elim0)

-- %12 = stablehlo.compare GT, %10, %11, FLOAT : (tensor<132651xf32>, tensor<132651xf32>) -> tensor<132651xi1>
def val_main_v12 (x3 : (⟨S2x8489664, .i32⟩ : BufTy).Contents (Elt F)) : (⟨S132651, .i1⟩ : BufTy).Contents (Elt F) :=
  cmpf .ogt (val_main_v10 (F := F) x3) (val_main_v11 (F := F))
theorem val_main_v12_apply (x3 : (⟨S2x8489664, .i32⟩ : BufTy).Contents (Elt F)) (i : S132651.Idx) :
    val_main_v12 (F := F) x3 i = FloatOps.cmpf .ogt (val_main_v10 (F := F) x3 i) (val_main_v11 (F := F) i) := rfl

-- %cst_2 = stablehlo.constant dense<9.99999996E-13> : tensor<f32>
def val_main_cst_2 : (⟨S_, .f32⟩ : BufTy).Contents (Elt F) :=
  constant S_ .f32 0x2B8CBCCC#32
theorem val_main_cst_2_apply (i : S_.Idx) :
    val_main_cst_2 (F := F) i = FloatOps.ofBits .f32 0x2B8CBCCC#32 := rfl

-- %13 = stablehlo.broadcast_in_dim %cst_2, dims = [] : (tensor<f32>) -> tensor<132651xf32>
def val_main_v13 : (⟨S132651, .f32⟩ : BufTy).Contents (Elt F) :=
  broadcastInDim S132651 ![] bcast_S_S132651 (val_main_cst_2 (F := F))
abbrev idx_main_v13 (i : S132651.Idx) : S_.Idx := fun a => a.elim0
theorem val_main_v13_apply (i : S132651.Idx) :
    val_main_v13 (F := F) i = val_main_cst_2 (F := F) (idx_main_v13 i) := by
  unfold val_main_v13
  generalize val_main_cst_2 (F := F) = y
  exact broadcastInDim_apply _ bcast_S_S132651 y i (idx_main_v13 i) (fun a => a.elim0)

-- %14 = stablehlo.maximum %10, %13 : tensor<132651xf32>
def val_main_v14 (x3 : (⟨S2x8489664, .i32⟩ : BufTy).Contents (Elt F)) : (⟨S132651, .f32⟩ : BufTy).Contents (Elt F) :=
  maximumf (val_main_v10 (F := F) x3) (val_main_v13 (F := F))
theorem val_main_v14_apply (x3 : (⟨S2x8489664, .i32⟩ : BufTy).Contents (Elt F)) (i : S132651.Idx) :
    val_main_v14 (F := F) x3 i = FloatOps.maximumf (val_main_v10 (F := F) x3 i) (val_main_v13 (F := F) i) := rfl

-- %15 = stablehlo.rsqrt %14 : tensor<132651xf32>
def val_main_v15 (x3 : (⟨S2x8489664, .i32⟩ : BufTy).Contents (Elt F)) : (⟨S132651, .f32⟩ : BufTy).Contents (Elt F) :=
  Host.rsqrt (val_main_v14 (F := F) x3)
theorem val_main_v15_apply (x3 : (⟨S2x8489664, .i32⟩ : BufTy).Contents (Elt F)) (i : S132651.Idx) :
    val_main_v15 (F := F) x3 i = FloatOps.hostUnary .rsqrt (val_main_v14 (F := F) x3 i) := rfl

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- @_where's %0 = stablehlo.convert %arg2 : tensor<f32>, in %16 = func.call @_where(…) (record main_call0)
def val_main_call0_v0 : (⟨S_, .f32⟩ : BufTy).Contents (Elt F) :=
  id (val_main_cst_3 (F := F))
theorem val_main_call0_v0_apply (i : S_.Idx) :
    val_main_call0_v0 (F := F) i = (val_main_cst_3 (F := F) i) := rfl

-- @_where's %1 = stablehlo.broadcast_in_dim %0, dims = [] : (tensor<f32>) -> tensor<132651xf32>, in %16 = func.call @_where(…) (record main_call0)
def val_main_call0_v1 : (⟨S132651, .f32⟩ : BufTy).Contents (Elt F) :=
  broadcastInDim S132651 ![] bcast_S_S132651 (val_main_call0_v0 (F := F))
abbrev idx_main_call0_v1 (i : S132651.Idx) : S_.Idx := fun a => a.elim0
theorem val_main_call0_v1_apply (i : S132651.Idx) :
    val_main_call0_v1 (F := F) i = val_main_call0_v0 (F := F) (idx_main_call0_v1 i) := by
  unfold val_main_call0_v1
  generalize val_main_call0_v0 (F := F) = y
  exact broadcastInDim_apply _ bcast_S_S132651 y i (idx_main_call0_v1 i) (fun a => a.elim0)

-- %16 = func.call @_where(…) (record main_call0) result 0: @_where's %2 = stablehlo.select %arg0, %arg1, %1 : tensor<132651xi1>, tensor<132651xf32>
def val_main_v16 (x3 : (⟨S2x8489664, .i32⟩ : BufTy).Contents (Elt F)) : (⟨S132651, .f32⟩ : BufTy).Contents (Elt F) :=
  select (val_main_v12 (F := F) x3) (val_main_v15 (F := F) x3) (val_main_call0_v1 (F := F))
theorem val_main_v16_apply (x3 : (⟨S2x8489664, .i32⟩ : BufTy).Contents (Elt F)) (i : S132651.Idx) :
    val_main_v16 (F := F) x3 i = Scalar.select (val_main_v12 (F := F) x3 i) (val_main_v15 (F := F) x3 i) (val_main_call0_v1 (F := F) i) := rfl

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %17 = stablehlo.broadcast_in_dim %c, dims = [] : (tensor<i32>) -> tensor<8622315xi32>
def val_main_v17 : (⟨S8622315, .i32⟩ : BufTy).Contents (Elt F) :=
  broadcastInDim S8622315 ![] bcast_S_S8622315 (val_main_c (F := F))
abbrev idx_main_v17 (i : S8622315.Idx) : S_.Idx := fun a => a.elim0
theorem val_main_v17_apply (i : S8622315.Idx) :
    val_main_v17 (F := F) i = val_main_c (F := F) (idx_main_v17 i) := by
  unfold val_main_v17
  generalize val_main_c (F := F) = y
  exact broadcastInDim_apply _ bcast_S_S8622315 y i (idx_main_v17 i) (fun a => a.elim0)

-- %18 = stablehlo.compare LT, %5, %17, SIGNED : (tensor<8622315xi32>, tensor<8622315xi32>) -> tensor<8622315xi1>
def val_main_v18 (x3 : (⟨S2x8489664, .i32⟩ : BufTy).Contents (Elt F)) : (⟨S8622315, .i1⟩ : BufTy).Contents (Elt F) :=
  cmpi .slt (val_main_v5 (F := F) x3) (val_main_v17 (F := F))
theorem val_main_v18_apply (x3 : (⟨S2x8489664, .i32⟩ : BufTy).Contents (Elt F)) (i : S8622315.Idx) :
    val_main_v18 (F := F) x3 i = IntOp.cmpi .slt (val_main_v5 (F := F) x3 i) (val_main_v17 (F := F) i) := rfl

-- %c_4 = stablehlo.constant dense<132651> : tensor<i32>
def val_main_c_4 : (⟨S_, .i32⟩ : BufTy).Contents (Elt F) :=
  constantI S_ 32 132651#32
theorem val_main_c_4_apply (i : S_.Idx) :
    val_main_c_4 (F := F) i = 132651#32 := rfl

-- %19 = stablehlo.broadcast_in_dim %c_4, dims = [] : (tensor<i32>) -> tensor<8622315xi32>
def val_main_v19 : (⟨S8622315, .i32⟩ : BufTy).Contents (Elt F) :=
  broadcastInDim S8622315 ![] bcast_S_S8622315 (val_main_c_4 (F := F))
abbrev idx_main_v19 (i : S8622315.Idx) : S_.Idx := fun a => a.elim0
theorem val_main_v19_apply (i : S8622315.Idx) :
    val_main_v19 (F := F) i = val_main_c_4 (F := F) (idx_main_v19 i) := by
  unfold val_main_v19
  generalize val_main_c_4 (F := F) = y
  exact broadcastInDim_apply _ bcast_S_S8622315 y i (idx_main_v19 i) (fun a => a.elim0)

-- %20 = stablehlo.add %5, %19 : tensor<8622315xi32>
def val_main_v20 (x3 : (⟨S2x8489664, .i32⟩ : BufTy).Contents (Elt F)) : (⟨S8622315, .i32⟩ : BufTy).Contents (Elt F) :=
  addi (val_main_v5 (F := F) x3) (val_main_v19 (F := F))
theorem val_main_v20_apply (x3 : (⟨S2x8489664, .i32⟩ : BufTy).Contents (Elt F)) (i : S8622315.Idx) :
    val_main_v20 (F := F) x3 i = IntOp.addi (val_main_v5 (F := F) x3 i) (val_main_v19 (F := F) i) := rfl

-- %21 = stablehlo.select %18, %20, %5 : tensor<8622315xi1>, tensor<8622315xi32>
def val_main_v21 (x3 : (⟨S2x8489664, .i32⟩ : BufTy).Contents (Elt F)) : (⟨S8622315, .i32⟩ : BufTy).Contents (Elt F) :=
  select (val_main_v18 (F := F) x3) (val_main_v20 (F := F) x3) (val_main_v5 (F := F) x3)
theorem val_main_v21_apply (x3 : (⟨S2x8489664, .i32⟩ : BufTy).Contents (Elt F)) (i : S8622315.Idx) :
    val_main_v21 (F := F) x3 i = Scalar.select (val_main_v18 (F := F) x3 i) (val_main_v20 (F := F) x3 i) (val_main_v5 (F := F) x3 i) := rfl

-- %22 = stablehlo.broadcast_in_dim %21, dims = [0] : (tensor<8622315xi32>) -> tensor<8622315x1xi32>
def val_main_v22 (x3 : (⟨S2x8489664, .i32⟩ : BufTy).Contents (Elt F)) : (⟨S8622315x1, .i32⟩ : BufTy).Contents (Elt F) :=
  broadcastInDim S8622315x1 ![0] bcast_S8622315_S8622315x1_0 (val_main_v21 (F := F) x3)
abbrev idx_main_v22 (i : S8622315x1.Idx) : S8622315.Idx := fun a => match a with
  | ⟨0, _⟩ => ⟨(i 0).val, (i 0).isLt⟩
theorem val_main_v22_apply (x3 : (⟨S2x8489664, .i32⟩ : BufTy).Contents (Elt F)) (i : S8622315x1.Idx) :
    val_main_v22 (F := F) x3 i = val_main_v21 (F := F) x3 (idx_main_v22 i) := by
  unfold val_main_v22
  generalize val_main_v21 (F := F) x3 = y
  exact broadcastInDim_apply _ bcast_S8622315_S8622315x1_0 y i (idx_main_v22 i) (fun a => match a with
    | ⟨0, _⟩ => by show (i 0).val = if (8622315 : Nat) = 1 then 0 else (i 0).val; rw [if_neg (by decide)])

-- %23 = "stablehlo.gather"(%16, %22) <{dimension_numbers = #stablehlo.gather<collapsed_slice_dims = [0], start_index_map = [0], index_vector_dim = 1>, indices_are_sorted = false, slice_sizes = array<i64: 1>}> : (tensor<132651xf32>, tensor<8622315x1xi32>) -> tensor<8622315xf32>
def val_main_v23 (x3 : (⟨S2x8489664, .i32⟩ : BufTy).Contents (Elt F)) : (⟨S8622315, .f32⟩ : BufTy).Contents (Elt F) :=
  Host.gather gather_S132651_S8622315x1_S8622315_n_0_n_n_0_1_1 (val_main_v16 (F := F) x3) (val_main_v22 (F := F) x3)

-- %c_5 = stablehlo.constant dense<0> : tensor<i32>
def val_main_c_5 : (⟨S_, .i32⟩ : BufTy).Contents (Elt F) :=
  constantI S_ 32 0#32
theorem val_main_c_5_apply (i : S_.Idx) :
    val_main_c_5 (F := F) i = 0#32 := rfl

-- %24 = stablehlo.broadcast_in_dim %c_5, dims = [] : (tensor<i32>) -> tensor<8622315xi32>
def val_main_v24 : (⟨S8622315, .i32⟩ : BufTy).Contents (Elt F) :=
  broadcastInDim S8622315 ![] bcast_S_S8622315 (val_main_c_5 (F := F))
abbrev idx_main_v24 (i : S8622315.Idx) : S_.Idx := fun a => a.elim0
theorem val_main_v24_apply (i : S8622315.Idx) :
    val_main_v24 (F := F) i = val_main_c_5 (F := F) (idx_main_v24 i) := by
  unfold val_main_v24
  generalize val_main_c_5 (F := F) = y
  exact broadcastInDim_apply _ bcast_S_S8622315 y i (idx_main_v24 i) (fun a => a.elim0)

-- %25 = stablehlo.compare LT, %6, %24, SIGNED : (tensor<8622315xi32>, tensor<8622315xi32>) -> tensor<8622315xi1>
def val_main_v25 (x3 : (⟨S2x8489664, .i32⟩ : BufTy).Contents (Elt F)) : (⟨S8622315, .i1⟩ : BufTy).Contents (Elt F) :=
  cmpi .slt (val_main_v6 (F := F) x3) (val_main_v24 (F := F))
theorem val_main_v25_apply (x3 : (⟨S2x8489664, .i32⟩ : BufTy).Contents (Elt F)) (i : S8622315.Idx) :
    val_main_v25 (F := F) x3 i = IntOp.cmpi .slt (val_main_v6 (F := F) x3 i) (val_main_v24 (F := F) i) := rfl

-- %c_6 = stablehlo.constant dense<132651> : tensor<i32>
def val_main_c_6 : (⟨S_, .i32⟩ : BufTy).Contents (Elt F) :=
  constantI S_ 32 132651#32
theorem val_main_c_6_apply (i : S_.Idx) :
    val_main_c_6 (F := F) i = 132651#32 := rfl

-- %26 = stablehlo.broadcast_in_dim %c_6, dims = [] : (tensor<i32>) -> tensor<8622315xi32>
def val_main_v26 : (⟨S8622315, .i32⟩ : BufTy).Contents (Elt F) :=
  broadcastInDim S8622315 ![] bcast_S_S8622315 (val_main_c_6 (F := F))
abbrev idx_main_v26 (i : S8622315.Idx) : S_.Idx := fun a => a.elim0
theorem val_main_v26_apply (i : S8622315.Idx) :
    val_main_v26 (F := F) i = val_main_c_6 (F := F) (idx_main_v26 i) := by
  unfold val_main_v26
  generalize val_main_c_6 (F := F) = y
  exact broadcastInDim_apply _ bcast_S_S8622315 y i (idx_main_v26 i) (fun a => a.elim0)

-- %27 = stablehlo.add %6, %26 : tensor<8622315xi32>
def val_main_v27 (x3 : (⟨S2x8489664, .i32⟩ : BufTy).Contents (Elt F)) : (⟨S8622315, .i32⟩ : BufTy).Contents (Elt F) :=
  addi (val_main_v6 (F := F) x3) (val_main_v26 (F := F))
theorem val_main_v27_apply (x3 : (⟨S2x8489664, .i32⟩ : BufTy).Contents (Elt F)) (i : S8622315.Idx) :
    val_main_v27 (F := F) x3 i = IntOp.addi (val_main_v6 (F := F) x3 i) (val_main_v26 (F := F) i) := rfl

-- %28 = stablehlo.select %25, %27, %6 : tensor<8622315xi1>, tensor<8622315xi32>
def val_main_v28 (x3 : (⟨S2x8489664, .i32⟩ : BufTy).Contents (Elt F)) : (⟨S8622315, .i32⟩ : BufTy).Contents (Elt F) :=
  select (val_main_v25 (F := F) x3) (val_main_v27 (F := F) x3) (val_main_v6 (F := F) x3)
theorem val_main_v28_apply (x3 : (⟨S2x8489664, .i32⟩ : BufTy).Contents (Elt F)) (i : S8622315.Idx) :
    val_main_v28 (F := F) x3 i = Scalar.select (val_main_v25 (F := F) x3 i) (val_main_v27 (F := F) x3 i) (val_main_v6 (F := F) x3 i) := rfl

-- %29 = stablehlo.broadcast_in_dim %28, dims = [0] : (tensor<8622315xi32>) -> tensor<8622315x1xi32>
def val_main_v29 (x3 : (⟨S2x8489664, .i32⟩ : BufTy).Contents (Elt F)) : (⟨S8622315x1, .i32⟩ : BufTy).Contents (Elt F) :=
  broadcastInDim S8622315x1 ![0] bcast_S8622315_S8622315x1_0 (val_main_v28 (F := F) x3)
abbrev idx_main_v29 (i : S8622315x1.Idx) : S8622315.Idx := fun a => match a with
  | ⟨0, _⟩ => ⟨(i 0).val, (i 0).isLt⟩
theorem val_main_v29_apply (x3 : (⟨S2x8489664, .i32⟩ : BufTy).Contents (Elt F)) (i : S8622315x1.Idx) :
    val_main_v29 (F := F) x3 i = val_main_v28 (F := F) x3 (idx_main_v29 i) := by
  unfold val_main_v29
  generalize val_main_v28 (F := F) x3 = y
  exact broadcastInDim_apply _ bcast_S8622315_S8622315x1_0 y i (idx_main_v29 i) (fun a => match a with
    | ⟨0, _⟩ => by show (i 0).val = if (8622315 : Nat) = 1 then 0 else (i 0).val; rw [if_neg (by decide)])

-- %30 = "stablehlo.gather"(%16, %29) <{dimension_numbers = #stablehlo.gather<collapsed_slice_dims = [0], start_index_map = [0], index_vector_dim = 1>, indices_are_sorted = false, slice_sizes = array<i64: 1>}> : (tensor<132651xf32>, tensor<8622315x1xi32>) -> tensor<8622315xf32>
def val_main_v30 (x3 : (⟨S2x8489664, .i32⟩ : BufTy).Contents (Elt F)) : (⟨S8622315, .f32⟩ : BufTy).Contents (Elt F) :=
  Host.gather gather_S132651_S8622315x1_S8622315_n_0_n_n_0_1_1 (val_main_v16 (F := F) x3) (val_main_v29 (F := F) x3)

-- %31 = stablehlo.multiply %23, %30 : tensor<8622315xf32>
def val_main_v31 (x3 : (⟨S2x8489664, .i32⟩ : BufTy).Contents (Elt F)) : (⟨S8622315, .f32⟩ : BufTy).Contents (Elt F) :=
  mulf (val_main_v23 (F := F) x3) (val_main_v30 (F := F) x3)
theorem val_main_v31_apply (x3 : (⟨S2x8489664, .i32⟩ : BufTy).Contents (Elt F)) (i : S8622315.Idx) :
    val_main_v31 (F := F) x3 i = FloatOps.mulf (val_main_v23 (F := F) x3 i) (val_main_v30 (F := F) x3 i) := rfl

-- %32 = stablehlo.dot_general %arg0, %arg1, contracting_dims = [1] x [0], precision = [DEFAULT, DEFAULT] : (tensor<132651x1xf32>, tensor<1x2xf32>) -> tensor<132651x2xf32>
def val_main_v32 (x0 : (⟨S132651x1, .f32⟩ : BufTy).Contents (Elt F)) (x1 : (⟨S1x2, .f32⟩ : BufTy).Contents (Elt F)) : (⟨S132651x2, .f32⟩ : BufTy).Contents (Elt F) :=
  Host.dotGeneral dot_S132651x1_S1x2_S132651x2_1_0_0_1_n_n none (x0) (x1)
theorem lhs_main_v32_0 (i : S132651x2.Idx) (q : dot_S132651x1_S1x2_S132651x2_1_0_0_1_n_n.contr.Idx) :
    (dot_S132651x1_S1x2_S132651x2_1_0_0_1_n_n.lhsIdx i q 0).val = (i 0).val := by
  unfold DotDims.lhsIdx
  rw [dif_neg (show ¬(0 : Fin S132651x1.rank) ∈ dot_S132651x1_S1x2_S132651x2_1_0_0_1_n_n.lhsBatch by decide), dif_pos (show (0 : Fin S132651x1.rank) ∈ dot_S132651x1_S1x2_S132651x2_1_0_0_1_n_n.lhsNonContracting by decide)]
  rfl
theorem lhs_main_v32_1 (i : S132651x2.Idx) (q : dot_S132651x1_S1x2_S132651x2_1_0_0_1_n_n.contr.Idx) :
    (dot_S132651x1_S1x2_S132651x2_1_0_0_1_n_n.lhsIdx i q 1).val = (q ⟨0, by decide⟩).val :=
  dot_S132651x1_S1x2_S132651x2_1_0_0_1_n_n.lhsIdx_val_of_single rfl i q
theorem rhs_main_v32_0 (i : S132651x2.Idx) (q : dot_S132651x1_S1x2_S132651x2_1_0_0_1_n_n.contr.Idx) :
    (dot_S132651x1_S1x2_S132651x2_1_0_0_1_n_n.rhsIdx i q 0).val = (q ⟨0, by decide⟩).val :=
  dot_S132651x1_S1x2_S132651x2_1_0_0_1_n_n.rhsIdx_val_of_single rfl i q
theorem rhs_main_v32_1 (i : S132651x2.Idx) (q : dot_S132651x1_S1x2_S132651x2_1_0_0_1_n_n.contr.Idx) :
    (dot_S132651x1_S1x2_S132651x2_1_0_0_1_n_n.rhsIdx i q 1).val = (i 1).val := by
  unfold DotDims.rhsIdx
  rw [dif_neg (show ¬(1 : Fin S1x2.rank) ∈ dot_S132651x1_S1x2_S132651x2_1_0_0_1_n_n.rhsBatch by decide), dif_pos (show (1 : Fin S1x2.rank) ∈ dot_S132651x1_S1x2_S132651x2_1_0_0_1_n_n.rhsNonContracting by decide)]
  rfl
abbrev lidx_main_v32 (i : S132651x2.Idx) (k : Fin 1) : S132651x1.Idx := fun a => match a with
  | ⟨0, _⟩ => ⟨(i 0).val, (i 0).isLt⟩
  | ⟨1, _⟩ => ⟨k.val, k.isLt⟩
abbrev ridx_main_v32 (i : S132651x2.Idx) (k : Fin 1) : S1x2.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v32_apply (x0 : (⟨S132651x1, .f32⟩ : BufTy).Contents (Elt Ideal)) (x1 : (⟨S1x2, .f32⟩ : BufTy).Contents (Elt Ideal)) (i : S132651x2.Idx) :
    val_main_v32 (F := Ideal) x0 x1 i = ∑ k : Fin 1, x0 (lidx_main_v32 i k) * x1 (ridx_main_v32 i k) := by
  unfold val_main_v32
  simp only [Host.dotGeneral]
  rw [Ideal.dotGeneral_apply, ← Equiv.sum_comp (ValueIdx.contrEquiv1 dot_S132651x1_S1x2_S132651x2_1_0_0_1_n_n 1 rfl rfl).symm]
  refine Finset.sum_congr rfl fun k _ => ?_
  have hk := ValueIdx.contrEquiv1_symm_val dot_S132651x1_S1x2_S132651x2_1_0_0_1_n_n 1 rfl rfl k
  have el : dot_S132651x1_S1x2_S132651x2_1_0_0_1_n_n.lhsIdx i ((ValueIdx.contrEquiv1 dot_S132651x1_S1x2_S132651x2_1_0_0_1_n_n 1 rfl rfl).symm k) = lidx_main_v32 i k := funext fun a => Fin.ext (by
    match a with
    | ⟨0, _⟩ => exact lhs_main_v32_0 _ _
    | ⟨1, _⟩ => exact (lhs_main_v32_1 _ _).trans hk)
  have er : dot_S132651x1_S1x2_S132651x2_1_0_0_1_n_n.rhsIdx i ((ValueIdx.contrEquiv1 dot_S132651x1_S1x2_S132651x2_1_0_0_1_n_n 1 rfl rfl).symm k) = ridx_main_v32 i k := funext fun a => Fin.ext (by
    match a with
    | ⟨0, _⟩ => exact (rhs_main_v32_0 _ _).trans hk
    | ⟨1, _⟩ => exact rhs_main_v32_1 _ _)
  rw [el, er]

-- %33 = stablehlo.broadcast_in_dim %31, dims = [0] : (tensor<8622315xf32>) -> tensor<8622315x1xf32>
def val_main_v33 (x3 : (⟨S2x8489664, .i32⟩ : BufTy).Contents (Elt F)) : (⟨S8622315x1, .f32⟩ : BufTy).Contents (Elt F) :=
  broadcastInDim S8622315x1 ![0] bcast_S8622315_S8622315x1_0 (val_main_v31 (F := F) x3)
abbrev idx_main_v33 (i : S8622315x1.Idx) : S8622315.Idx := fun a => match a with
  | ⟨0, _⟩ => ⟨(i 0).val, (i 0).isLt⟩
theorem val_main_v33_apply (x3 : (⟨S2x8489664, .i32⟩ : BufTy).Contents (Elt F)) (i : S8622315x1.Idx) :
    val_main_v33 (F := F) x3 i = val_main_v31 (F := F) x3 (idx_main_v33 i) := by
  unfold val_main_v33
  generalize val_main_v31 (F := F) x3 = y
  exact broadcastInDim_apply _ bcast_S8622315_S8622315x1_0 y i (idx_main_v33 i) (fun a => match a with
    | ⟨0, _⟩ => by show (i 0).val = if (8622315 : Nat) = 1 then 0 else (i 0).val; rw [if_neg (by decide)])

-- %c_7 = stablehlo.constant dense<0> : tensor<i32>
def val_main_c_7 : (⟨S_, .i32⟩ : BufTy).Contents (Elt F) :=
  constantI S_ 32 0#32
theorem val_main_c_7_apply (i : S_.Idx) :
    val_main_c_7 (F := F) i = 0#32 := rfl

-- %34 = stablehlo.broadcast_in_dim %c_7, dims = [] : (tensor<i32>) -> tensor<8622315xi32>
def val_main_v34 : (⟨S8622315, .i32⟩ : BufTy).Contents (Elt F) :=
  broadcastInDim S8622315 ![] bcast_S_S8622315 (val_main_c_7 (F := F))
abbrev idx_main_v34 (i : S8622315.Idx) : S_.Idx := fun a => a.elim0
theorem val_main_v34_apply (i : S8622315.Idx) :
    val_main_v34 (F := F) i = val_main_c_7 (F := F) (idx_main_v34 i) := by
  unfold val_main_v34
  generalize val_main_c_7 (F := F) = y
  exact broadcastInDim_apply _ bcast_S_S8622315 y i (idx_main_v34 i) (fun a => a.elim0)

-- %35 = stablehlo.compare LT, %5, %34, SIGNED : (tensor<8622315xi32>, tensor<8622315xi32>) -> tensor<8622315xi1>
def val_main_v35 (x3 : (⟨S2x8489664, .i32⟩ : BufTy).Contents (Elt F)) : (⟨S8622315, .i1⟩ : BufTy).Contents (Elt F) :=
  cmpi .slt (val_main_v5 (F := F) x3) (val_main_v34 (F := F))
theorem val_main_v35_apply (x3 : (⟨S2x8489664, .i32⟩ : BufTy).Contents (Elt F)) (i : S8622315.Idx) :
    val_main_v35 (F := F) x3 i = IntOp.cmpi .slt (val_main_v5 (F := F) x3 i) (val_main_v34 (F := F) i) := rfl

-- %c_8 = stablehlo.constant dense<132651> : tensor<i32>
def val_main_c_8 : (⟨S_, .i32⟩ : BufTy).Contents (Elt F) :=
  constantI S_ 32 132651#32
theorem val_main_c_8_apply (i : S_.Idx) :
    val_main_c_8 (F := F) i = 132651#32 := rfl

-- %36 = stablehlo.broadcast_in_dim %c_8, dims = [] : (tensor<i32>) -> tensor<8622315xi32>
def val_main_v36 : (⟨S8622315, .i32⟩ : BufTy).Contents (Elt F) :=
  broadcastInDim S8622315 ![] bcast_S_S8622315 (val_main_c_8 (F := F))
abbrev idx_main_v36 (i : S8622315.Idx) : S_.Idx := fun a => a.elim0
theorem val_main_v36_apply (i : S8622315.Idx) :
    val_main_v36 (F := F) i = val_main_c_8 (F := F) (idx_main_v36 i) := by
  unfold val_main_v36
  generalize val_main_c_8 (F := F) = y
  exact broadcastInDim_apply _ bcast_S_S8622315 y i (idx_main_v36 i) (fun a => a.elim0)

-- %37 = stablehlo.add %5, %36 : tensor<8622315xi32>
def val_main_v37 (x3 : (⟨S2x8489664, .i32⟩ : BufTy).Contents (Elt F)) : (⟨S8622315, .i32⟩ : BufTy).Contents (Elt F) :=
  addi (val_main_v5 (F := F) x3) (val_main_v36 (F := F))
theorem val_main_v37_apply (x3 : (⟨S2x8489664, .i32⟩ : BufTy).Contents (Elt F)) (i : S8622315.Idx) :
    val_main_v37 (F := F) x3 i = IntOp.addi (val_main_v5 (F := F) x3 i) (val_main_v36 (F := F) i) := rfl

-- %38 = stablehlo.select %35, %37, %5 : tensor<8622315xi1>, tensor<8622315xi32>
def val_main_v38 (x3 : (⟨S2x8489664, .i32⟩ : BufTy).Contents (Elt F)) : (⟨S8622315, .i32⟩ : BufTy).Contents (Elt F) :=
  select (val_main_v35 (F := F) x3) (val_main_v37 (F := F) x3) (val_main_v5 (F := F) x3)
theorem val_main_v38_apply (x3 : (⟨S2x8489664, .i32⟩ : BufTy).Contents (Elt F)) (i : S8622315.Idx) :
    val_main_v38 (F := F) x3 i = Scalar.select (val_main_v35 (F := F) x3 i) (val_main_v37 (F := F) x3 i) (val_main_v5 (F := F) x3 i) := rfl

-- %39 = stablehlo.broadcast_in_dim %38, dims = [0] : (tensor<8622315xi32>) -> tensor<8622315x1xi32>
def val_main_v39 (x3 : (⟨S2x8489664, .i32⟩ : BufTy).Contents (Elt F)) : (⟨S8622315x1, .i32⟩ : BufTy).Contents (Elt F) :=
  broadcastInDim S8622315x1 ![0] bcast_S8622315_S8622315x1_0 (val_main_v38 (F := F) x3)
abbrev idx_main_v39 (i : S8622315x1.Idx) : S8622315.Idx := fun a => match a with
  | ⟨0, _⟩ => ⟨(i 0).val, (i 0).isLt⟩
theorem val_main_v39_apply (x3 : (⟨S2x8489664, .i32⟩ : BufTy).Contents (Elt F)) (i : S8622315x1.Idx) :
    val_main_v39 (F := F) x3 i = val_main_v38 (F := F) x3 (idx_main_v39 i) := by
  unfold val_main_v39
  generalize val_main_v38 (F := F) x3 = y
  exact broadcastInDim_apply _ bcast_S8622315_S8622315x1_0 y i (idx_main_v39 i) (fun a => match a with
    | ⟨0, _⟩ => by show (i 0).val = if (8622315 : Nat) = 1 then 0 else (i 0).val; rw [if_neg (by decide)])

-- %40 = "stablehlo.gather"(%32, %39) <{dimension_numbers = #stablehlo.gather<offset_dims = [1], collapsed_slice_dims = [0], start_index_map = [0], index_vector_dim = 1>, indices_are_sorted = false, slice_sizes = array<i64: 1, 2>}> : (tensor<132651x2xf32>, tensor<8622315x1xi32>) -> tensor<8622315x2xf32>
def val_main_v40 (x0 : (⟨S132651x1, .f32⟩ : BufTy).Contents (Elt F)) (x1 : (⟨S1x2, .f32⟩ : BufTy).Contents (Elt F)) (x3 : (⟨S2x8489664, .i32⟩ : BufTy).Contents (Elt F)) : (⟨S8622315x2, .f32⟩ : BufTy).Contents (Elt F) :=
  Host.gather gather_S132651x2_S8622315x1_S8622315x2_1_0_n_n_0_1_12 (val_main_v32 (F := F) x0 x1) (val_main_v39 (F := F) x3)

-- %41 = stablehlo.broadcast_in_dim %33, dims = [0, 1] : (tensor<8622315x1xf32>) -> tensor<8622315x2xf32>
def val_main_v41 (x3 : (⟨S2x8489664, .i32⟩ : BufTy).Contents (Elt F)) : (⟨S8622315x2, .f32⟩ : BufTy).Contents (Elt F) :=
  broadcastInDim S8622315x2 ![0, 1] bcast_S8622315x1_S8622315x2_0_1 (val_main_v33 (F := F) x3)
abbrev idx_main_v41 (i : S8622315x2.Idx) : S8622315x1.Idx := fun a => match a with
  | ⟨0, _⟩ => ⟨(i 0).val, (i 0).isLt⟩
  | ⟨1, _⟩ => ⟨0, Nat.one_pos⟩
theorem val_main_v41_apply (x3 : (⟨S2x8489664, .i32⟩ : BufTy).Contents (Elt F)) (i : S8622315x2.Idx) :
    val_main_v41 (F := F) x3 i = val_main_v33 (F := F) x3 (idx_main_v41 i) := by
  unfold val_main_v41
  generalize val_main_v33 (F := F) x3 = y
  exact broadcastInDim_apply _ bcast_S8622315x1_S8622315x2_0_1 y i (idx_main_v41 i) (fun a => match a with
    | ⟨0, _⟩ => by show (i 0).val = if (8622315 : Nat) = 1 then 0 else (i 0).val; rw [if_neg (by decide)]
    | ⟨1, _⟩ => by show 0 = if (1 : Nat) = 1 then 0 else (i 1).val; rw [if_pos rfl])

-- %42 = stablehlo.multiply %41, %40 : tensor<8622315x2xf32>
def val_main_v42 (x0 : (⟨S132651x1, .f32⟩ : BufTy).Contents (Elt F)) (x1 : (⟨S1x2, .f32⟩ : BufTy).Contents (Elt F)) (x3 : (⟨S2x8489664, .i32⟩ : BufTy).Contents (Elt F)) : (⟨S8622315x2, .f32⟩ : BufTy).Contents (Elt F) :=
  mulf (val_main_v41 (F := F) x3) (val_main_v40 (F := F) x0 x1 x3)
theorem val_main_v42_apply (x0 : (⟨S132651x1, .f32⟩ : BufTy).Contents (Elt F)) (x1 : (⟨S1x2, .f32⟩ : BufTy).Contents (Elt F)) (x3 : (⟨S2x8489664, .i32⟩ : BufTy).Contents (Elt F)) (i : S8622315x2.Idx) :
    val_main_v42 (F := F) x0 x1 x3 i = FloatOps.mulf (val_main_v41 (F := F) x3 i) (val_main_v40 (F := F) x0 x1 x3 i) := rfl

-- %cst_9 = stablehlo.constant dense<0.000000e+00> : tensor<f32>
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

-- %43 = stablehlo.broadcast_in_dim %cst_9, dims = [] : (tensor<f32>) -> tensor<132651x2xf32>
def val_main_v43 : (⟨S132651x2, .f32⟩ : BufTy).Contents (Elt F) :=
  broadcastInDim S132651x2 ![] bcast_S_S132651x2 (val_main_cst_9 (F := F))
abbrev idx_main_v43 (i : S132651x2.Idx) : S_.Idx := fun a => a.elim0
theorem val_main_v43_apply (i : S132651x2.Idx) :
    val_main_v43 (F := F) i = val_main_cst_9 (F := F) (idx_main_v43 i) := by
  unfold val_main_v43
  generalize val_main_cst_9 (F := F) = y
  exact broadcastInDim_apply _ bcast_S_S132651x2 y i (idx_main_v43 i) (fun a => a.elim0)

-- %44 = stablehlo.broadcast_in_dim %6, dims = [0] : (tensor<8622315xi32>) -> tensor<8622315x1xi32>
def val_main_v44 (x3 : (⟨S2x8489664, .i32⟩ : BufTy).Contents (Elt F)) : (⟨S8622315x1, .i32⟩ : BufTy).Contents (Elt F) :=
  broadcastInDim S8622315x1 ![0] bcast_S8622315_S8622315x1_0 (val_main_v6 (F := F) x3)
abbrev idx_main_v44 (i : S8622315x1.Idx) : S8622315.Idx := fun a => match a with
  | ⟨0, _⟩ => ⟨(i 0).val, (i 0).isLt⟩
theorem val_main_v44_apply (x3 : (⟨S2x8489664, .i32⟩ : BufTy).Contents (Elt F)) (i : S8622315x1.Idx) :
    val_main_v44 (F := F) x3 i = val_main_v6 (F := F) x3 (idx_main_v44 i) := by
  unfold val_main_v44
  generalize val_main_v6 (F := F) x3 = y
  exact broadcastInDim_apply _ bcast_S8622315_S8622315x1_0 y i (idx_main_v44 i) (fun a => match a with
    | ⟨0, _⟩ => by show (i 0).val = if (8622315 : Nat) = 1 then 0 else (i 0).val; rw [if_neg (by decide)])

-- %45 = "stablehlo.scatter"(%43, %44, %42) <{indices_are_sorted = false, scatter_dimension_numbers = #stablehlo.scatter<update_window_dims = [1], inserted_window_dims = [0], scatter_dims_to_operand_dims = [0], index_vector_dim = 1>, unique_indices = false}> ( {
def val_main_v45 (x0 : (⟨S132651x1, .f32⟩ : BufTy).Contents (Elt F)) (x1 : (⟨S1x2, .f32⟩ : BufTy).Contents (Elt F)) (x3 : (⟨S2x8489664, .i32⟩ : BufTy).Contents (Elt F)) : (⟨S132651x2, .f32⟩ : BufTy).Contents (Elt F) :=
  Host.scatterAdd scatter_S132651x2_S8622315x1_S8622315x2_1_0_0_1 (val_main_v43 (F := F)) (val_main_v44 (F := F) x3) (val_main_v42 (F := F) x0 x1 x3)

-- %46 = stablehlo.broadcast_in_dim %arg2, dims = [1] : (tensor<2xf32>) -> tensor<1x2xf32>
def val_main_v46 (x2 : (⟨S2, .f32⟩ : BufTy).Contents (Elt F)) : (⟨S1x2, .f32⟩ : BufTy).Contents (Elt F) :=
  broadcastInDim S1x2 ![1] bcast_S2_S1x2_1 (x2)
abbrev idx_main_v46 (i : S1x2.Idx) : S2.Idx := fun a => match a with
  | ⟨0, _⟩ => ⟨(i 1).val, (i 1).isLt⟩
theorem val_main_v46_apply (x2 : (⟨S2, .f32⟩ : BufTy).Contents (Elt F)) (i : S1x2.Idx) :
    val_main_v46 (F := F) x2 i = x2 (idx_main_v46 i) := by
  unfold val_main_v46
  exact broadcastInDim_apply _ bcast_S2_S1x2_1 x2 i (idx_main_v46 i) (fun a => match a with
    | ⟨0, _⟩ => by show (i 1).val = if (2 : Nat) = 1 then 0 else (i 1).val; rw [if_neg (by decide)])

-- %47 = stablehlo.broadcast_in_dim %46, dims = [0, 1] : (tensor<1x2xf32>) -> tensor<132651x2xf32>
def val_main_v47 (x2 : (⟨S2, .f32⟩ : BufTy).Contents (Elt F)) : (⟨S132651x2, .f32⟩ : BufTy).Contents (Elt F) :=
  broadcastInDim S132651x2 ![0, 1] bcast_S1x2_S132651x2_0_1 (val_main_v46 (F := F) x2)
abbrev idx_main_v47 (i : S132651x2.Idx) : S1x2.Idx := fun a => match a with
  | ⟨0, _⟩ => ⟨0, Nat.one_pos⟩
  | ⟨1, _⟩ => ⟨(i 1).val, (i 1).isLt⟩
theorem val_main_v47_apply (x2 : (⟨S2, .f32⟩ : BufTy).Contents (Elt F)) (i : S132651x2.Idx) :
    val_main_v47 (F := F) x2 i = val_main_v46 (F := F) x2 (idx_main_v47 i) := by
  unfold val_main_v47
  generalize val_main_v46 (F := F) x2 = y
  exact broadcastInDim_apply _ bcast_S1x2_S132651x2_0_1 y i (idx_main_v47 i) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])

-- %48 = stablehlo.add %45, %47 : tensor<132651x2xf32>
def val_main_v48 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S132651x2, .f32⟩ : BufTy).Contents (Elt F) :=
  addf (val_main_v45 (F := F) x0 x1 x3) (val_main_v47 (F := F) x2)
theorem val_main_v48_apply (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) (i : S132651x2.Idx) :
    val_main_v48 (F := F) x0 x1 x2 x3 i = FloatOps.addf (val_main_v45 (F := F) x0 x1 x3 i) (val_main_v47 (F := F) x2 i) := rfl

-- @relu's %cst = stablehlo.constant dense<0.000000e+00> : tensor<f32>, in %49 = func.call @relu(…) (record main_call1)
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

-- @relu's %0 = stablehlo.broadcast_in_dim %cst, dims = [] : (tensor<f32>) -> tensor<132651x2xf32>, in %49 = func.call @relu(…) (record main_call1)
def val_main_call1_v0 : (⟨S132651x2, .f32⟩ : BufTy).Contents (Elt F) :=
  broadcastInDim S132651x2 ![] bcast_S_S132651x2 (val_main_call1_cst (F := F))
abbrev idx_main_call1_v0 (i : S132651x2.Idx) : S_.Idx := fun a => a.elim0
theorem val_main_call1_v0_apply (i : S132651x2.Idx) :
    val_main_call1_v0 (F := F) i = val_main_call1_cst (F := F) (idx_main_call1_v0 i) := by
  unfold val_main_call1_v0
  generalize val_main_call1_cst (F := F) = y
  exact broadcastInDim_apply _ bcast_S_S132651x2 y i (idx_main_call1_v0 i) (fun a => a.elim0)

-- %49 = func.call @relu(…) (record main_call1) result 0: @relu's %1 = stablehlo.maximum %arg0, %0 : tensor<132651x2xf32>
def val_main_v49 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S132651x2, .f32⟩ : BufTy).Contents (Elt F) :=
  maximumf (val_main_v48 (F := F) x0 x1 x2 x3) (val_main_call1_v0 (F := F))
theorem val_main_v49_apply (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) (i : S132651x2.Idx) :
    val_main_v49 (F := F) x0 x1 x2 x3 i = FloatOps.maximumf (val_main_v48 (F := F) x0 x1 x2 x3 i) (val_main_call1_v0 (F := F) i) := rfl

-- %c_10 = stablehlo.constant dense<0> : tensor<i32>
def val_main_c_10 : (⟨S_, .i32⟩ : BufTy).Contents (Elt F) :=
  constantI S_ 32 0#32
theorem val_main_c_10_apply (i : S_.Idx) :
    val_main_c_10 (F := F) i = 0#32 := rfl

-- %50 = stablehlo.broadcast_in_dim %c_10, dims = [] : (tensor<i32>) -> tensor<8489664xi32>
def val_main_v50 : (⟨S8489664, .i32⟩ : BufTy).Contents (Elt F) :=
  broadcastInDim S8489664 ![] bcast_S_S8489664 (val_main_c_10 (F := F))
abbrev idx_main_v50 (i : S8489664.Idx) : S_.Idx := fun a => a.elim0
theorem val_main_v50_apply (i : S8489664.Idx) :
    val_main_v50 (F := F) i = val_main_c_10 (F := F) (idx_main_v50 i) := by
  unfold val_main_v50
  generalize val_main_c_10 (F := F) = y
  exact broadcastInDim_apply _ bcast_S_S8489664 y i (idx_main_v50 i) (fun a => a.elim0)

-- %51 = stablehlo.compare LT, %1, %50, SIGNED : (tensor<8489664xi32>, tensor<8489664xi32>) -> tensor<8489664xi1>
def val_main_v51 (x3 : (⟨S2x8489664, .i32⟩ : BufTy).Contents (Elt F)) : (⟨S8489664, .i1⟩ : BufTy).Contents (Elt F) :=
  cmpi .slt (val_main_v1 (F := F) x3) (val_main_v50 (F := F))
theorem val_main_v51_apply (x3 : (⟨S2x8489664, .i32⟩ : BufTy).Contents (Elt F)) (i : S8489664.Idx) :
    val_main_v51 (F := F) x3 i = IntOp.cmpi .slt (val_main_v1 (F := F) x3 i) (val_main_v50 (F := F) i) := rfl

-- %c_11 = stablehlo.constant dense<132651> : tensor<i32>
def val_main_c_11 : (⟨S_, .i32⟩ : BufTy).Contents (Elt F) :=
  constantI S_ 32 132651#32
theorem val_main_c_11_apply (i : S_.Idx) :
    val_main_c_11 (F := F) i = 132651#32 := rfl

-- %52 = stablehlo.broadcast_in_dim %c_11, dims = [] : (tensor<i32>) -> tensor<8489664xi32>
def val_main_v52 : (⟨S8489664, .i32⟩ : BufTy).Contents (Elt F) :=
  broadcastInDim S8489664 ![] bcast_S_S8489664 (val_main_c_11 (F := F))
abbrev idx_main_v52 (i : S8489664.Idx) : S_.Idx := fun a => a.elim0
theorem val_main_v52_apply (i : S8489664.Idx) :
    val_main_v52 (F := F) i = val_main_c_11 (F := F) (idx_main_v52 i) := by
  unfold val_main_v52
  generalize val_main_c_11 (F := F) = y
  exact broadcastInDim_apply _ bcast_S_S8489664 y i (idx_main_v52 i) (fun a => a.elim0)

-- %53 = stablehlo.add %1, %52 : tensor<8489664xi32>
def val_main_v53 (x3 : (⟨S2x8489664, .i32⟩ : BufTy).Contents (Elt F)) : (⟨S8489664, .i32⟩ : BufTy).Contents (Elt F) :=
  addi (val_main_v1 (F := F) x3) (val_main_v52 (F := F))
theorem val_main_v53_apply (x3 : (⟨S2x8489664, .i32⟩ : BufTy).Contents (Elt F)) (i : S8489664.Idx) :
    val_main_v53 (F := F) x3 i = IntOp.addi (val_main_v1 (F := F) x3 i) (val_main_v52 (F := F) i) := rfl

-- %54 = stablehlo.select %51, %53, %1 : tensor<8489664xi1>, tensor<8489664xi32>
def val_main_v54 (x3 : (⟨S2x8489664, .i32⟩ : BufTy).Contents (Elt F)) : (⟨S8489664, .i32⟩ : BufTy).Contents (Elt F) :=
  select (val_main_v51 (F := F) x3) (val_main_v53 (F := F) x3) (val_main_v1 (F := F) x3)
theorem val_main_v54_apply (x3 : (⟨S2x8489664, .i32⟩ : BufTy).Contents (Elt F)) (i : S8489664.Idx) :
    val_main_v54 (F := F) x3 i = Scalar.select (val_main_v51 (F := F) x3 i) (val_main_v53 (F := F) x3 i) (val_main_v1 (F := F) x3 i) := rfl

-- %55 = stablehlo.broadcast_in_dim %54, dims = [0] : (tensor<8489664xi32>) -> tensor<8489664x1xi32>
def val_main_v55 (x3 : (⟨S2x8489664, .i32⟩ : BufTy).Contents (Elt F)) : (⟨S8489664x1, .i32⟩ : BufTy).Contents (Elt F) :=
  broadcastInDim S8489664x1 ![0] bcast_S8489664_S8489664x1_0 (val_main_v54 (F := F) x3)
abbrev idx_main_v55 (i : S8489664x1.Idx) : S8489664.Idx := fun a => match a with
  | ⟨0, _⟩ => ⟨(i 0).val, (i 0).isLt⟩
theorem val_main_v55_apply (x3 : (⟨S2x8489664, .i32⟩ : BufTy).Contents (Elt F)) (i : S8489664x1.Idx) :
    val_main_v55 (F := F) x3 i = val_main_v54 (F := F) x3 (idx_main_v55 i) := by
  unfold val_main_v55
  generalize val_main_v54 (F := F) x3 = y
  exact broadcastInDim_apply _ bcast_S8489664_S8489664x1_0 y i (idx_main_v55 i) (fun a => match a with
    | ⟨0, _⟩ => by show (i 0).val = if (8489664 : Nat) = 1 then 0 else (i 0).val; rw [if_neg (by decide)])

-- %56 = "stablehlo.gather"(%49, %55) <{dimension_numbers = #stablehlo.gather<offset_dims = [1], collapsed_slice_dims = [0], start_index_map = [0], index_vector_dim = 1>, indices_are_sorted = false, slice_sizes = array<i64: 1, 2>}> : (tensor<132651x2xf32>, tensor<8489664x1xi32>) -> tensor<8489664x2xf32>
def val_main_v56 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S8489664x2, .f32⟩ : BufTy).Contents (Elt F) :=
  Host.gather gather_S132651x2_S8489664x1_S8489664x2_1_0_n_n_0_1_12 (val_main_v49 (F := F) x0 x1 x2 x3) (val_main_v55 (F := F) x3)

-- %c_12 = stablehlo.constant dense<0> : tensor<i32>
def val_main_c_12 : (⟨S_, .i32⟩ : BufTy).Contents (Elt F) :=
  constantI S_ 32 0#32
theorem val_main_c_12_apply (i : S_.Idx) :
    val_main_c_12 (F := F) i = 0#32 := rfl

-- %57 = stablehlo.broadcast_in_dim %c_12, dims = [] : (tensor<i32>) -> tensor<8489664xi32>
def val_main_v57 : (⟨S8489664, .i32⟩ : BufTy).Contents (Elt F) :=
  broadcastInDim S8489664 ![] bcast_S_S8489664 (val_main_c_12 (F := F))
abbrev idx_main_v57 (i : S8489664.Idx) : S_.Idx := fun a => a.elim0
theorem val_main_v57_apply (i : S8489664.Idx) :
    val_main_v57 (F := F) i = val_main_c_12 (F := F) (idx_main_v57 i) := by
  unfold val_main_v57
  generalize val_main_c_12 (F := F) = y
  exact broadcastInDim_apply _ bcast_S_S8489664 y i (idx_main_v57 i) (fun a => a.elim0)

-- %58 = stablehlo.compare LT, %3, %57, SIGNED : (tensor<8489664xi32>, tensor<8489664xi32>) -> tensor<8489664xi1>
def val_main_v58 (x3 : (⟨S2x8489664, .i32⟩ : BufTy).Contents (Elt F)) : (⟨S8489664, .i1⟩ : BufTy).Contents (Elt F) :=
  cmpi .slt (val_main_v3 (F := F) x3) (val_main_v57 (F := F))
theorem val_main_v58_apply (x3 : (⟨S2x8489664, .i32⟩ : BufTy).Contents (Elt F)) (i : S8489664.Idx) :
    val_main_v58 (F := F) x3 i = IntOp.cmpi .slt (val_main_v3 (F := F) x3 i) (val_main_v57 (F := F) i) := rfl

-- %c_13 = stablehlo.constant dense<132651> : tensor<i32>
def val_main_c_13 : (⟨S_, .i32⟩ : BufTy).Contents (Elt F) :=
  constantI S_ 32 132651#32
theorem val_main_c_13_apply (i : S_.Idx) :
    val_main_c_13 (F := F) i = 132651#32 := rfl

-- %59 = stablehlo.broadcast_in_dim %c_13, dims = [] : (tensor<i32>) -> tensor<8489664xi32>
def val_main_v59 : (⟨S8489664, .i32⟩ : BufTy).Contents (Elt F) :=
  broadcastInDim S8489664 ![] bcast_S_S8489664 (val_main_c_13 (F := F))
abbrev idx_main_v59 (i : S8489664.Idx) : S_.Idx := fun a => a.elim0
theorem val_main_v59_apply (i : S8489664.Idx) :
    val_main_v59 (F := F) i = val_main_c_13 (F := F) (idx_main_v59 i) := by
  unfold val_main_v59
  generalize val_main_c_13 (F := F) = y
  exact broadcastInDim_apply _ bcast_S_S8489664 y i (idx_main_v59 i) (fun a => a.elim0)

-- %60 = stablehlo.add %3, %59 : tensor<8489664xi32>
def val_main_v60 (x3 : (⟨S2x8489664, .i32⟩ : BufTy).Contents (Elt F)) : (⟨S8489664, .i32⟩ : BufTy).Contents (Elt F) :=
  addi (val_main_v3 (F := F) x3) (val_main_v59 (F := F))
theorem val_main_v60_apply (x3 : (⟨S2x8489664, .i32⟩ : BufTy).Contents (Elt F)) (i : S8489664.Idx) :
    val_main_v60 (F := F) x3 i = IntOp.addi (val_main_v3 (F := F) x3 i) (val_main_v59 (F := F) i) := rfl

-- %61 = stablehlo.select %58, %60, %3 : tensor<8489664xi1>, tensor<8489664xi32>
def val_main_v61 (x3 : (⟨S2x8489664, .i32⟩ : BufTy).Contents (Elt F)) : (⟨S8489664, .i32⟩ : BufTy).Contents (Elt F) :=
  select (val_main_v58 (F := F) x3) (val_main_v60 (F := F) x3) (val_main_v3 (F := F) x3)
theorem val_main_v61_apply (x3 : (⟨S2x8489664, .i32⟩ : BufTy).Contents (Elt F)) (i : S8489664.Idx) :
    val_main_v61 (F := F) x3 i = Scalar.select (val_main_v58 (F := F) x3 i) (val_main_v60 (F := F) x3 i) (val_main_v3 (F := F) x3 i) := rfl

-- %62 = stablehlo.broadcast_in_dim %61, dims = [0] : (tensor<8489664xi32>) -> tensor<8489664x1xi32>
def val_main_v62 (x3 : (⟨S2x8489664, .i32⟩ : BufTy).Contents (Elt F)) : (⟨S8489664x1, .i32⟩ : BufTy).Contents (Elt F) :=
  broadcastInDim S8489664x1 ![0] bcast_S8489664_S8489664x1_0 (val_main_v61 (F := F) x3)
abbrev idx_main_v62 (i : S8489664x1.Idx) : S8489664.Idx := fun a => match a with
  | ⟨0, _⟩ => ⟨(i 0).val, (i 0).isLt⟩
theorem val_main_v62_apply (x3 : (⟨S2x8489664, .i32⟩ : BufTy).Contents (Elt F)) (i : S8489664x1.Idx) :
    val_main_v62 (F := F) x3 i = val_main_v61 (F := F) x3 (idx_main_v62 i) := by
  unfold val_main_v62
  generalize val_main_v61 (F := F) x3 = y
  exact broadcastInDim_apply _ bcast_S8489664_S8489664x1_0 y i (idx_main_v62 i) (fun a => match a with
    | ⟨0, _⟩ => by show (i 0).val = if (8489664 : Nat) = 1 then 0 else (i 0).val; rw [if_neg (by decide)])

-- %63 = "stablehlo.gather"(%49, %62) <{dimension_numbers = #stablehlo.gather<offset_dims = [1], collapsed_slice_dims = [0], start_index_map = [0], index_vector_dim = 1>, indices_are_sorted = false, slice_sizes = array<i64: 1, 2>}> : (tensor<132651x2xf32>, tensor<8489664x1xi32>) -> tensor<8489664x2xf32>
def val_main_v63 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S8489664x2, .f32⟩ : BufTy).Contents (Elt F) :=
  Host.gather gather_S132651x2_S8489664x1_S8489664x2_1_0_n_n_0_1_12 (val_main_v49 (F := F) x0 x1 x2 x3) (val_main_v62 (F := F) x3)

-- %64 = stablehlo.add %56, %63 : tensor<8489664x2xf32>
def val_main_v64 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S8489664x2, .f32⟩ : BufTy).Contents (Elt F) :=
  addf (val_main_v56 (F := F) x0 x1 x2 x3) (val_main_v63 (F := F) x0 x1 x2 x3)
theorem val_main_v64_apply (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) (i : S8489664x2.Idx) :
    val_main_v64 (F := F) x0 x1 x2 x3 i = FloatOps.addf (val_main_v56 (F := F) x0 x1 x2 x3 i) (val_main_v63 (F := F) x0 x1 x2 x3 i) := rfl

-- %cst_14 = stablehlo.constant dense<0.000000e+00> : tensor<f32>
def val_main_cst_14 : (⟨S_, .f32⟩ : BufTy).Contents (Elt F) :=
  constant S_ .f32 0x00000000#32
theorem val_main_cst_14_apply (i : S_.Idx) :
    val_main_cst_14 (F := F) i = FloatOps.ofBits .f32 0x00000000#32 := rfl

-- %65 = stablehlo.reduce(%64 init: %cst_14) applies stablehlo.add across dimensions = [1] : (tensor<8489664x2xf32>, tensor<f32>) -> tensor<8489664xf32> {
def val_main_v65 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S8489664, .f32⟩ : BufTy).Contents (Elt F) :=
  Host.reduceAdd (val_main_v64 (F := F) x0 x1 x2 x3) (val_main_cst_14 (F := F)) reducesTo_S8489664x2_S8489664_d1 h_S_
abbrev idx_main_v65 (i : S8489664.Idx) (k : Fin 2) : S8489664x2.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v65_apply (x0 : (⟨S132651x1, .f32⟩ : BufTy).Contents (Elt Ideal)) (x1 : (⟨S1x2, .f32⟩ : BufTy).Contents (Elt Ideal)) (x2 : (⟨S2, .f32⟩ : BufTy).Contents (Elt Ideal)) (x3 : (⟨S2x8489664, .i32⟩ : BufTy).Contents (Elt Ideal)) (i : S8489664.Idx) :
    val_main_v65 (F := Ideal) x0 x1 x2 x3 i = (val_main_cst_14 (F := Ideal)) (Shape.Idx.first h_S_) + ∑ k : Fin 2, (val_main_v64 (F := Ideal) x0 x1 x2 x3) (idx_main_v65 i k) := by
  unfold val_main_v65
  generalize val_main_v64 (F := Ideal) x0 x1 x2 x3 = y0
  simp only [Host.reduceAdd, Ideal.hostReduceAdd_def]
  rw [Ideal.hostReduceAdd_single reducesTo_S8489664x2_S8489664_d1 (by decide)]
  refine congrArg (_ + ·) (Finset.sum_congr rfl fun k _ => ?_)
  exact congrArg y0 (funext fun a => Fin.ext (by match a with | ⟨0, _⟩ => rfl | ⟨1, _⟩ => rfl))

-- %66 = stablehlo.reshape %65 : (tensor<8489664xf32>) -> tensor<2x4244832xf32>
def val_main_v66 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S2x4244832, .f32⟩ : BufTy).Contents (Elt F) :=
  shapeCast _ (val_main_v65 (F := F) x0 x1 x2 x3) shapeCasts_S8489664_S2x4244832
abbrev idx_main_v66 (i : S2x4244832.Idx) : S8489664.Idx := fun a => match a with
  | ⟨0, _⟩ => ⟨(i 0).val * 4244832 + (i 1).val, by have h0 : (i 0).val < 2 := (i 0).isLt; have h1 : (i 1).val < 4244832 := (i 1).isLt; show (i 0).val * 4244832 + (i 1).val < 8489664; omega⟩
theorem val_main_v66_apply (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) (i : S2x4244832.Idx) :
    val_main_v66 (F := F) x0 x1 x2 x3 i = val_main_v65 (F := F) x0 x1 x2 x3 (idx_main_v66 i) := by
  unfold val_main_v66
  generalize val_main_v65 (F := F) x0 x1 x2 x3 = y
  exact shapeCast_apply y shapeCasts_S8489664_S2x4244832 i (idx_main_v66 i)
    (by rewrite [Shape.rowMajor_val_one, Shape.rowMajor_val_two]; have h0 : (i 0).val < 2 := (i 0).isLt; have h1 : (i 1).val < 4244832 := (i 1).isLt; show (i 0).val * 4244832 + (i 1).val = (i 0).val * 4244832 + (i 1).val; omega)

-- %cst_15 = stablehlo.constant dense<0.000000e+00> : tensor<f32>
def val_main_cst_15 : (⟨S_, .f32⟩ : BufTy).Contents (Elt F) :=
  constant S_ .f32 0x00000000#32
theorem val_main_cst_15_apply (i : S_.Idx) :
    val_main_cst_15 (F := F) i = FloatOps.ofBits .f32 0x00000000#32 := rfl

-- %67 = stablehlo.reduce(%66 init: %cst_15) applies stablehlo.add across dimensions = [0] : (tensor<2x4244832xf32>, tensor<f32>) -> tensor<4244832xf32> {
def val_main_v67 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S4244832, .f32⟩ : BufTy).Contents (Elt F) :=
  Host.reduceAdd (val_main_v66 (F := F) x0 x1 x2 x3) (val_main_cst_15 (F := F)) reducesTo_S2x4244832_S4244832_d0 h_S_
abbrev idx_main_v67 (i : S4244832.Idx) (k : Fin 2) : S2x4244832.Idx := fun a => match a with
  | ⟨0, _⟩ => ⟨k.val, k.isLt⟩
  | ⟨1, _⟩ => ⟨(i 0).val, (i 0).isLt⟩
/-- Stated at `F := Ideal`, where the host's float sum is this sum; at a bit-exact instance it is an opaque function of its operand. -/
theorem val_main_v67_apply (x0 : (⟨S132651x1, .f32⟩ : BufTy).Contents (Elt Ideal)) (x1 : (⟨S1x2, .f32⟩ : BufTy).Contents (Elt Ideal)) (x2 : (⟨S2, .f32⟩ : BufTy).Contents (Elt Ideal)) (x3 : (⟨S2x8489664, .i32⟩ : BufTy).Contents (Elt Ideal)) (i : S4244832.Idx) :
    val_main_v67 (F := Ideal) x0 x1 x2 x3 i = (val_main_cst_15 (F := Ideal)) (Shape.Idx.first h_S_) + ∑ k : Fin 2, (val_main_v66 (F := Ideal) x0 x1 x2 x3) (idx_main_v67 i k) := by
  unfold val_main_v67
  generalize val_main_v66 (F := Ideal) x0 x1 x2 x3 = y0
  simp only [Host.reduceAdd, Ideal.hostReduceAdd_def]
  rw [Ideal.hostReduceAdd_single reducesTo_S2x4244832_S4244832_d0 (by decide)]
  refine congrArg (_ + ·) (Finset.sum_congr rfl fun k _ => ?_)
  exact congrArg y0 (funext fun a => Fin.ext (by match a with | ⟨0, _⟩ => rfl | ⟨1, _⟩ => rfl))

-- %cst_16 = stablehlo.constant dense<2.000000e+00> : tensor<f32>
def val_main_cst_16 : (⟨S_, .f32⟩ : BufTy).Contents (Elt F) :=
  constant S_ .f32 0x40000000#32
theorem val_main_cst_16_apply (i : S_.Idx) :
    val_main_cst_16 (F := F) i = FloatOps.ofBits .f32 0x40000000#32 := rfl

-- %68 = stablehlo.broadcast_in_dim %cst_16, dims = [] : (tensor<f32>) -> tensor<4244832xf32>
def val_main_v68 : (⟨S4244832, .f32⟩ : BufTy).Contents (Elt F) :=
  broadcastInDim S4244832 ![] bcast_S_S4244832 (val_main_cst_16 (F := F))
abbrev idx_main_v68 (i : S4244832.Idx) : S_.Idx := fun a => a.elim0
theorem val_main_v68_apply (i : S4244832.Idx) :
    val_main_v68 (F := F) i = val_main_cst_16 (F := F) (idx_main_v68 i) := by
  unfold val_main_v68
  generalize val_main_cst_16 (F := F) = y
  exact broadcastInDim_apply _ bcast_S_S4244832 y i (idx_main_v68 i) (fun a => a.elim0)

-- %69 = stablehlo.divide %67, %68 : tensor<4244832xf32>
def val_main_v69 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S4244832, .f32⟩ : BufTy).Contents (Elt F) :=
  Host.divf (val_main_v67 (F := F) x0 x1 x2 x3) (val_main_v68 (F := F))
theorem val_main_v69_apply (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) (i : S4244832.Idx) :
    val_main_v69 (F := F) x0 x1 x2 x3 i = FloatOps.hostDivf (val_main_v67 (F := F) x0 x1 x2 x3 i) (val_main_v68 (F := F) i) := rfl

-- %70 = stablehlo.broadcast_in_dim %69, dims = [0] : (tensor<4244832xf32>) -> tensor<4244832x1xf32>
def val_main_v70 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S4244832x1, .f32⟩ : BufTy).Contents (Elt F) :=
  broadcastInDim S4244832x1 ![0] bcast_S4244832_S4244832x1_0 (val_main_v69 (F := F) x0 x1 x2 x3)
abbrev idx_main_v70 (i : S4244832x1.Idx) : S4244832.Idx := fun a => match a with
  | ⟨0, _⟩ => ⟨(i 0).val, (i 0).isLt⟩
theorem val_main_v70_apply (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) (i : S4244832x1.Idx) :
    val_main_v70 (F := F) x0 x1 x2 x3 i = val_main_v69 (F := F) x0 x1 x2 x3 (idx_main_v70 i) := by
  unfold val_main_v70
  generalize val_main_v69 (F := F) x0 x1 x2 x3 = y
  exact broadcastInDim_apply _ bcast_S4244832_S4244832x1_0 y i (idx_main_v70 i) (fun a => match a with
    | ⟨0, _⟩ => by show (i 0).val = if (4244832 : Nat) = 1 then 0 else (i 0).val; rw [if_neg (by decide)])

-- %71 = stablehlo.negate %70 : tensor<4244832x1xf32>
def val_main_v71 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S4244832x1, .f32⟩ : BufTy).Contents (Elt F) :=
  Host.negf (val_main_v70 (F := F) x0 x1 x2 x3)
theorem val_main_v71_apply (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) (i : S4244832x1.Idx) :
    val_main_v71 (F := F) x0 x1 x2 x3 i = FloatOps.hostNegf (val_main_v70 (F := F) x0 x1 x2 x3 i) := rfl

-- %72 = stablehlo.exponential %71 : tensor<4244832x1xf32>
def val_main_v72 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S4244832x1, .f32⟩ : BufTy).Contents (Elt F) :=
  Host.exp (val_main_v71 (F := F) x0 x1 x2 x3)
theorem val_main_v72_apply (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) (i : S4244832x1.Idx) :
    val_main_v72 (F := F) x0 x1 x2 x3 i = FloatOps.hostUnary .exp (val_main_v71 (F := F) x0 x1 x2 x3 i) := rfl

-- %cst_17 = stablehlo.constant dense<1.000000e+00> : tensor<f32>
def val_main_cst_17 : (⟨S_, .f32⟩ : BufTy).Contents (Elt F) :=
  constant S_ .f32 0x3F800000#32
theorem val_main_cst_17_apply (i : S_.Idx) :
    val_main_cst_17 (F := F) i = FloatOps.ofBits .f32 0x3F800000#32 := rfl

-- %73 = stablehlo.broadcast_in_dim %cst_17, dims = [] : (tensor<f32>) -> tensor<4244832x1xf32>
def val_main_v73 : (⟨S4244832x1, .f32⟩ : BufTy).Contents (Elt F) :=
  broadcastInDim S4244832x1 ![] bcast_S_S4244832x1 (val_main_cst_17 (F := F))
abbrev idx_main_v73 (i : S4244832x1.Idx) : S_.Idx := fun a => a.elim0
theorem val_main_v73_apply (i : S4244832x1.Idx) :
    val_main_v73 (F := F) i = val_main_cst_17 (F := F) (idx_main_v73 i) := by
  unfold val_main_v73
  generalize val_main_cst_17 (F := F) = y
  exact broadcastInDim_apply _ bcast_S_S4244832x1 y i (idx_main_v73 i) (fun a => a.elim0)

-- %74 = stablehlo.add %73, %72 : tensor<4244832x1xf32>
def val_main_v74 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S4244832x1, .f32⟩ : BufTy).Contents (Elt F) :=
  addf (val_main_v73 (F := F)) (val_main_v72 (F := F) x0 x1 x2 x3)
theorem val_main_v74_apply (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) (i : S4244832x1.Idx) :
    val_main_v74 (F := F) x0 x1 x2 x3 i = FloatOps.addf (val_main_v73 (F := F) i) (val_main_v72 (F := F) x0 x1 x2 x3 i) := rfl

-- %cst_18 = stablehlo.constant dense<1.000000e+00> : tensor<f32>
def val_main_cst_18 : (⟨S_, .f32⟩ : BufTy).Contents (Elt F) :=
  constant S_ .f32 0x3F800000#32
theorem val_main_cst_18_apply (i : S_.Idx) :
    val_main_cst_18 (F := F) i = FloatOps.ofBits .f32 0x3F800000#32 := rfl

-- %75 = stablehlo.broadcast_in_dim %cst_18, dims = [] : (tensor<f32>) -> tensor<4244832x1xf32>
def val_main_v75 : (⟨S4244832x1, .f32⟩ : BufTy).Contents (Elt F) :=
  broadcastInDim S4244832x1 ![] bcast_S_S4244832x1 (val_main_cst_18 (F := F))
abbrev idx_main_v75 (i : S4244832x1.Idx) : S_.Idx := fun a => a.elim0
theorem val_main_v75_apply (i : S4244832x1.Idx) :
    val_main_v75 (F := F) i = val_main_cst_18 (F := F) (idx_main_v75 i) := by
  unfold val_main_v75
  generalize val_main_cst_18 (F := F) = y
  exact broadcastInDim_apply _ bcast_S_S4244832x1 y i (idx_main_v75 i) (fun a => a.elim0)

-- %76 = stablehlo.divide %75, %74 : tensor<4244832x1xf32>
def val_main_v76 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S4244832x1, .f32⟩ : BufTy).Contents (Elt F) :=
  Host.divf (val_main_v75 (F := F)) (val_main_v74 (F := F) x0 x1 x2 x3)
theorem val_main_v76_apply (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) (i : S4244832x1.Idx) :
    val_main_v76 (F := F) x0 x1 x2 x3 i = FloatOps.hostDivf (val_main_v75 (F := F) i) (val_main_v74 (F := F) x0 x1 x2 x3 i) := rfl

end Cert.ReferenceIdeal.Stages

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.RefRun.lean ====
/-
  The reference program's host operations as a list, and the run: every weakly fair execution ends with the result buffer at its function of the arguments
  and the arguments unchanged.
-/
import proofs.«148812_j62852551409829_2_alg».proof.Proof.RefStages
import proofs.«148812_j62852551409829_2_alg».proof.Proof.LibHostRead
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- The operations of the reference's entry function, in order. -/
abbrev ops : List (HloOp τ sig (Elt F)) :=
  [ unary main_arg3 main_v0 ((extractStridedSlice S1x8489664 ![0, 0] · slices_S2x8489664_S1x8489664_0_0) : (⟨S2x8489664, .i32⟩ : BufTy).Contents (Elt F) → (⟨S1x8489664, .i32⟩ : BufTy).Contents (Elt F)),
    reshape main_v0 main_v1 rfl shapeCasts_S1x8489664_S8489664,
    unary main_arg3 main_v2 ((extractStridedSlice S1x8489664 ![1, 0] · slices_S2x8489664_S1x8489664_1_0) : (⟨S2x8489664, .i32⟩ : BufTy).Contents (Elt F) → (⟨S1x8489664, .i32⟩ : BufTy).Contents (Elt F)),
    reshape main_v2 main_v3 rfl shapeCasts_S1x8489664_S8489664,
    nullary main_v4 (iotaInDim S132651 32 0),
    binary main_v1 main_v4 main_v5 ((fun a b => concatenate S8622315 0 [⟨S8489664, a⟩, ⟨S132651, b⟩] concatenates_S8489664_S132651_S8622315_d0) : (⟨S8489664, .i32⟩ : BufTy).Contents (Elt F) → (⟨S132651, .i32⟩ : BufTy).Contents (Elt F) → (⟨S8622315, .i32⟩ : BufTy).Contents (Elt F)),
    binary main_v3 main_v4 main_v6 ((fun a b => concatenate S8622315 0 [⟨S8489664, a⟩, ⟨S132651, b⟩] concatenates_S8489664_S132651_S8622315_d0) : (⟨S8489664, .i32⟩ : BufTy).Contents (Elt F) → (⟨S132651, .i32⟩ : BufTy).Contents (Elt F) → (⟨S8622315, .i32⟩ : BufTy).Contents (Elt F)),
    nullary main_cst (constant S_ .f32 0x3F800000#32),
    unary main_cst main_v7 (broadcastInDim S8622315 ![] bcast_S_S8622315 : (⟨S_, .f32⟩ : BufTy).Contents (Elt F) → (⟨S8622315, .f32⟩ : BufTy).Contents (Elt F)),
    nullary main_cst_0 (constant S_ .f32 0x00000000#32),
    unary main_cst_0 main_v8 (broadcastInDim S132651 ![] bcast_S_S132651 : (⟨S_, .f32⟩ : BufTy).Contents (Elt F) → (⟨S132651, .f32⟩ : BufTy).Contents (Elt F)),
    unary main_v6 main_v9 (broadcastInDim S8622315x1 ![0] bcast_S8622315_S8622315x1_0 : (⟨S8622315, .i32⟩ : BufTy).Contents (Elt F) → (⟨S8622315x1, .i32⟩ : BufTy).Contents (Elt F)),
    ternary main_v8 main_v9 main_v7 main_v10 ((fun x i u => Host.scatterAdd scatter_S132651_S8622315x1_S8622315_n_0_0_1 x i u) : (⟨S132651, .f32⟩ : BufTy).Contents (Elt F) → (⟨S8622315x1, .i32⟩ : BufTy).Contents (Elt F) → (⟨S8622315, .f32⟩ : BufTy).Contents (Elt F) → (⟨S132651, .f32⟩ : BufTy).Contents (Elt F)),
    nullary main_cst_1 (constant S_ .f32 0x00000000#32),
    unary main_cst_1 main_v11 (broadcastInDim S132651 ![] bcast_S_S132651 : (⟨S_, .f32⟩ : BufTy).Contents (Elt F) → (⟨S132651, .f32⟩ : BufTy).Contents (Elt F)),
    binary main_v10 main_v11 main_v12 (cmpf .ogt : (⟨S132651, .f32⟩ : BufTy).Contents (Elt F) → (⟨S132651, .f32⟩ : BufTy).Contents (Elt F) → (⟨S132651, .i1⟩ : BufTy).Contents (Elt F)),
    nullary main_cst_2 (constant S_ .f32 0x2B8CBCCC#32),
    unary main_cst_2 main_v13 (broadcastInDim S132651 ![] bcast_S_S132651 : (⟨S_, .f32⟩ : BufTy).Contents (Elt F) → (⟨S132651, .f32⟩ : BufTy).Contents (Elt F)),
    binary main_v10 main_v13 main_v14 (maximumf : (⟨S132651, .f32⟩ : BufTy).Contents (Elt F) → (⟨S132651, .f32⟩ : BufTy).Contents (Elt F) → (⟨S132651, .f32⟩ : BufTy).Contents (Elt F)),
    unary main_v14 main_v15 (Host.rsqrt : (⟨S132651, .f32⟩ : BufTy).Contents (Elt F) → (⟨S132651, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S132651, .f32⟩) main_call0_v1) (broadcastInDim S132651 ![] bcast_S_S132651),
    TRef.ternary (TRef.of (T := ⟨S132651, .i1⟩) main_v12) (TRef.of (T := ⟨S132651, .f32⟩) main_v15) (TRef.of (T := ⟨S132651, .f32⟩) main_call0_v1) (TRef.of (T := ⟨S132651, .f32⟩) main_v16) select,
    nullary main_c (constantI S_ 32 0#32),
    unary main_c main_v17 (broadcastInDim S8622315 ![] bcast_S_S8622315 : (⟨S_, .i32⟩ : BufTy).Contents (Elt F) → (⟨S8622315, .i32⟩ : BufTy).Contents (Elt F)),
    binary main_v5 main_v17 main_v18 (cmpi .slt : (⟨S8622315, .i32⟩ : BufTy).Contents (Elt F) → (⟨S8622315, .i32⟩ : BufTy).Contents (Elt F) → (⟨S8622315, .i1⟩ : BufTy).Contents (Elt F)),
    nullary main_c_4 (constantI S_ 32 132651#32),
    unary main_c_4 main_v19 (broadcastInDim S8622315 ![] bcast_S_S8622315 : (⟨S_, .i32⟩ : BufTy).Contents (Elt F) → (⟨S8622315, .i32⟩ : BufTy).Contents (Elt F)),
    binary main_v5 main_v19 main_v20 (addi : (⟨S8622315, .i32⟩ : BufTy).Contents (Elt F) → (⟨S8622315, .i32⟩ : BufTy).Contents (Elt F) → (⟨S8622315, .i32⟩ : BufTy).Contents (Elt F)),
    ternary main_v18 main_v20 main_v5 main_v21 (select : (⟨S8622315, .i1⟩ : BufTy).Contents (Elt F) → (⟨S8622315, .i32⟩ : BufTy).Contents (Elt F) → (⟨S8622315, .i32⟩ : BufTy).Contents (Elt F) → (⟨S8622315, .i32⟩ : BufTy).Contents (Elt F)),
    unary main_v21 main_v22 (broadcastInDim S8622315x1 ![0] bcast_S8622315_S8622315x1_0 : (⟨S8622315, .i32⟩ : BufTy).Contents (Elt F) → (⟨S8622315x1, .i32⟩ : BufTy).Contents (Elt F)),
    binary main_v16 main_v22 main_v23 ((fun x i => Host.gather gather_S132651_S8622315x1_S8622315_n_0_n_n_0_1_1 x i) : (⟨S132651, .f32⟩ : BufTy).Contents (Elt F) → (⟨S8622315x1, .i32⟩ : BufTy).Contents (Elt F) → (⟨S8622315, .f32⟩ : BufTy).Contents (Elt F)),
    nullary main_c_5 (constantI S_ 32 0#32),
    unary main_c_5 main_v24 (broadcastInDim S8622315 ![] bcast_S_S8622315 : (⟨S_, .i32⟩ : BufTy).Contents (Elt F) → (⟨S8622315, .i32⟩ : BufTy).Contents (Elt F)),
    binary main_v6 main_v24 main_v25 (cmpi .slt : (⟨S8622315, .i32⟩ : BufTy).Contents (Elt F) → (⟨S8622315, .i32⟩ : BufTy).Contents (Elt F) → (⟨S8622315, .i1⟩ : BufTy).Contents (Elt F)),
    nullary main_c_6 (constantI S_ 32 132651#32),
    unary main_c_6 main_v26 (broadcastInDim S8622315 ![] bcast_S_S8622315 : (⟨S_, .i32⟩ : BufTy).Contents (Elt F) → (⟨S8622315, .i32⟩ : BufTy).Contents (Elt F)),
    binary main_v6 main_v26 main_v27 (addi : (⟨S8622315, .i32⟩ : BufTy).Contents (Elt F) → (⟨S8622315, .i32⟩ : BufTy).Contents (Elt F) → (⟨S8622315, .i32⟩ : BufTy).Contents (Elt F)),
    ternary main_v25 main_v27 main_v6 main_v28 (select : (⟨S8622315, .i1⟩ : BufTy).Contents (Elt F) → (⟨S8622315, .i32⟩ : BufTy).Contents (Elt F) → (⟨S8622315, .i32⟩ : BufTy).Contents (Elt F) → (⟨S8622315, .i32⟩ : BufTy).Contents (Elt F)),
    unary main_v28 main_v29 (broadcastInDim S8622315x1 ![0] bcast_S8622315_S8622315x1_0 : (⟨S8622315, .i32⟩ : BufTy).Contents (Elt F) → (⟨S8622315x1, .i32⟩ : BufTy).Contents (Elt F)),
    binary main_v16 main_v29 main_v30 ((fun x i => Host.gather gather_S132651_S8622315x1_S8622315_n_0_n_n_0_1_1 x i) : (⟨S132651, .f32⟩ : BufTy).Contents (Elt F) → (⟨S8622315x1, .i32⟩ : BufTy).Contents (Elt F) → (⟨S8622315, .f32⟩ : BufTy).Contents (Elt F)),
    binary main_v23 main_v30 main_v31 (mulf : (⟨S8622315, .f32⟩ : BufTy).Contents (Elt F) → (⟨S8622315, .f32⟩ : BufTy).Contents (Elt F) → (⟨S8622315, .f32⟩ : BufTy).Contents (Elt F)),
    binary main_arg0 main_arg1 main_v32 ((fun l r => Host.dotGeneral dot_S132651x1_S1x2_S132651x2_1_0_0_1_n_n none l r) : (⟨S132651x1, .f32⟩ : BufTy).Contents (Elt F) → (⟨S1x2, .f32⟩ : BufTy).Contents (Elt F) → (⟨S132651x2, .f32⟩ : BufTy).Contents (Elt F)),
    unary main_v31 main_v33 (broadcastInDim S8622315x1 ![0] bcast_S8622315_S8622315x1_0 : (⟨S8622315, .f32⟩ : BufTy).Contents (Elt F) → (⟨S8622315x1, .f32⟩ : BufTy).Contents (Elt F)),
    nullary main_c_7 (constantI S_ 32 0#32),
    unary main_c_7 main_v34 (broadcastInDim S8622315 ![] bcast_S_S8622315 : (⟨S_, .i32⟩ : BufTy).Contents (Elt F) → (⟨S8622315, .i32⟩ : BufTy).Contents (Elt F)),
    binary main_v5 main_v34 main_v35 (cmpi .slt : (⟨S8622315, .i32⟩ : BufTy).Contents (Elt F) → (⟨S8622315, .i32⟩ : BufTy).Contents (Elt F) → (⟨S8622315, .i1⟩ : BufTy).Contents (Elt F)),
    nullary main_c_8 (constantI S_ 32 132651#32),
    unary main_c_8 main_v36 (broadcastInDim S8622315 ![] bcast_S_S8622315 : (⟨S_, .i32⟩ : BufTy).Contents (Elt F) → (⟨S8622315, .i32⟩ : BufTy).Contents (Elt F)),
    binary main_v5 main_v36 main_v37 (addi : (⟨S8622315, .i32⟩ : BufTy).Contents (Elt F) → (⟨S8622315, .i32⟩ : BufTy).Contents (Elt F) → (⟨S8622315, .i32⟩ : BufTy).Contents (Elt F)),
    ternary main_v35 main_v37 main_v5 main_v38 (select : (⟨S8622315, .i1⟩ : BufTy).Contents (Elt F) → (⟨S8622315, .i32⟩ : BufTy).Contents (Elt F) → (⟨S8622315, .i32⟩ : BufTy).Contents (Elt F) → (⟨S8622315, .i32⟩ : BufTy).Contents (Elt F)),
    unary main_v38 main_v39 (broadcastInDim S8622315x1 ![0] bcast_S8622315_S8622315x1_0 : (⟨S8622315, .i32⟩ : BufTy).Contents (Elt F) → (⟨S8622315x1, .i32⟩ : BufTy).Contents (Elt F)),
    binary main_v32 main_v39 main_v40 ((fun x i => Host.gather gather_S132651x2_S8622315x1_S8622315x2_1_0_n_n_0_1_12 x i) : (⟨S132651x2, .f32⟩ : BufTy).Contents (Elt F) → (⟨S8622315x1, .i32⟩ : BufTy).Contents (Elt F) → (⟨S8622315x2, .f32⟩ : BufTy).Contents (Elt F)),
    unary main_v33 main_v41 (broadcastInDim S8622315x2 ![0, 1] bcast_S8622315x1_S8622315x2_0_1 : (⟨S8622315x1, .f32⟩ : BufTy).Contents (Elt F) → (⟨S8622315x2, .f32⟩ : BufTy).Contents (Elt F)),
    binary main_v41 main_v40 main_v42 (mulf : (⟨S8622315x2, .f32⟩ : BufTy).Contents (Elt F) → (⟨S8622315x2, .f32⟩ : BufTy).Contents (Elt F) → (⟨S8622315x2, .f32⟩ : BufTy).Contents (Elt F)),
    nullary main_cst_9 (constant S_ .f32 0x00000000#32),
    unary main_cst_9 main_v43 (broadcastInDim S132651x2 ![] bcast_S_S132651x2 : (⟨S_, .f32⟩ : BufTy).Contents (Elt F) → (⟨S132651x2, .f32⟩ : BufTy).Contents (Elt F)),
    unary main_v6 main_v44 (broadcastInDim S8622315x1 ![0] bcast_S8622315_S8622315x1_0 : (⟨S8622315, .i32⟩ : BufTy).Contents (Elt F) → (⟨S8622315x1, .i32⟩ : BufTy).Contents (Elt F)),
    ternary main_v43 main_v44 main_v42 main_v45 ((fun x i u => Host.scatterAdd scatter_S132651x2_S8622315x1_S8622315x2_1_0_0_1 x i u) : (⟨S132651x2, .f32⟩ : BufTy).Contents (Elt F) → (⟨S8622315x1, .i32⟩ : BufTy).Contents (Elt F) → (⟨S8622315x2, .f32⟩ : BufTy).Contents (Elt F) → (⟨S132651x2, .f32⟩ : BufTy).Contents (Elt F)),
    unary main_arg2 main_v46 (broadcastInDim S1x2 ![1] bcast_S2_S1x2_1 : (⟨S2, .f32⟩ : BufTy).Contents (Elt F) → (⟨S1x2, .f32⟩ : BufTy).Contents (Elt F)),
    unary main_v46 main_v47 (broadcastInDim S132651x2 ![0, 1] bcast_S1x2_S132651x2_0_1 : (⟨S1x2, .f32⟩ : BufTy).Contents (Elt F) → (⟨S132651x2, .f32⟩ : BufTy).Contents (Elt F)),
    binary main_v45 main_v47 main_v48 (addf : (⟨S132651x2, .f32⟩ : BufTy).Contents (Elt F) → (⟨S132651x2, .f32⟩ : BufTy).Contents (Elt F) → (⟨S132651x2, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S132651x2, .f32⟩) main_call1_v0) (broadcastInDim S132651x2 ![] bcast_S_S132651x2),
    TRef.binary (TRef.of (T := ⟨S132651x2, .f32⟩) main_v48) (TRef.of (T := ⟨S132651x2, .f32⟩) main_call1_v0) (TRef.of (T := ⟨S132651x2, .f32⟩) main_v49) maximumf,
    nullary main_c_10 (constantI S_ 32 0#32),
    unary main_c_10 main_v50 (broadcastInDim S8489664 ![] bcast_S_S8489664 : (⟨S_, .i32⟩ : BufTy).Contents (Elt F) → (⟨S8489664, .i32⟩ : BufTy).Contents (Elt F)),
    binary main_v1 main_v50 main_v51 (cmpi .slt : (⟨S8489664, .i32⟩ : BufTy).Contents (Elt F) → (⟨S8489664, .i32⟩ : BufTy).Contents (Elt F) → (⟨S8489664, .i1⟩ : BufTy).Contents (Elt F)),
    nullary main_c_11 (constantI S_ 32 132651#32),
    unary main_c_11 main_v52 (broadcastInDim S8489664 ![] bcast_S_S8489664 : (⟨S_, .i32⟩ : BufTy).Contents (Elt F) → (⟨S8489664, .i32⟩ : BufTy).Contents (Elt F)),
    binary main_v1 main_v52 main_v53 (addi : (⟨S8489664, .i32⟩ : BufTy).Contents (Elt F) → (⟨S8489664, .i32⟩ : BufTy).Contents (Elt F) → (⟨S8489664, .i32⟩ : BufTy).Contents (Elt F)),
    ternary main_v51 main_v53 main_v1 main_v54 (select : (⟨S8489664, .i1⟩ : BufTy).Contents (Elt F) → (⟨S8489664, .i32⟩ : BufTy).Contents (Elt F) → (⟨S8489664, .i32⟩ : BufTy).Contents (Elt F) → (⟨S8489664, .i32⟩ : BufTy).Contents (Elt F)),
    unary main_v54 main_v55 (broadcastInDim S8489664x1 ![0] bcast_S8489664_S8489664x1_0 : (⟨S8489664, .i32⟩ : BufTy).Contents (Elt F) → (⟨S8489664x1, .i32⟩ : BufTy).Contents (Elt F)),
    binary main_v49 main_v55 main_v56 ((fun x i => Host.gather gather_S132651x2_S8489664x1_S8489664x2_1_0_n_n_0_1_12 x i) : (⟨S132651x2, .f32⟩ : BufTy).Contents (Elt F) → (⟨S8489664x1, .i32⟩ : BufTy).Contents (Elt F) → (⟨S8489664x2, .f32⟩ : BufTy).Contents (Elt F)),
    nullary main_c_12 (constantI S_ 32 0#32),
    unary main_c_12 main_v57 (broadcastInDim S8489664 ![] bcast_S_S8489664 : (⟨S_, .i32⟩ : BufTy).Contents (Elt F) → (⟨S8489664, .i32⟩ : BufTy).Contents (Elt F)),
    binary main_v3 main_v57 main_v58 (cmpi .slt : (⟨S8489664, .i32⟩ : BufTy).Contents (Elt F) → (⟨S8489664, .i32⟩ : BufTy).Contents (Elt F) → (⟨S8489664, .i1⟩ : BufTy).Contents (Elt F)),
    nullary main_c_13 (constantI S_ 32 132651#32),
    unary main_c_13 main_v59 (broadcastInDim S8489664 ![] bcast_S_S8489664 : (⟨S_, .i32⟩ : BufTy).Contents (Elt F) → (⟨S8489664, .i32⟩ : BufTy).Contents (Elt F)),
    binary main_v3 main_v59 main_v60 (addi : (⟨S8489664, .i32⟩ : BufTy).Contents (Elt F) → (⟨S8489664, .i32⟩ : BufTy).Contents (Elt F) → (⟨S8489664, .i32⟩ : BufTy).Contents (Elt F)),
    ternary main_v58 main_v60 main_v3 main_v61 (select : (⟨S8489664, .i1⟩ : BufTy).Contents (Elt F) → (⟨S8489664, .i32⟩ : BufTy).Contents (Elt F) → (⟨S8489664, .i32⟩ : BufTy).Contents (Elt F) → (⟨S8489664, .i32⟩ : BufTy).Contents (Elt F)),
    unary main_v61 main_v62 (broadcastInDim S8489664x1 ![0] bcast_S8489664_S8489664x1_0 : (⟨S8489664, .i32⟩ : BufTy).Contents (Elt F) → (⟨S8489664x1, .i32⟩ : BufTy).Contents (Elt F)),
    binary main_v49 main_v62 main_v63 ((fun x i => Host.gather gather_S132651x2_S8489664x1_S8489664x2_1_0_n_n_0_1_12 x i) : (⟨S132651x2, .f32⟩ : BufTy).Contents (Elt F) → (⟨S8489664x1, .i32⟩ : BufTy).Contents (Elt F) → (⟨S8489664x2, .f32⟩ : BufTy).Contents (Elt F)),
    binary main_v56 main_v63 main_v64 (addf : (⟨S8489664x2, .f32⟩ : BufTy).Contents (Elt F) → (⟨S8489664x2, .f32⟩ : BufTy).Contents (Elt F) → (⟨S8489664x2, .f32⟩ : BufTy).Contents (Elt F)),
    nullary main_cst_14 (constant S_ .f32 0x00000000#32),
    binary main_v64 main_cst_14 main_v65 ((fun x v => Host.reduceAdd x v reducesTo_S8489664x2_S8489664_d1 h_S_) : (⟨S8489664x2, .f32⟩ : BufTy).Contents (Elt F) → (⟨S_, .f32⟩ : BufTy).Contents (Elt F) → (⟨S8489664, .f32⟩ : BufTy).Contents (Elt F)),
    reshape main_v65 main_v66 rfl shapeCasts_S8489664_S2x4244832,
    nullary main_cst_15 (constant S_ .f32 0x00000000#32),
    binary main_v66 main_cst_15 main_v67 ((fun x v => Host.reduceAdd x v reducesTo_S2x4244832_S4244832_d0 h_S_) : (⟨S2x4244832, .f32⟩ : BufTy).Contents (Elt F) → (⟨S_, .f32⟩ : BufTy).Contents (Elt F) → (⟨S4244832, .f32⟩ : BufTy).Contents (Elt F)),
    nullary main_cst_16 (constant S_ .f32 0x40000000#32),
    unary main_cst_16 main_v68 (broadcastInDim S4244832 ![] bcast_S_S4244832 : (⟨S_, .f32⟩ : BufTy).Contents (Elt F) → (⟨S4244832, .f32⟩ : BufTy).Contents (Elt F)),
    binary main_v67 main_v68 main_v69 (Host.divf : (⟨S4244832, .f32⟩ : BufTy).Contents (Elt F) → (⟨S4244832, .f32⟩ : BufTy).Contents (Elt F) → (⟨S4244832, .f32⟩ : BufTy).Contents (Elt F)),
    unary main_v69 main_v70 (broadcastInDim S4244832x1 ![0] bcast_S4244832_S4244832x1_0 : (⟨S4244832, .f32⟩ : BufTy).Contents (Elt F) → (⟨S4244832x1, .f32⟩ : BufTy).Contents (Elt F)),
    unary main_v70 main_v71 (Host.negf : (⟨S4244832x1, .f32⟩ : BufTy).Contents (Elt F) → (⟨S4244832x1, .f32⟩ : BufTy).Contents (Elt F)),
    unary main_v71 main_v72 (Host.exp : (⟨S4244832x1, .f32⟩ : BufTy).Contents (Elt F) → (⟨S4244832x1, .f32⟩ : BufTy).Contents (Elt F)),
    nullary main_cst_17 (constant S_ .f32 0x3F800000#32),
    unary main_cst_17 main_v73 (broadcastInDim S4244832x1 ![] bcast_S_S4244832x1 : (⟨S_, .f32⟩ : BufTy).Contents (Elt F) → (⟨S4244832x1, .f32⟩ : BufTy).Contents (Elt F)),
    binary main_v73 main_v72 main_v74 (addf : (⟨S4244832x1, .f32⟩ : BufTy).Contents (Elt F) → (⟨S4244832x1, .f32⟩ : BufTy).Contents (Elt F) → (⟨S4244832x1, .f32⟩ : BufTy).Contents (Elt F)),
    nullary main_cst_18 (constant S_ .f32 0x3F800000#32),
    unary main_cst_18 main_v75 (broadcastInDim S4244832x1 ![] bcast_S_S4244832x1 : (⟨S_, .f32⟩ : BufTy).Contents (Elt F) → (⟨S4244832x1, .f32⟩ : BufTy).Contents (Elt F)),
    binary main_v75 main_v74 main_v76 (Host.divf : (⟨S4244832x1, .f32⟩ : BufTy).Contents (Elt F) → (⟨S4244832x1, .f32⟩ : BufTy).Contents (Elt F) → (⟨S4244832x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., reshape_bufs_sub .., nullary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub ..⟩

set_option maxRecDepth 8192 in
set_option maxHeartbeats 40800000 in
/-- Every weakly fair execution of the reference ends with its result at `val_main_v76` of the arguments, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76) = val_main_v76 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v76).trans (by read_results; rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.OutKI.lean ====
/-
  The result of the pipelined kernel of `KernelIdeal` in closed form. Every point of the grid writes back, cut at the
  row's end, the block of ONE row: the logistic of one half of the four-term sum of the four operand rows, lane by
  lane (`OutRow`). The 44 blocks of width 98304 cover the row's 4244832 columns, so after the last write-back the
  result array holds that row; the one host line after the region reshapes it into a column. `run_value` reads the run
  of @main at the reshaped result and at the four argument arrays.
-/
import proofs.«148812_j62852551409829_2_alg».proof.Proof.BodyKI
import Idealize.ShloMosaic.Lib.Pipeline.Value

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## The result row in closed form -/

/-- The logistic of one half of the four-term sum, lane by lane over the whole row: the same pointwise operations,
    in the same association, as the body applies to one block. -/
def OutRow (a b c d : FVec F S1x4244832 .f32) : FVec F S1x4244832 .f32 :=
  logistic (mulf (broadcast S1x4244832 (Scalar.ofBits .f32 0x3F000000#32)) (addf (addf (addf a b) c) d))

theorem OutRow_apply (a b c d : FVec F S1x4244832 .f32) (i : S1x4244832.Idx) :
    OutRow a b c d i
      = FloatOps.logistic (FloatOps.mulf (Scalar.ofBits .f32 0x3F000000#32)
          (FloatOps.addf (FloatOps.addf (FloatOps.addf (a i) (b i)) (c i)) (d i))) := by rfl

/-- The result row of core `c`, of the four operand arrays as the region finds them. -/
abbrev G (c : Dev nD) : FVec F S1x4244832 .f32 :=
  OutRow (V m c main_v66) (V m c main_v74) (V m c main_v82) (V m c main_v90)

/-! ## What a point writes back is its block of the result row -/

/-- An operand's filled-out block, read on the part inside the array, is the block. -/
theorem inb0_xinj (c : Dev nD) (t : Fin cfg0.N) (j : ((cfg0.win 0).xblock (cfg0.grid.coords t)).Idx) :
    inb0 m c t ((cfg0.win 0).xinj (cfg0.grid.coords t) j) = iblk m c 0 t j := by
  unfold inb0; rw [Window.fill_xinj]
theorem inb1_xinj (c : Dev nD) (t : Fin cfg0.N) (j : ((cfg0.win 1).xblock (cfg0.grid.coords t)).Idx) :
    inb1 m c t ((cfg0.win 1).xinj (cfg0.grid.coords t) j) = iblk m c 1 t j := by
  unfold inb1; rw [Window.fill_xinj]
theorem inb2_xinj (c : Dev nD) (t : Fin cfg0.N) (j : ((cfg0.win 2).xblock (cfg0.grid.coords t)).Idx) :
    inb2 m c t ((cfg0.win 2).xinj (cfg0.grid.coords t) j) = iblk m c 2 t j := by
  unfold inb2; rw [Window.fill_xinj]
theorem inb3_xinj (c : Dev nD) (t : Fin cfg0.N) (j : ((cfg0.win 3).xblock (cfg0.grid.coords t)).Idx) :
    inb3 m c t ((cfg0.win 3).xinj (cfg0.grid.coords t) j) = iblk m c 3 t j := by
  unfold inb3; rw [Window.fill_xinj]

/-- A block of a row at point `t`, through any of the five windows, reads the row where the result's block at `t`
    puts the block index (the five windows have one index map and one cut, by unfolding the maps). -/
theorem blk0_read (A : FVec F S1x4244832 .f32) (t : Fin cfg0.N) (j : ((cfg0.win 4).xblock (cfg0.grid.coords t)).Idx) :
    ((cfg0.win 0).blk t).view.read (Elt F) A j = A (((cfg0.win 4).blk t).view.emb j) := by rfl
theorem blk1_read (A : FVec F S1x4244832 .f32) (t : Fin cfg0.N) (j : ((cfg0.win 4).xblock (cfg0.grid.coords t)).Idx) :
    ((cfg0.win 1).blk t).view.read (Elt F) A j = A (((cfg0.win 4).blk t).view.emb j) := by rfl
theorem blk2_read (A : FVec F S1x4244832 .f32) (t : Fin cfg0.N) (j : ((cfg0.win 4).xblock (cfg0.grid.coords t)).Idx) :
    ((cfg0.win 2).blk t).view.read (Elt F) A j = A (((cfg0.win 4).blk t).view.emb j) := by rfl
theorem blk3_read (A : FVec F S1x4244832 .f32) (t : Fin cfg0.N) (j : ((cfg0.win 4).xblock (cfg0.grid.coords t)).Idx) :
    ((cfg0.win 3).blk t).view.read (Elt F) A j = A (((cfg0.win 4).blk t).view.emb j) := by rfl
theorem blk4_read (A : FVec F S1x4244832 .f32) (t : Fin cfg0.N) (j : ((cfg0.win 4).xblock (cfg0.grid.coords t)).Idx) :
    ((cfg0.win 4).blk t).view.read (Elt F) A j = A (((cfg0.win 4).blk t).view.emb j) := by rfl

/-- THE BLOCK WRITTEN BACK at point `t` is the block at `t` of the result row: the payload is pointwise, each
    operand's filled-out block on the part inside the array is its array's block, and a block of a pointwise function
    of rows is that function of the rows' blocks. -/
theorem flushed_eq (c : Dev nD) (t : Fin cfg0.N) :
    (dats m 0 c).flushed 4 t = ((cfg0.win 4).blk t).view.read (Elt F) (G m c) := by
  show (cfg0.win 4).cut (cfg0.grid.coords t) ((dats m 0 c).after 4 t) = _
  rw [after_4]
  funext j
  show k0_pay1 (inb0 m c t) (inb1 m c t) (inb2 m c t) (inb3 m c t) ((cfg0.win 4).xinj (cfg0.grid.coords t) j) = _
  rw [k0_pay1_apply,
    show inb0 m c t ((cfg0.win 4).xinj (cfg0.grid.coords t) j) = iblk m c 0 t j from inb0_xinj m c t j,
    show inb1 m c t ((cfg0.win 4).xinj (cfg0.grid.coords t) j) = iblk m c 1 t j from inb1_xinj m c t j,
    show inb2 m c t ((cfg0.win 4).xinj (cfg0.grid.coords t) j) = iblk m c 2 t j from inb2_xinj m c t j,
    show inb3 m c t ((cfg0.win 4).xinj (cfg0.grid.coords t) j) = iblk m c 3 t j from inb3_xinj m c t j,
    show iblk m c 0 t j = V m c main_v66 (((cfg0.win 4).blk t).view.emb j) from blk0_read (V m c main_v66) t j,
    show iblk m c 1 t j = V m c main_v74 (((cfg0.win 4).blk t).view.emb j) from blk1_read (V m c main_v74) t j,
    show iblk m c 2 t j = V m c main_v82 (((cfg0.win 4).blk t).view.emb j) from blk2_read (V m c main_v82) t j,
    show iblk m c 3 t j = V m c main_v90 (((cfg0.win 4).blk t).view.emb j) from blk3_read (V m c main_v90) t j,
    blk4_read (G m c) t j]
  exact (OutRow_apply (V m c main_v66) (V m c main_v74) (V m c main_v82) (V m c main_v90) _).symm

/-! ## The blocks cover the row -/

/-- Column `x` of a row of 4244832 columns lies in the block of width 98304 its quotient names, cut at the row's end; -/
theorem col_arith (x q s : Nat) (hx : x < 4244832) (hq : q = x / 98304) (hs : q * 98304 + s = min ((q + 1) * 98304) 4244832) :
    q * 98304 ≤ x ∧ x < q * 98304 + s := by omega

/-- and that quotient is one of the 44 points. -/
theorem col_pt (x : Nat) (hx : x < 4244832) : x / 98304 < 44 := by omega

/-- The result window's block index and cut, decided once over the grid: block `t` starts at column `98304 · t` of
    the one row and is cut at the row's end. -/
theorem idx_facts : ∀ t : Fin cfg0.N, (cfg0.win 4).index t 0 = 0 ∧ (cfg0.win 4).index t 1 = t.val
    ∧ (cfg0.win 4).xsize (cfg0.grid.coords t) 0 = 1
    ∧ t.val * 98304 + (cfg0.win 4).xsize (cfg0.grid.coords t) 1 = min ((t.val + 1) * 98304) 4244832 :=
  (by decide +kernel : ∀ t : Fin grid0.N, win0_4.index t 0 = 0 ∧ win0_4.index t 1 = t.val
    ∧ win0_4.xsize (grid0.coords t) 0 = 1
    ∧ t.val * 98304 + win0_4.xsize (grid0.coords t) 1 = min ((t.val + 1) * 98304) 4244832)

/-- An index of the row is in point `t`'s block iff each coordinate is within the block's cut extent there. -/
theorem mem_blk (t : Fin cfg0.N) (i : S1x4244832.Idx) :
    i ∈ ((cfg0.win 4).blk t).view.set
      ↔ ∀ a : Fin 2, (cfg0.win 4).index t a * (cfg0.win 4).size a ≤ (i a : Nat)
          ∧ (i a : Nat) < (cfg0.win 4).index t a * (cfg0.win 4).size a + (cfg0.win 4).xsize (cfg0.grid.coords t) a := by
  show i ∈ ((View.whole main_v91).slice (win0_4.rect t)).set ↔ _
  rw [View.set_slice_whole, Rect.mem_set_unit]
  exact Iff.rfl

theorem size4_0 : (cfg0.win 4).size 0 = 1 := by rfl
theorem size4_1 : (cfg0.win 4).size 1 = 98304 := by rfl

/-- Every index of the row lies in the block of the point its column divided by the block width names: 44 blocks
    of width 98304 reach past the row's 4244832 columns. -/
theorem cover (i : S1x4244832.Idx) :
    ∃ t : Fin cfg0.N, (cfg0.win 4).flush t = true ∧ i ∈ ((cfg0.win 4).blk t).view.set := by
  have h0 : (i 0 : Nat) < 1 := (i 0).isLt
  have h1 : (i 1 : Nat) < 4244832 := (i 1).isLt
  have hN : (i 1 : Nat) / 98304 < cfg0.N := (col_pt _ h1).trans_eq N_0.symm
  refine ⟨⟨(i 1 : Nat) / 98304, hN⟩, flush0_4 _, ?_⟩
  rw [mem_blk]
  obtain ⟨e0, e1, x0, x1⟩ := idx_facts ⟨(i 1 : Nat) / 98304, hN⟩
  intro a
  match a with
  | ⟨0, _⟩ =>
    show (cfg0.win 4).index ⟨(i 1 : Nat) / 98304, hN⟩ 0 * (cfg0.win 4).size 0 ≤ (i 0 : Nat)
      ∧ (i 0 : Nat) < (cfg0.win 4).index ⟨(i 1 : Nat) / 98304, hN⟩ 0 * (cfg0.win 4).size 0 + (cfg0.win 4).xsize (cfg0.grid.coords ⟨(i 1 : Nat) / 98304, hN⟩) 0
    rw [e0, x0, size4_0]
    exact ⟨Nat.zero_le _, by rw [Nat.zero_mul, Nat.zero_add]; exact h0⟩
  | ⟨1, _⟩ =>
    show (cfg0.win 4).index ⟨(i 1 : Nat) / 98304, hN⟩ 1 * (cfg0.win 4).size 1 ≤ (i 1 : Nat)
      ∧ (i 1 : Nat) < (cfg0.win 4).index ⟨(i 1 : Nat) / 98304, hN⟩ 1 * (cfg0.win 4).size 1 + (cfg0.win 4).xsize (cfg0.grid.coords ⟨(i 1 : Nat) / 98304, hN⟩) 1
    rw [e1, size4_1]
    exact col_arith (i 1 : Nat) ((i 1 : Nat) / 98304) _ h1 rfl x1

/-! ## The result array after the run -/

/-- After the last write-back the result array holds the result row. -/
theorem final4 (c : Dev nD) : (dats m 0 c).arrAt 4 cfg0.N = G m c :=
  (dats m 0 c).arrAt_eq_of_cover 4 (G m c) (fun t _ => flushed_eq m c t) cover

/-! ## The host line after the region -/

/-- The one host line after the region reshapes the result row into a column: the buffer it writes ends at the
    reshaped result row. -/
theorem tail_v92 (c : Dev nD) :
    Pipeline.afterTail₀ cfgs (dats m) 0 (V0 m) [hostOps1] c main_v92
      = shapeCast S4244832x1 (G m c) shapeCasts_S1x4244832_S4244832x1 := by
  unfold Pipeline.afterTail₀
  show StableHlo.after hostOps1 _ (Proc.devRef .tc main_v92) = _
  after_results
  have e : Pipeline.withArrays (cfgs 0).spec c (V0 m c) (fun w => (dats m 0 c).arrAt w (cfgs 0).N) (Proc.devRef .tc main_v91) = G m c :=
    (Pipeline.withArrays_arr spec0 launch0.win.arr_inj c _ _ 4).trans (final4 m c)
  rw [e]
  rfl

/-! ## The run, read at the result and the arguments -/

/-- At the compiled mesh, for any values, from any memory with zero counters: every weakly fair execution of @main
    terminates, the result buffer ends at the reshaped result row of the four operand arrays as the region finds
    them, and the four argument arrays end as they were. -/
theorem run_value : θ_run defs (onTc (τ := τ) (main (F := F))) ⟨m, fun _ => 0, ρ⟩ (fun r => ∀ c : Dev nD,
      r.2.mem ((c.tc : Thread nD τ).loc main_v92) = shapeCast S4244832x1 (G m c) shapeCasts_S1x4244832_S4244832x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v92 (Pipeline.mem_restRefs_of main_v92 (by decide) (by decide))).trans (tail_v92 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Body

end
-- ==== Proof.HostK.lean ====
/-
  The host operations before the kernel's region, one value at a time: each buffer's contents as a function of the
  argument arrays it depends on, and the four gathered row vectors the region reads as these functions of the arguments.
-/
import proofs.«148812_j62852551409829_2_alg».proof.Proof.Gen.KernelIdeal.Frame
import proofs.«148812_j62852551409829_2_alg».proof.Proof.LibHostRead

noncomputable section

namespace Cert.KernelIdeal.HostK

open Cert.KernelIdeal Cert.KernelIdeal.Gen Idealize.ShloMosaic Idealize.ShloMosaic.TcCoe Idealize.SL.Sem Idealize.ShloMosaic.StableHlo

variable {F : FTy → Type} [FloatOps F]

def t_main_v0 (x3 : (⟨S2x8489664, .i32⟩ : BufTy).Contents (Elt F)) : (⟨S1x8489664, .i32⟩ : BufTy).Contents (Elt F) :=
  (extractStridedSlice S1x8489664 ![0, 0] · slices_S2x8489664_S1x8489664_0_0) x3
def t_main_v1 (x3 : (⟨S2x8489664, .i32⟩ : BufTy).Contents (Elt F)) : (⟨S8489664, .i32⟩ : BufTy).Contents (Elt F) :=
  shapeCast _ (t_main_v0 (F := F) x3) shapeCasts_S1x8489664_S8489664
def t_main_v2 (x3 : (⟨S2x8489664, .i32⟩ : BufTy).Contents (Elt F)) : (⟨S1x8489664, .i32⟩ : BufTy).Contents (Elt F) :=
  (extractStridedSlice S1x8489664 ![1, 0] · slices_S2x8489664_S1x8489664_1_0) x3
def t_main_v3 (x3 : (⟨S2x8489664, .i32⟩ : BufTy).Contents (Elt F)) : (⟨S8489664, .i32⟩ : BufTy).Contents (Elt F) :=
  shapeCast _ (t_main_v2 (F := F) x3) shapeCasts_S1x8489664_S8489664
def t_main_v4  : (⟨S132651, .i32⟩ : BufTy).Contents (Elt F) :=
  iotaInDim S132651 32 0
def t_main_v5 (x3 : (⟨S2x8489664, .i32⟩ : BufTy).Contents (Elt F)) : (⟨S8622315, .i32⟩ : BufTy).Contents (Elt F) :=
  (fun a b => concatenate S8622315 0 [⟨S8489664, a⟩, ⟨S132651, b⟩] concatenates_S8489664_S132651_S8622315_d0) (t_main_v1 (F := F) x3) (t_main_v4 (F := F))
def t_main_v6 (x3 : (⟨S2x8489664, .i32⟩ : BufTy).Contents (Elt F)) : (⟨S8622315, .i32⟩ : BufTy).Contents (Elt F) :=
  (fun a b => concatenate S8622315 0 [⟨S8489664, a⟩, ⟨S132651, b⟩] concatenates_S8489664_S132651_S8622315_d0) (t_main_v3 (F := F) x3) (t_main_v4 (F := F))
def t_main_cst  : (⟨S_, .f32⟩ : BufTy).Contents (Elt F) :=
  constant S_ .f32 0x3F800000#32
def t_main_v7  : (⟨S8622315, .f32⟩ : BufTy).Contents (Elt F) :=
  (broadcastInDim S8622315 ![] bcast_S_S8622315) (t_main_cst (F := F))
def t_main_cst_0  : (⟨S_, .f32⟩ : BufTy).Contents (Elt F) :=
  constant S_ .f32 0x00000000#32
def t_main_v8  : (⟨S132651, .f32⟩ : BufTy).Contents (Elt F) :=
  (broadcastInDim S132651 ![] bcast_S_S132651) (t_main_cst_0 (F := F))
def t_main_v9 (x3 : (⟨S2x8489664, .i32⟩ : BufTy).Contents (Elt F)) : (⟨S8622315x1, .i32⟩ : BufTy).Contents (Elt F) :=
  (broadcastInDim S8622315x1 ![0] bcast_S8622315_S8622315x1_0) (t_main_v6 (F := F) x3)
def t_main_v10 (x3 : (⟨S2x8489664, .i32⟩ : BufTy).Contents (Elt F)) : (⟨S132651, .f32⟩ : BufTy).Contents (Elt F) :=
  (fun x i u => Host.scatterAdd scatter_S132651_S8622315x1_S8622315_n_0_0_1 x i u) (t_main_v8 (F := F)) (t_main_v9 (F := F) x3) (t_main_v7 (F := F))
def t_main_cst_1  : (⟨S_, .f32⟩ : BufTy).Contents (Elt F) :=
  constant S_ .f32 0x00000000#32
def t_main_v11  : (⟨S132651, .f32⟩ : BufTy).Contents (Elt F) :=
  (broadcastInDim S132651 ![] bcast_S_S132651) (t_main_cst_1 (F := F))
def t_main_v12 (x3 : (⟨S2x8489664, .i32⟩ : BufTy).Contents (Elt F)) : (⟨S132651, .i1⟩ : BufTy).Contents (Elt F) :=
  (cmpf .ogt) (t_main_v10 (F := F) x3) (t_main_v11 (F := F))
def t_main_cst_2  : (⟨S_, .f32⟩ : BufTy).Contents (Elt F) :=
  constant S_ .f32 0x2B8CBCCC#32
def t_main_v13  : (⟨S132651, .f32⟩ : BufTy).Contents (Elt F) :=
  (broadcastInDim S132651 ![] bcast_S_S132651) (t_main_cst_2 (F := F))
def t_main_v14 (x3 : (⟨S2x8489664, .i32⟩ : BufTy).Contents (Elt F)) : (⟨S132651, .f32⟩ : BufTy).Contents (Elt F) :=
  maximumf (t_main_v10 (F := F) x3) (t_main_v13 (F := F))
def t_main_v15 (x3 : (⟨S2x8489664, .i32⟩ : BufTy).Contents (Elt F)) : (⟨S132651, .f32⟩ : BufTy).Contents (Elt F) :=
  Host.rsqrt (t_main_v14 (F := F) x3)
def t_main_cst_3  : (⟨S_, .f32⟩ : BufTy).Contents (Elt F) :=
  constant S_ .f32 0x00000000#32
def t_main_call0_v0  : (⟨S_, .f32⟩ : BufTy).Contents (Elt F) :=
  id (t_main_cst_3 (F := F))
def t_main_call0_v1  : (⟨S132651, .f32⟩ : BufTy).Contents (Elt F) :=
  (broadcastInDim S132651 ![] bcast_S_S132651) (t_main_call0_v0 (F := F))
def t_main_v16 (x3 : (⟨S2x8489664, .i32⟩ : BufTy).Contents (Elt F)) : (⟨S132651, .f32⟩ : BufTy).Contents (Elt F) :=
  select (t_main_v12 (F := F) x3) (t_main_v15 (F := F) x3) (t_main_call0_v1 (F := F))
def t_main_c  : (⟨S_, .i32⟩ : BufTy).Contents (Elt F) :=
  constantI S_ 32 0#32
def t_main_v17  : (⟨S8622315, .i32⟩ : BufTy).Contents (Elt F) :=
  (broadcastInDim S8622315 ![] bcast_S_S8622315) (t_main_c (F := F))
def t_main_v18 (x3 : (⟨S2x8489664, .i32⟩ : BufTy).Contents (Elt F)) : (⟨S8622315, .i1⟩ : BufTy).Contents (Elt F) :=
  (cmpi .slt) (t_main_v5 (F := F) x3) (t_main_v17 (F := F))
def t_main_c_4  : (⟨S_, .i32⟩ : BufTy).Contents (Elt F) :=
  constantI S_ 32 132651#32
def t_main_v19  : (⟨S8622315, .i32⟩ : BufTy).Contents (Elt F) :=
  (broadcastInDim S8622315 ![] bcast_S_S8622315) (t_main_c_4 (F := F))
def t_main_v20 (x3 : (⟨S2x8489664, .i32⟩ : BufTy).Contents (Elt F)) : (⟨S8622315, .i32⟩ : BufTy).Contents (Elt F) :=
  addi (t_main_v5 (F := F) x3) (t_main_v19 (F := F))
def t_main_v21 (x3 : (⟨S2x8489664, .i32⟩ : BufTy).Contents (Elt F)) : (⟨S8622315, .i32⟩ : BufTy).Contents (Elt F) :=
  select (t_main_v18 (F := F) x3) (t_main_v20 (F := F) x3) (t_main_v5 (F := F) x3)
def t_main_v22 (x3 : (⟨S2x8489664, .i32⟩ : BufTy).Contents (Elt F)) : (⟨S8622315x1, .i32⟩ : BufTy).Contents (Elt F) :=
  (broadcastInDim S8622315x1 ![0] bcast_S8622315_S8622315x1_0) (t_main_v21 (F := F) x3)
def t_main_v23 (x3 : (⟨S2x8489664, .i32⟩ : BufTy).Contents (Elt F)) : (⟨S8622315, .f32⟩ : BufTy).Contents (Elt F) :=
  (fun x i => Host.gather gather_S132651_S8622315x1_S8622315_n_0_n_n_0_1_1 x i) (t_main_v16 (F := F) x3) (t_main_v22 (F := F) x3)
def t_main_c_5  : (⟨S_, .i32⟩ : BufTy).Contents (Elt F) :=
  constantI S_ 32 0#32
def t_main_v24  : (⟨S8622315, .i32⟩ : BufTy).Contents (Elt F) :=
  (broadcastInDim S8622315 ![] bcast_S_S8622315) (t_main_c_5 (F := F))
def t_main_v25 (x3 : (⟨S2x8489664, .i32⟩ : BufTy).Contents (Elt F)) : (⟨S8622315, .i1⟩ : BufTy).Contents (Elt F) :=
  (cmpi .slt) (t_main_v6 (F := F) x3) (t_main_v24 (F := F))
def t_main_c_6  : (⟨S_, .i32⟩ : BufTy).Contents (Elt F) :=
  constantI S_ 32 132651#32
def t_main_v26  : (⟨S8622315, .i32⟩ : BufTy).Contents (Elt F) :=
  (broadcastInDim S8622315 ![] bcast_S_S8622315) (t_main_c_6 (F := F))
def t_main_v27 (x3 : (⟨S2x8489664, .i32⟩ : BufTy).Contents (Elt F)) : (⟨S8622315, .i32⟩ : BufTy).Contents (Elt F) :=
  addi (t_main_v6 (F := F) x3) (t_main_v26 (F := F))
def t_main_v28 (x3 : (⟨S2x8489664, .i32⟩ : BufTy).Contents (Elt F)) : (⟨S8622315, .i32⟩ : BufTy).Contents (Elt F) :=
  select (t_main_v25 (F := F) x3) (t_main_v27 (F := F) x3) (t_main_v6 (F := F) x3)
def t_main_v29 (x3 : (⟨S2x8489664, .i32⟩ : BufTy).Contents (Elt F)) : (⟨S8622315x1, .i32⟩ : BufTy).Contents (Elt F) :=
  (broadcastInDim S8622315x1 ![0] bcast_S8622315_S8622315x1_0) (t_main_v28 (F := F) x3)
def t_main_v30 (x3 : (⟨S2x8489664, .i32⟩ : BufTy).Contents (Elt F)) : (⟨S8622315, .f32⟩ : BufTy).Contents (Elt F) :=
  (fun x i => Host.gather gather_S132651_S8622315x1_S8622315_n_0_n_n_0_1_1 x i) (t_main_v16 (F := F) x3) (t_main_v29 (F := F) x3)
def t_main_v31 (x3 : (⟨S2x8489664, .i32⟩ : BufTy).Contents (Elt F)) : (⟨S8622315, .f32⟩ : BufTy).Contents (Elt F) :=
  mulf (t_main_v23 (F := F) x3) (t_main_v30 (F := F) x3)
def t_main_v32 (x0 : (⟨S132651x1, .f32⟩ : BufTy).Contents (Elt F)) : (⟨S132651, .f32⟩ : BufTy).Contents (Elt F) :=
  shapeCast _ x0 shapeCasts_S132651x1_S132651
def t_main_c_7  : (⟨S_, .i32⟩ : BufTy).Contents (Elt F) :=
  constantI S_ 32 0#32
def t_main_v33  : (⟨S8622315, .i32⟩ : BufTy).Contents (Elt F) :=
  (broadcastInDim S8622315 ![] bcast_S_S8622315) (t_main_c_7 (F := F))
def t_main_v34 (x3 : (⟨S2x8489664, .i32⟩ : BufTy).Contents (Elt F)) : (⟨S8622315, .i1⟩ : BufTy).Contents (Elt F) :=
  (cmpi .slt) (t_main_v5 (F := F) x3) (t_main_v33 (F := F))
def t_main_c_8  : (⟨S_, .i32⟩ : BufTy).Contents (Elt F) :=
  constantI S_ 32 132651#32
def t_main_v35  : (⟨S8622315, .i32⟩ : BufTy).Contents (Elt F) :=
  (broadcastInDim S8622315 ![] bcast_S_S8622315) (t_main_c_8 (F := F))
def t_main_v36 (x3 : (⟨S2x8489664, .i32⟩ : BufTy).Contents (Elt F)) : (⟨S8622315, .i32⟩ : BufTy).Contents (Elt F) :=
  addi (t_main_v5 (F := F) x3) (t_main_v35 (F := F))
def t_main_v37 (x3 : (⟨S2x8489664, .i32⟩ : BufTy).Contents (Elt F)) : (⟨S8622315, .i32⟩ : BufTy).Contents (Elt F) :=
  select (t_main_v34 (F := F) x3) (t_main_v36 (F := F) x3) (t_main_v5 (F := F) x3)
def t_main_v38 (x3 : (⟨S2x8489664, .i32⟩ : BufTy).Contents (Elt F)) : (⟨S8622315x1, .i32⟩ : BufTy).Contents (Elt F) :=
  (broadcastInDim S8622315x1 ![0] bcast_S8622315_S8622315x1_0) (t_main_v37 (F := F) x3)
def t_main_v39 (x0 : (⟨S132651x1, .f32⟩ : BufTy).Contents (Elt F)) (x3 : (⟨S2x8489664, .i32⟩ : BufTy).Contents (Elt F)) : (⟨S8622315, .f32⟩ : BufTy).Contents (Elt F) :=
  (fun x i => Host.gather gather_S132651_S8622315x1_S8622315_n_0_n_n_0_1_1 x i) (t_main_v32 (F := F) x0) (t_main_v38 (F := F) x3)
def t_main_v40 (x0 : (⟨S132651x1, .f32⟩ : BufTy).Contents (Elt F)) (x3 : (⟨S2x8489664, .i32⟩ : BufTy).Contents (Elt F)) : (⟨S8622315, .f32⟩ : BufTy).Contents (Elt F) :=
  mulf (t_main_v31 (F := F) x3) (t_main_v39 (F := F) x0 x3)
def t_main_cst_9  : (⟨S_, .f32⟩ : BufTy).Contents (Elt F) :=
  constant S_ .f32 0x00000000#32
def t_main_v41  : (⟨S132651, .f32⟩ : BufTy).Contents (Elt F) :=
  (broadcastInDim S132651 ![] bcast_S_S132651) (t_main_cst_9 (F := F))
def t_main_v42 (x3 : (⟨S2x8489664, .i32⟩ : BufTy).Contents (Elt F)) : (⟨S8622315x1, .i32⟩ : BufTy).Contents (Elt F) :=
  (broadcastInDim S8622315x1 ![0] bcast_S8622315_S8622315x1_0) (t_main_v6 (F := F) x3)
def t_main_v43 (x0 : (⟨S132651x1, .f32⟩ : BufTy).Contents (Elt F)) (x3 : (⟨S2x8489664, .i32⟩ : BufTy).Contents (Elt F)) : (⟨S132651, .f32⟩ : BufTy).Contents (Elt F) :=
  (fun x i u => Host.scatterAdd scatter_S132651_S8622315x1_S8622315_n_0_0_1 x i u) (t_main_v41 (F := F)) (t_main_v42 (F := F) x3) (t_main_v40 (F := F) x0 x3)
def t_main_v44 (x0 : (⟨S132651x1, .f32⟩ : BufTy).Contents (Elt F)) (x3 : (⟨S2x8489664, .i32⟩ : BufTy).Contents (Elt F)) : (⟨S132651x1, .f32⟩ : BufTy).Contents (Elt F) :=
  (broadcastInDim S132651x1 ![0] bcast_S132651_S132651x1_0) (t_main_v43 (F := F) x0 x3)
def t_main_v45 (x1 : (⟨S1x2, .f32⟩ : BufTy).Contents (Elt F)) : (⟨S2, .f32⟩ : BufTy).Contents (Elt F) :=
  shapeCast _ x1 shapeCasts_S1x2_S2
def t_main_v46 (x1 : (⟨S1x2, .f32⟩ : BufTy).Contents (Elt F)) : (⟨S1x2, .f32⟩ : BufTy).Contents (Elt F) :=
  (broadcastInDim S1x2 ![1] bcast_S2_S1x2_1) (t_main_v45 (F := F) x1)
def t_main_v47 (x0 : (⟨S132651x1, .f32⟩ : BufTy).Contents (Elt F)) (x3 : (⟨S2x8489664, .i32⟩ : BufTy).Contents (Elt F)) : (⟨S132651x2, .f32⟩ : BufTy).Contents (Elt F) :=
  (broadcastInDim S132651x2 ![0, 1] bcast_S132651x1_S132651x2_0_1) (t_main_v44 (F := F) x0 x3)
def t_main_v48 (x1 : (⟨S1x2, .f32⟩ : BufTy).Contents (Elt F)) : (⟨S132651x2, .f32⟩ : BufTy).Contents (Elt F) :=
  (broadcastInDim S132651x2 ![0, 1] bcast_S1x2_S132651x2_0_1) (t_main_v46 (F := F) x1)
def t_main_v49 (x0 : (⟨S132651x1, .f32⟩ : BufTy).Contents (Elt F)) (x1 : (⟨S1x2, .f32⟩ : BufTy).Contents (Elt F)) (x3 : (⟨S2x8489664, .i32⟩ : BufTy).Contents (Elt F)) : (⟨S132651x2, .f32⟩ : BufTy).Contents (Elt F) :=
  mulf (t_main_v47 (F := F) x0 x3) (t_main_v48 (F := F) x1)
def t_main_v50 (x2 : (⟨S2, .f32⟩ : BufTy).Contents (Elt F)) : (⟨S1x2, .f32⟩ : BufTy).Contents (Elt F) :=
  (broadcastInDim S1x2 ![1] bcast_S2_S1x2_1) x2
def t_main_v51 (x2 : (⟨S2, .f32⟩ : BufTy).Contents (Elt F)) : (⟨S132651x2, .f32⟩ : BufTy).Contents (Elt F) :=
  (broadcastInDim S132651x2 ![0, 1] bcast_S1x2_S132651x2_0_1) (t_main_v50 (F := F) x2)
def t_main_v52 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S132651x2, .f32⟩ : BufTy).Contents (Elt F) :=
  addf (t_main_v49 (F := F) x0 x1 x3) (t_main_v51 (F := F) x2)
def t_main_call1_cst  : (⟨S_, .f32⟩ : BufTy).Contents (Elt F) :=
  constant S_ .f32 0x00000000#32
def t_main_call1_v0  : (⟨S132651x2, .f32⟩ : BufTy).Contents (Elt F) :=
  (broadcastInDim S132651x2 ![] bcast_S_S132651x2) (t_main_call1_cst (F := F))
def t_main_v53 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S132651x2, .f32⟩ : BufTy).Contents (Elt F) :=
  maximumf (t_main_v52 (F := F) x0 x1 x2 x3) (t_main_call1_v0 (F := F))
def t_main_cst_10  : (⟨S_, .f32⟩ : BufTy).Contents (Elt F) :=
  constant S_ .f32 0x00000000#32
def t_main_v54 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S132651, .f32⟩ : BufTy).Contents (Elt F) :=
  (fun x v => Host.reduceAdd x v reducesTo_S132651x2_S132651_d1 h_S_) (t_main_v53 (F := F) x0 x1 x2 x3) (t_main_cst_10 (F := F))
def t_main_v55 (x3 : (⟨S2x8489664, .i32⟩ : BufTy).Contents (Elt F)) : (⟨S4244832, .i32⟩ : BufTy).Contents (Elt F) :=
  (extractStridedSlice S4244832 ![0] · slices_S8489664_S4244832_0) (t_main_v1 (F := F) x3)
def t_main_v56 (x3 : (⟨S2x8489664, .i32⟩ : BufTy).Contents (Elt F)) : (⟨S4244832, .i32⟩ : BufTy).Contents (Elt F) :=
  (extractStridedSlice S4244832 ![4244832] · slices_S8489664_S4244832_4244832) (t_main_v1 (F := F) x3)
def t_main_v57 (x3 : (⟨S2x8489664, .i32⟩ : BufTy).Contents (Elt F)) : (⟨S4244832, .i32⟩ : BufTy).Contents (Elt F) :=
  (extractStridedSlice S4244832 ![0] · slices_S8489664_S4244832_0) (t_main_v3 (F := F) x3)
def t_main_v58 (x3 : (⟨S2x8489664, .i32⟩ : BufTy).Contents (Elt F)) : (⟨S4244832, .i32⟩ : BufTy).Contents (Elt F) :=
  (extractStridedSlice S4244832 ![4244832] · slices_S8489664_S4244832_4244832) (t_main_v3 (F := F) x3)
def t_main_c_11  : (⟨S_, .i32⟩ : BufTy).Contents (Elt F) :=
  constantI S_ 32 0#32
def t_main_v59  : (⟨S4244832, .i32⟩ : BufTy).Contents (Elt F) :=
  (broadcastInDim S4244832 ![] bcast_S_S4244832) (t_main_c_11 (F := F))
def t_main_v60 (x3 : (⟨S2x8489664, .i32⟩ : BufTy).Contents (Elt F)) : (⟨S4244832, .i1⟩ : BufTy).Contents (Elt F) :=
  (cmpi .slt) (t_main_v55 (F := F) x3) (t_main_v59 (F := F))
def t_main_c_12  : (⟨S_, .i32⟩ : BufTy).Contents (Elt F) :=
  constantI S_ 32 132651#32
def t_main_v61  : (⟨S4244832, .i32⟩ : BufTy).Contents (Elt F) :=
  (broadcastInDim S4244832 ![] bcast_S_S4244832) (t_main_c_12 (F := F))
def t_main_v62 (x3 : (⟨S2x8489664, .i32⟩ : BufTy).Contents (Elt F)) : (⟨S4244832, .i32⟩ : BufTy).Contents (Elt F) :=
  addi (t_main_v55 (F := F) x3) (t_main_v61 (F := F))
def t_main_v63 (x3 : (⟨S2x8489664, .i32⟩ : BufTy).Contents (Elt F)) : (⟨S4244832, .i32⟩ : BufTy).Contents (Elt F) :=
  select (t_main_v60 (F := F) x3) (t_main_v62 (F := F) x3) (t_main_v55 (F := F) x3)
def t_main_v64 (x3 : (⟨S2x8489664, .i32⟩ : BufTy).Contents (Elt F)) : (⟨S4244832x1, .i32⟩ : BufTy).Contents (Elt F) :=
  (broadcastInDim S4244832x1 ![0] bcast_S4244832_S4244832x1_0) (t_main_v63 (F := F) x3)
def t_main_v65 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S4244832, .f32⟩ : BufTy).Contents (Elt F) :=
  (fun x i => Host.gather gather_S132651_S4244832x1_S4244832_n_0_n_n_0_1_1 x i) (t_main_v54 (F := F) x0 x1 x2 x3) (t_main_v64 (F := F) x3)
def t_main_v66 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S1x4244832, .f32⟩ : BufTy).Contents (Elt F) :=
  (broadcastInDim S1x4244832 ![1] bcast_S4244832_S1x4244832_1) (t_main_v65 (F := F) x0 x1 x2 x3)
def t_main_c_13  : (⟨S_, .i32⟩ : BufTy).Contents (Elt F) :=
  constantI S_ 32 0#32
def t_main_v67  : (⟨S4244832, .i32⟩ : BufTy).Contents (Elt F) :=
  (broadcastInDim S4244832 ![] bcast_S_S4244832) (t_main_c_13 (F := F))
def t_main_v68 (x3 : (⟨S2x8489664, .i32⟩ : BufTy).Contents (Elt F)) : (⟨S4244832, .i1⟩ : BufTy).Contents (Elt F) :=
  (cmpi .slt) (t_main_v57 (F := F) x3) (t_main_v67 (F := F))
def t_main_c_14  : (⟨S_, .i32⟩ : BufTy).Contents (Elt F) :=
  constantI S_ 32 132651#32
def t_main_v69  : (⟨S4244832, .i32⟩ : BufTy).Contents (Elt F) :=
  (broadcastInDim S4244832 ![] bcast_S_S4244832) (t_main_c_14 (F := F))
def t_main_v70 (x3 : (⟨S2x8489664, .i32⟩ : BufTy).Contents (Elt F)) : (⟨S4244832, .i32⟩ : BufTy).Contents (Elt F) :=
  addi (t_main_v57 (F := F) x3) (t_main_v69 (F := F))
def t_main_v71 (x3 : (⟨S2x8489664, .i32⟩ : BufTy).Contents (Elt F)) : (⟨S4244832, .i32⟩ : BufTy).Contents (Elt F) :=
  select (t_main_v68 (F := F) x3) (t_main_v70 (F := F) x3) (t_main_v57 (F := F) x3)
def t_main_v72 (x3 : (⟨S2x8489664, .i32⟩ : BufTy).Contents (Elt F)) : (⟨S4244832x1, .i32⟩ : BufTy).Contents (Elt F) :=
  (broadcastInDim S4244832x1 ![0] bcast_S4244832_S4244832x1_0) (t_main_v71 (F := F) x3)
def t_main_v73 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S4244832, .f32⟩ : BufTy).Contents (Elt F) :=
  (fun x i => Host.gather gather_S132651_S4244832x1_S4244832_n_0_n_n_0_1_1 x i) (t_main_v54 (F := F) x0 x1 x2 x3) (t_main_v72 (F := F) x3)
def t_main_v74 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S1x4244832, .f32⟩ : BufTy).Contents (Elt F) :=
  (broadcastInDim S1x4244832 ![1] bcast_S4244832_S1x4244832_1) (t_main_v73 (F := F) x0 x1 x2 x3)
def t_main_c_15  : (⟨S_, .i32⟩ : BufTy).Contents (Elt F) :=
  constantI S_ 32 0#32
def t_main_v75  : (⟨S4244832, .i32⟩ : BufTy).Contents (Elt F) :=
  (broadcastInDim S4244832 ![] bcast_S_S4244832) (t_main_c_15 (F := F))
def t_main_v76 (x3 : (⟨S2x8489664, .i32⟩ : BufTy).Contents (Elt F)) : (⟨S4244832, .i1⟩ : BufTy).Contents (Elt F) :=
  (cmpi .slt) (t_main_v56 (F := F) x3) (t_main_v75 (F := F))
def t_main_c_16  : (⟨S_, .i32⟩ : BufTy).Contents (Elt F) :=
  constantI S_ 32 132651#32
def t_main_v77  : (⟨S4244832, .i32⟩ : BufTy).Contents (Elt F) :=
  (broadcastInDim S4244832 ![] bcast_S_S4244832) (t_main_c_16 (F := F))
def t_main_v78 (x3 : (⟨S2x8489664, .i32⟩ : BufTy).Contents (Elt F)) : (⟨S4244832, .i32⟩ : BufTy).Contents (Elt F) :=
  addi (t_main_v56 (F := F) x3) (t_main_v77 (F := F))
def t_main_v79 (x3 : (⟨S2x8489664, .i32⟩ : BufTy).Contents (Elt F)) : (⟨S4244832, .i32⟩ : BufTy).Contents (Elt F) :=
  select (t_main_v76 (F := F) x3) (t_main_v78 (F := F) x3) (t_main_v56 (F := F) x3)
def t_main_v80 (x3 : (⟨S2x8489664, .i32⟩ : BufTy).Contents (Elt F)) : (⟨S4244832x1, .i32⟩ : BufTy).Contents (Elt F) :=
  (broadcastInDim S4244832x1 ![0] bcast_S4244832_S4244832x1_0) (t_main_v79 (F := F) x3)
def t_main_v81 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S4244832, .f32⟩ : BufTy).Contents (Elt F) :=
  (fun x i => Host.gather gather_S132651_S4244832x1_S4244832_n_0_n_n_0_1_1 x i) (t_main_v54 (F := F) x0 x1 x2 x3) (t_main_v80 (F := F) x3)
def t_main_v82 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S1x4244832, .f32⟩ : BufTy).Contents (Elt F) :=
  (broadcastInDim S1x4244832 ![1] bcast_S4244832_S1x4244832_1) (t_main_v81 (F := F) x0 x1 x2 x3)
def t_main_c_17  : (⟨S_, .i32⟩ : BufTy).Contents (Elt F) :=
  constantI S_ 32 0#32
def t_main_v83  : (⟨S4244832, .i32⟩ : BufTy).Contents (Elt F) :=
  (broadcastInDim S4244832 ![] bcast_S_S4244832) (t_main_c_17 (F := F))
def t_main_v84 (x3 : (⟨S2x8489664, .i32⟩ : BufTy).Contents (Elt F)) : (⟨S4244832, .i1⟩ : BufTy).Contents (Elt F) :=
  (cmpi .slt) (t_main_v58 (F := F) x3) (t_main_v83 (F := F))
def t_main_c_18  : (⟨S_, .i32⟩ : BufTy).Contents (Elt F) :=
  constantI S_ 32 132651#32
def t_main_v85  : (⟨S4244832, .i32⟩ : BufTy).Contents (Elt F) :=
  (broadcastInDim S4244832 ![] bcast_S_S4244832) (t_main_c_18 (F := F))
def t_main_v86 (x3 : (⟨S2x8489664, .i32⟩ : BufTy).Contents (Elt F)) : (⟨S4244832, .i32⟩ : BufTy).Contents (Elt F) :=
  addi (t_main_v58 (F := F) x3) (t_main_v85 (F := F))
def t_main_v87 (x3 : (⟨S2x8489664, .i32⟩ : BufTy).Contents (Elt F)) : (⟨S4244832, .i32⟩ : BufTy).Contents (Elt F) :=
  select (t_main_v84 (F := F) x3) (t_main_v86 (F := F) x3) (t_main_v58 (F := F) x3)
def t_main_v88 (x3 : (⟨S2x8489664, .i32⟩ : BufTy).Contents (Elt F)) : (⟨S4244832x1, .i32⟩ : BufTy).Contents (Elt F) :=
  (broadcastInDim S4244832x1 ![0] bcast_S4244832_S4244832x1_0) (t_main_v87 (F := F) x3)
def t_main_v89 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S4244832, .f32⟩ : BufTy).Contents (Elt F) :=
  (fun x i => Host.gather gather_S132651_S4244832x1_S4244832_n_0_n_n_0_1_1 x i) (t_main_v54 (F := F) x0 x1 x2 x3) (t_main_v88 (F := F) x3)
def t_main_v90 (x0 : (⟨S132651x1, .f32⟩ : BufTy).Contents (Elt F)) (x1 : (⟨S1x2, .f32⟩ : BufTy).Contents (Elt F)) (x2 : (⟨S2, .f32⟩ : BufTy).Contents (Elt F)) (x3 : (⟨S2x8489664, .i32⟩ : BufTy).Contents (Elt F)) : (⟨S1x4244832, .f32⟩ : BufTy).Contents (Elt F) :=
  (broadcastInDim S1x4244832 ![1] bcast_S4244832_S1x4244832_1) (t_main_v89 (F := F) x0 x1 x2 x3)

end Cert.KernelIdeal.HostK

end
-- ==== Proof.HostKV.lean ====
/-
  The four row vectors the kernel's region reads, as functions of the argument arrays: the contents the host
  operations before the region leave in the region's input arrays.
-/
import proofs.«148812_j62852551409829_2_alg».proof.Proof.HostK

noncomputable section

namespace Cert.KernelIdeal.HostK

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 4000000 in
/-- The region's input array `main_v66` holds `t_main_v66` of the arguments. -/
theorem V66_eq (c : Dev nD) : Gen.V m c main_v66 = t_main_v66 (F := F) (m ((c.tc : Thread nD τ).loc main_arg0)) (m ((c.tc : Thread nD τ).loc main_arg1)) (m ((c.tc : Thread nD τ).loc main_arg2)) (m ((c.tc : Thread nD τ).loc main_arg3)) := by
  dsimp only [Gen.V, Gen.V0]
  simp only [hostOps0, hostOps0_1, hostOps0_2, hostOps0_3, hostOps0_4, List.flatten_cons, List.flatten_nil, List.append_nil,
    List.cons_append, List.nil_append]
  read_results
  rfl

set_option maxRecDepth 8192 in
set_option maxHeartbeats 4000000 in
/-- The region's input array `main_v74` holds `t_main_v74` of the arguments. -/
theorem V74_eq (c : Dev nD) : Gen.V m c main_v74 = t_main_v74 (F := F) (m ((c.tc : Thread nD τ).loc main_arg0)) (m ((c.tc : Thread nD τ).loc main_arg1)) (m ((c.tc : Thread nD τ).loc main_arg2)) (m ((c.tc : Thread nD τ).loc main_arg3)) := by
  dsimp only [Gen.V, Gen.V0]
  simp only [hostOps0, hostOps0_1, hostOps0_2, hostOps0_3, hostOps0_4, List.flatten_cons, List.flatten_nil, List.append_nil,
    List.cons_append, List.nil_append]
  read_results
  rfl

set_option maxRecDepth 8192 in
set_option maxHeartbeats 4000000 in
/-- The region's input array `main_v82` holds `t_main_v82` of the arguments. -/
theorem V82_eq (c : Dev nD) : Gen.V m c main_v82 = t_main_v82 (F := F) (m ((c.tc : Thread nD τ).loc main_arg0)) (m ((c.tc : Thread nD τ).loc main_arg1)) (m ((c.tc : Thread nD τ).loc main_arg2)) (m ((c.tc : Thread nD τ).loc main_arg3)) := by
  dsimp only [Gen.V, Gen.V0]
  simp only [hostOps0, hostOps0_1, hostOps0_2, hostOps0_3, hostOps0_4, List.flatten_cons, List.flatten_nil, List.append_nil,
    List.cons_append, List.nil_append]
  read_results
  rfl

set_option maxRecDepth 8192 in
set_option maxHeartbeats 4000000 in
/-- The region's input array `main_v90` holds `t_main_v90` of the arguments. -/
theorem V90_eq (c : Dev nD) : Gen.V m c main_v90 = t_main_v90 (F := F) (m ((c.tc : Thread nD τ).loc main_arg0)) (m ((c.tc : Thread nD τ).loc main_arg1)) (m ((c.tc : Thread nD τ).loc main_arg2)) (m ((c.tc : Thread nD τ).loc main_arg3)) := by
  dsimp only [Gen.V, Gen.V0]
  simp only [hostOps0, hostOps0_1, hostOps0_2, hostOps0_3, hostOps0_4, List.flatten_cons, List.flatten_nil, List.append_nil,
    List.cons_append, List.nil_append]
  read_results
  rfl

end Cert.KernelIdeal.HostK

end
-- ==== Proof.LibFiniteEntry.lean ====
/-
  An extended real whose absolute value compares below the word of plus infinity is a real number.
-/
import Idealize.ShloMosaic.PureOps.Ideal

noncomputable section

namespace FiniteEntry

open Idealize.ShloMosaic

/-- |x| < +∞, as the ordered comparison of max x (−x) with the word 0x7F800000 answers it, makes x a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ := by
    by_contra hn
    have : Ideal.cmp .olt (max x (-x)) ⊤ = 0#1 := by
      unfold Ideal.cmp; simp only [decide_eq_false hn]; rfl
    rw [this] at h; exact absurd h (by decide)
  induction x using EReal.rec with
  | bot => exact absurd hlt (by simp)
  | coe r => exact ⟨r, rfl⟩
  | top => exact absurd hlt (by simp)

end FiniteEntry

end
-- ==== Proof.Finite.lean ====
/-
  The precondition read entry by entry: when "every float input is finite" holds of the three float arrays, every
  entry of each is a real number. The predicate is the conjunction of three "all entries have absolute value below +∞";
  a conjunction of one-bit words that is 1 has both words 1, an "all" that is 1 has a 1 at every entry, and an
  extended real with |x| < +∞ is a real.
-/
import proofs.«148812_j62852551409829_2_alg».proof.Pre_finite_inputs
import proofs.«148812_j62852551409829_2_alg».proof.Proof.Gen.Pre_finite_inputs
import proofs.«148812_j62852551409829_2_alg».proof.Proof.LibFiniteEntry
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- One entry: if the comparison of |x i| with +∞ is 1 then x i is a real. -/
theorem entry_real {s : Shape} (x : FVec Ideal s .f32) (y : FVec Ideal s .f32) (hy : ∀ i, y i = Ideal.ofBits .f32 0x7F800000#32) (i : s.Idx)
    (h : cmpf .olt (Host.absf x) y i = 1#1) : ∃ r : ℝ, x i = (r : EReal) := by
  refine FiniteEntry.real_of_abs_lt (x i) ?_
  rw [← hy i]
  exact h

/-- Under the precondition every entry of the three float inputs is a real number. -/
theorem reals_of_pre (x0 : FVec Ideal S132651x1 .f32) (x1 : FVec Ideal S1x2 .f32) (x2 : FVec Ideal S2 .f32) (x3 : IVec S2x8489664 32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  have h1 := IntOp.andi_eq_one.mp h0
  have h2 := IntOp.andi_eq_one.mp h1.1
  refine ⟨fun i => ?_, fun i => ?_, fun i => ?_⟩
  · exact entry_real x0 _ (fun j => rfl) i (Host.reduce_andi_all _ _ _ _ _ h2.1 i)
  · exact entry_real x1 _ (fun j => rfl) i (Host.reduce_andi_all _ _ _ _ _ h2.2 i)
  · exact entry_real x2 _ (fun j => rfl) i (Host.reduce_andi_all _ _ _ _ _ h1.2 i)

end Cert.Finite

end
-- ==== Proof.LibRowGather.lean ====
/-
  A row gather read at an index. What `x[idx]` of a table `x : [N, C]` at an integer vector `idx : [R]` lowers to is a
  gather with offset axis 1, collapsed slice axis 0, start index map [0], slice sizes [1, C] and index vector axis 1
  over the indices as `[R, 1]`: row `r` of the result is the table's row whose number is `idx[r, 0]` read as a signed
  integer and clamped into `[0, N - 1]`; column `c` of the result is column `c` of that row. The extents N, C, R are
  arbitrary (N positive).
-/
import Idealize.ShloMosaic.Lib.ValueIdx

namespace RowGather

open Idealize.ShloMosaic Idealize.ShloMosaic.ValueIdx

variable {α : Type}

/-- The dimension numbers of a row gather for a table `[N, C]`, start indices `[R, 1]` and result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gathered array at (r, c) is the table at (clamp (idx (r, 0)), c). -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N C R wf).start (ix2 r c) idx (0 : Fin 2) + (rowDims N C R wf).batchCoord (ix2 r c) (0 : Fin 2)
        + (rowDims N C R wf).offCoord (ix2 r c) (0 : Fin 2) = min (idx (ix2 r (0 : Fin 1))).toInt.toNat (N - 1)
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have hs : (rowDims N C R wf).start (ix2 r c) idx (1 : Fin 2) = 0 := by
      unfold GatherDims.start
      exact dif_neg (by decide : (1 : Fin 2) ∉ ([0] : List (Fin 2)))
    have ho : (rowDims N C R wf).offCoord (ix2 r c) (1 : Fin 2) = c.val := by
      unfold GatherDims.offCoord
      rw [dif_pos ((GatherDims.mem_sKept _ _).mpr
        ⟨(by decide : (1 : Fin 2) ∉ ([0] : List (Fin 2))), List.not_mem_nil⟩)]
      rfl
    show (rowDims N C R wf).start (ix2 r c) idx (1 : Fin 2) + (rowDims N C R wf).batchCoord (ix2 r c) (1 : Fin 2)
        + (rowDims N C R wf).offCoord (ix2 r c) (1 : Fin 2) = c.val
    rw [GatherDims.batchCoord_eq_zero _ _ _ List.not_mem_nil, hs, ho]
    omega

end RowGather
-- ==== Proof.LibScatterRows.lean ====
/-
  A row scatter that accumulates, read at an index, and the sum it equals when each row goes to the row numbered by
  its own number divided by K.

  What `x.at[idx].add(U)` of an array `x : [N, C]`, an integer vector `idx : [R]` and updates `U : [R, C]` lowers to is a
  scatter with an add body, update window axis 1, inserted window axis 0, scatter-dims-to-operand-dims [0] and index vector
  axis 1 over the indices as `[R, 1]`: row `p` of `U` is added to the row of `x` whose number is `idx[p, 0]` read as a
  signed integer, and a row whose index lies outside `[0, N)` is dropped. On the extended reals:

  (A) the result at (t, c) is `x (t, c)` plus the sum of `U (p, c)` over the rows `p` with `idx[p, 0] = t`
      (`scatterAdd_rows_apply`; `resultIdx?_rows_iff` says which update element lands where, from the general
      `resultIdx?_eq_some_iff`: an update lands on `i` exactly when start plus window coordinate is `i`'s coordinate on
      every axis);
  (B) when `idx[p, 0] = p / K` for every row (K positive, `N * K ≤ R`), the rows landing on row `t` are
      `K * t + k` for `k < K`, so the result at (t, c) is `x (t, c) + ∑ k < K, U (K * t + k, c)` (`scatterAdd_rows_div`);
  (C) the sum over the MIDDLE axis of `U` read row-major as `[N, K, C]` — position (t, k, c) is row `K * t + k`, column
      `c` — from an initial value `init` is at (t, c) `init + ∑ k < K, U (K * t + k, c)` (`reshape_midsum_apply`);
  (D) so with `x` zero everywhere and `init` zero the two arrays are equal (`combine_law`; `combine_law_zero_f32` with
      the zeros written as the f32 constant `0.0`, broadcast on the scatter's side).

  The extents N, K, C, R are arbitrary.
-/
import Idealize.ShloMosaic.Lib.ValueIdx
import Idealize.ShloMosaic.Lib.Pipeline.Value
import Idealize.ShloMosaic.PureOps.Ideal.Laws

namespace ScatterRows

open Idealize.ShloMosaic Idealize.ShloMosaic.ValueIdx

/-- An update lands on operand element `i` exactly when, on every axis, start plus window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · next hc =>
      intro a
      have e := congrFun (Option.some.inj h) a
      have e' : (d.start j idx a + (d.window j a : ℤ)).toNat = (i a).val := congrArg Fin.val e
      have := (hc a).1
      omega
    · exact absurd h (by simp)
  · intro h
    have hc : ∀ a, 0 ≤ d.start j idx a + (d.window j a : ℤ) ∧ d.start j idx a + (d.window j a : ℤ) < s.size a := by
      intro a
      have := h a
      have := (i a).isLt
      omega
    rw [dif_pos hc]
    refine congrArg some (funext fun a => Fin.ext ?_)
    show (d.start j idx a + (d.window j a : ℤ)).toNat = (i a).val
    have := h a
    omega

/-- The dimension numbers of a row scatter into an operand `[N, C]` at scatter indices `[R, 1]` with updates `[R, C]`. -/
abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N C R w : Nat} (wf : ScatterDims.WF ⟨2, ![N, C]⟩ ⟨2, ![R, 1]⟩ ⟨2, ![R, C]⟩ [1] [0] [0] 1)

/-- On the operand's row axis the window of update element (p, c) starts at row p's index, read signed. -/
theorem start_zero (idx : IVec ⟨2, ![R, 1]⟩ w) (p : Fin R) (c : Fin C) :
    (rowDims N C R wf).start (ix2 p c) idx (0 : Fin 2) = (idx (ix2 p (0 : Fin 1))).toInt := by
  unfold ScatterDims.start
  rw [dif_pos (show (0 : Fin 2) ∈ (rowDims N C R wf).scatterDimsToOperandDims from List.mem_singleton.mpr rfl)]
  have hsi : (rowDims N C R wf).siIdx (ix2 p c) ⟨List.idxOf (0 : Fin 2) (rowDims N C R wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- On the operand's column axis every window starts at 0. -/
theorem start_one (idx : IVec ⟨2, ![R, 1]⟩ w) (j : (⟨2, ![R, C]⟩ : Shape).Idx) :
    (rowDims N C R wf).start j idx (1 : Fin 2) = 0 := by
  unfold ScatterDims.start
  exact dif_neg (by decide : (1 : Fin 2) ∉ ([0] : List (Fin 2)))

/-- The window coordinate on the operand's row axis, an inserted axis, is 0. -/
theorem window_zero (j : (⟨2, ![R, C]⟩ : Shape).Idx) : (rowDims N C R wf).window j (0 : Fin 2) = 0 := by
  unfold ScatterDims.window
  exact dif_neg (show (0 : Fin 2) ∉ (List.finRange 2).filter (· ∉ [(0 : Fin 2)]) by decide)

/-- The window coordinate on the operand's column axis is the update element's column. -/
theorem window_one (j : (⟨2, ![R, C]⟩ : Shape).Idx) : (rowDims N C R wf).window j (1 : Fin 2) = (j 1).val := by
  unfold ScatterDims.window
  have h1 : (1 : Fin 2) ∈ (rowDims N C R wf).sKept :=
    show (1 : Fin 2) ∈ (List.finRange 2).filter (· ∉ [(0 : Fin 2)]) by decide
  rw [dif_pos h1]
  rfl

end

section
variable {N C R w : Nat} (wf : ScatterDims.WF ⟨2, ![N, C]⟩ ⟨2, ![R, 1]⟩ ⟨2, ![R, C]⟩ [1] [0] [0] 1)

/-- Update element (p, c') lands on operand element (t, c) exactly when row p's index, read signed, is t and c' = c. -/
theorem resultIdx?_rows_iff (idx : IVec ⟨2, ![R, 1]⟩ w) (p : Fin R) (c' : Fin C) (t : Fin N) (c : Fin C) :
    (rowDims N C R wf).resultIdx? (ix2 p c') idx = some (ix2 t c)
      ↔ (idx (ix2 p (0 : Fin 1))).toInt = (t.val : ℤ) ∧ c' = c := by
  rw [resultIdx?_eq_some_iff, Fin.forall_fin_two, start_zero, start_one, window_zero, window_one]
  show (idx (ix2 p (0 : Fin 1))).toInt + ((0 : ℕ) : ℤ) = (t.val : ℤ) ∧ (0 : ℤ) + (c'.val : ℤ) = (c.val : ℤ) ↔ _
  constructor
  · rintro ⟨h0, h1⟩
    exact ⟨by omega, Fin.ext (by omega)⟩
  · rintro ⟨h0, rfl⟩
    exact ⟨by omega, by omega⟩

/-- The accumulating row scatter at (t, c): the operand there plus the sum of column c of the update rows whose index is t. -/
theorem scatterAdd_rows_apply (x : (⟨2, ![N, C]⟩ : Shape).Idx → EReal) (idx : IVec ⟨2, ![R, 1]⟩ w)
    (upd : (⟨2, ![R, C]⟩ : Shape).Idx → EReal) (t : Fin N) (c : Fin C) :
    Ideal.hostScatterAdd (rowDims N C R wf) x idx upd (ix2 t c)
      = x (ix2 t c) + ∑ p ∈ Finset.univ.filter (fun p : Fin R => (idx (ix2 p (0 : Fin 1))).toInt = (t.val : ℤ)), upd (ix2 p c) := by
  unfold Ideal.hostScatterAdd
  congr 1
  symm
  refine Finset.sum_bij (fun p _ => ix2 p c) ?_ ?_ ?_ ?_
  · intro p hp
    rw [Finset.mem_filter] at hp ⊢
    exact ⟨Finset.mem_univ _, (resultIdx?_rows_iff wf idx p c t c).mpr ⟨hp.2, rfl⟩⟩
  · intro p₁ _ p₂ _ h
    exact congrFun h (0 : Fin 2)
  · intro j hj
    rw [Finset.mem_filter] at hj
    have hj2 := hj.2
    rw [eq_ix2 j] at hj2
    obtain ⟨h0, h1⟩ := (resultIdx?_rows_iff wf idx (j 0) (j 1) t c).mp hj2
    refine ⟨j 0, Finset.mem_filter.mpr ⟨Finset.mem_univ _, h0⟩, ?_⟩
    rw [← h1]
    exact (eq_ix2 j).symm
  · intro p _
    rfl

end

/-- Row `K * t + k` of an array of at least `N * K` rows, for `t < N` and `k < K`. -/
theorem row_lt {N K R : Nat} (hR : N * K ≤ R) (t : Fin N) (k : Fin K) : K * t.val + k.val < R := by
  have h1 : K * t.val + K ≤ K * N := by
    have := Nat.mul_le_mul_left K (Nat.succ_le_of_lt t.isLt)
    rw [Nat.mul_succ] at this
    exact this
  have h2 : K * N = N * K := Nat.mul_comm K N
  have := k.isLt
  omega

section
variable {N C R w : Nat} (wf : ScatterDims.WF ⟨2, ![N, C]⟩ ⟨2, ![R, 1]⟩ ⟨2, ![R, C]⟩ [1] [0] [0] 1)

/-- When row p's index is `p / K`, the rows landing on row t are `K * t + k` for `k < K`. -/
theorem scatterAdd_rows_div {K : Nat} (hK : 0 < K) (hR : N * K ≤ R) (x : (⟨2, ![N, C]⟩ : Shape).Idx → EReal)
    (idx : IVec ⟨2, ![R, 1]⟩ w) (upd : (⟨2, ![R, C]⟩ : Shape).Idx → EReal)
    (hidx : ∀ p : Fin R, (idx (ix2 p (0 : Fin 1))).toInt = ((p.val / K : ℕ) : ℤ)) (t : Fin N) (c : Fin C) :
    Ideal.hostScatterAdd (rowDims N C R wf) x idx upd (ix2 t c)
      = x (ix2 t c) + ∑ k : Fin K, upd (ix2 (⟨K * t.val + k.val, row_lt hR t k⟩ : Fin R) c) := by
  rw [scatterAdd_rows_apply]
  congr 1
  symm
  refine Finset.sum_bij (fun k _ => (⟨K * t.val + k.val, row_lt hR t k⟩ : Fin R)) ?_ ?_ ?_ ?_
  · intro k _
    rw [Finset.mem_filter]
    refine ⟨Finset.mem_univ _, ?_⟩
    rw [hidx]
    show (((K * t.val + k.val) / K : ℕ) : ℤ) = (t.val : ℤ)
    rw [Nat.mul_add_div hK, Nat.div_eq_of_lt k.isLt, Nat.add_zero]
  · intro k₁ _ k₂ _ h
    have := congrArg Fin.val h
    exact Fin.ext (by simp only at this; omega)
  · intro p hp
    rw [Finset.mem_filter, hidx] at hp
    have hp2 : p.val / K = t.val := by exact_mod_cast hp.2
    refine ⟨⟨p.val % K, Nat.mod_lt _ hK⟩, Finset.mem_univ _, Fin.ext ?_⟩
    show K * t.val + p.val % K = p.val
    rw [← hp2]
    exact Nat.div_add_mod p.val K
  · intro k _
    rfl

end

/-- The sum over the middle axis of an array `[R, C]` read row-major as `[N, K, C]`, at (t, c): the initial value plus the
    sum over `k < K` of the array at (K * t + k, c). -/
theorem reshape_midsum_apply {N K C R : Nat} (hR : N * K ≤ R) (U : (⟨2, ![R, C]⟩ : Shape).Idx → EReal)
    (hc : (⟨2, ![R, C]⟩ : Shape).ShapeCasts ⟨3, ![N, K, C]⟩)
    (hr : (⟨3, ![N, K, C]⟩ : Shape).ReducesTo [1] ⟨2, ![N, C]⟩) (init : EReal) (t : Fin N) (c : Fin C) :
    Ideal.hostReduceAdd hr (shapeCast ⟨3, ![N, K, C]⟩ U hc) init (ix2 t c)
      = init + ∑ k : Fin K, U (ix2 (⟨K * t.val + k.val, row_lt hR t k⟩ : Fin R) c) := by
  have h : (⟨3, ![N, K, C]⟩ : Shape).Reduces [1] ⟨2, ![N, C]⟩ := ⟨hr.1, Nat.zero_lt_two, hr.2⟩
  rw [Ideal.hostReduceAdd_single hr h]
  congr 1
  refine Finset.sum_congr rfl fun k _ => ?_
  refine shapeCast_apply U hc _ _ ?_
  rw [Shape.rowMajor_val_two, Shape.rowMajor_val_three]
  show (K * t.val + k.val) * C + c.val = (t.val * K + k.val) * C + c.val
  rw [Nat.mul_comm K]

section
variable {N C R w : Nat} (wf : ScatterDims.WF ⟨2, ![N, C]⟩ ⟨2, ![R, 1]⟩ ⟨2, ![R, C]⟩ [1] [0] [0] 1)

/-- Scattering the rows of `U : [R, C]` into a zero array `[N, C]` at row indices `p / K`, accumulating, is summing the
    middle axis of `U` read row-major as `[N, K, C]` from a zero initial value. -/
theorem combine_law {φ : FTy} {K : Nat} (hK : 0 < K) (hR : N * K ≤ R) {u : Shape} (hu : 0 < u.numel)
    (x : FVec Ideal ⟨2, ![N, C]⟩ φ) (init : u.Idx → Ideal φ) (hx : ∀ i, x i = (0 : EReal)) (hinit : ∀ i, init i = (0 : EReal))
    (idx : IVec ⟨2, ![R, 1]⟩ w) (hidx : ∀ p : Fin R, (idx (ix2 p (0 : Fin 1))).toInt = ((p.val / K : ℕ) : ℤ))
    (U : FVec Ideal ⟨2, ![R, C]⟩ φ)
    (hc : (⟨2, ![R, C]⟩ : Shape).ShapeCasts ⟨3, ![N, K, C]⟩)
    (hr : (⟨3, ![N, K, C]⟩ : Shape).ReducesTo [1] ⟨2, ![N, C]⟩) :
    Host.scatterAdd (F := Ideal) (rowDims N C R wf) x idx U
      = Host.reduceAdd (F := Ideal) (shapeCast ⟨3, ![N, K, C]⟩ U hc) init hr hu := by
  funext j
  obtain ⟨t, c, rfl⟩ : ∃ t c, j = ix2 t c := ⟨j 0, j 1, eq_ix2 j⟩
  show Ideal.hostScatterAdd (rowDims N C R wf) x idx U (ix2 t c)
    = Ideal.hostReduceAdd hr (shapeCast ⟨3, ![N, K, C]⟩ U hc) (init (Shape.Idx.first hu)) (ix2 t c)
  rw [scatterAdd_rows_div wf hK hR x idx U hidx, reshape_midsum_apply hR, hx, hinit]

/-- The same with the two zeros as a program writes them: the f32 constant `0.0` as a scalar, broadcast to `[N, C]` on the
    scatter's side and the initial value on the sum's side. -/
theorem combine_law_zero_f32 {K : Nat} (hK : 0 < K) (hR : N * K ≤ R)
    (hb : (⟨0, ![]⟩ : Shape).BroadcastsInDim ⟨2, ![N, C]⟩ (![] : Fin 0 → Fin 2))
    (hu : 0 < (⟨0, ![]⟩ : Shape).numel)
    (idx : IVec ⟨2, ![R, 1]⟩ w) (hidx : ∀ p : Fin R, (idx (ix2 p (0 : Fin 1))).toInt = ((p.val / K : ℕ) : ℤ))
    (U : FVec Ideal ⟨2, ![R, C]⟩ .f32)
    (hc : (⟨2, ![R, C]⟩ : Shape).ShapeCasts ⟨3, ![N, K, C]⟩)
    (hr : (⟨3, ![N, K, C]⟩ : Shape).ReducesTo [1] ⟨2, ![N, C]⟩) :
    Host.scatterAdd (F := Ideal) (rowDims N C R wf)
        (broadcastInDim ⟨2, ![N, C]⟩ ![] hb (constant (F := Ideal) ⟨0, ![]⟩ .f32 0x00000000#32)) idx U
      = Host.reduceAdd (F := Ideal) (shapeCast ⟨3, ![N, K, C]⟩ U hc) (constant (F := Ideal) ⟨0, ![]⟩ .f32 0x00000000#32) hr hu :=
  combine_law wf hK hR hu _ _ (fun _ => Ideal.ofBits_zero_f32) (fun _ => Ideal.ofBits_zero_f32) idx hidx U hc hr

end

end ScatterRows
-- ==== Proof.LibRowScatter.lean ====
/-
  Indexed reads and accumulating writes of rows, read at an index.

  * A vector gather `x[idx]` of a table `x : [N]` at start indices `[R, 1]` (collapsed axis 0, start index map [0],
    slice sizes [1], index vector axis 1): entry `r` of the result is the table's entry whose number is `idx[r, 0]`
    read as a signed integer and clamped into `[0, N - 1]`.
  * An accumulating scatter of rows: updates `[R, C]` (or `[R]`) added into an operand `[N, C]` (or `[N]`) at the rows
    the scatter indices `[R, 1]` name (inserted window axis 0, scatter-dims-to-operand-dims [0], index vector axis 1;
    update window axis 1 for rows). Update `(e, q)` lands on operand element `(z, q)` where `z = idx[e, 0]` read as a
    signed integer, NOT clamped; an update whose `z` is outside `[0, N)` lands nowhere.
  The extents are arbitrary.
-/
import Idealize.ShloMosaic.Lib.ValueIdx

namespace RowScatter

open Idealize.ShloMosaic Idealize.ShloMosaic.ValueIdx

variable {α : Type}

/-! ## The vector gather -/

/-- The dimension numbers of a vector gather for a table `[N]`, start indices `[R, 1]` and result `[R]`. -/
abbrev vecGather (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gathered vector at `r` is the table at `clamp (idx (r, 0))`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGather N R wf) x idx (ix1 r)
      = x (ix1 ⟨min (idx (ix2 r (0 : Fin 1))).toInt.toNat (N - 1), by omega⟩) := by
  unfold Host.gather
  congr 1
  funext a
  refine Fin.ext ?_
  match a with
  | ⟨0, _⟩ =>
    show (vecGather N R wf).start (ix1 r) idx (0 : Fin 1) + (vecGather N R wf).batchCoord (ix1 r) (0 : Fin 1)
        + (vecGather N R wf).offCoord (ix1 r) (0 : Fin 1) = min (idx (ix2 r (0 : Fin 1))).toInt.toNat (N - 1)
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 1) ∈ (vecGather N R wf).startIndexMap from List.mem_singleton.mpr rfl)]
    have hsi : (vecGather N R wf).siIdx (ix1 r) ⟨List.idxOf (0 : Fin 1) (vecGather N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## The accumulating scatter of rows -/

/-- The dimension numbers of a row scatter: operand `[N, C]`, scatter indices `[R, 1]`, updates `[R, C]`. -/
abbrev rowScatter (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The row an update lands on, before the range check: the scatter index read signed. -/
theorem rowScatter_start_zero {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatter N C R wf).start j idx (0 : Fin 2) = (idx (ix2 (j 0) (0 : Fin 1))).toInt := by
  unfold ScatterDims.start
  rw [dif_pos (show (0 : Fin 2) ∈ (rowScatter N C R wf).scatterDimsToOperandDims from List.mem_singleton.mpr rfl)]
  have hsi : (rowScatter N C R wf).siIdx j ⟨List.idxOf (0 : Fin 2) (rowScatter N C R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_window_zero {N C R : Nat}
    (wf : ScatterDims.WF ⟨2, ![N, C]⟩ ⟨2, ![R, 1]⟩ ⟨2, ![R, C]⟩ [1] [0] [0] 1)
    (j : (⟨2, ![R, C]⟩ : Shape).Idx) : (rowScatter N C R wf).window j (0 : Fin 2) = 0 := by
  unfold ScatterDims.window
  exact dif_neg (by simp [ScatterDims.sKept, Shape.kept, List.mem_filter])

/-- An update that lands on operand element `i` has its scatter index, read signed, equal to `i`'s row. -/
theorem rowScatter_lands {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatter N C R wf).resultIdx? j idx = some i) :
    (idx (ix2 (j 0) (0 : Fin 1))).toInt = ((i 0).val : Int) := by
  unfold ScatterDims.resultIdx? at h
  split at h
  · rename_i hr
    have h0 := hr (0 : Fin 2)
    have hi := congrArg (fun f => (f (0 : Fin 2)).val) (Option.some.inj h)
    simp only at hi
    rw [rowScatter_start_zero, rowScatter_window_zero] at h0 hi
    omega
  · exact absurd h (by simp)

/-! ## The accumulating scatter into a vector -/

/-- The dimension numbers of a vector scatter: operand `[N]`, scatter indices `[R, 1]`, updates `[R]`. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

theorem vecScatter_start_zero {N R w : Nat}
    (wf : ScatterDims.WF ⟨1, ![N]⟩ ⟨2, ![R, 1]⟩ ⟨1, ![R]⟩ [] [0] [0] 1)
    (idx : IVec ⟨2, ![R, 1]⟩ w) (e : (⟨1, ![R]⟩ : Shape).Idx) :
    (vecScatter N R wf).start e idx (0 : Fin 1) = (idx (ix2 (e 0) (0 : Fin 1))).toInt := by
  unfold ScatterDims.start
  rw [dif_pos (show (0 : Fin 1) ∈ (vecScatter N R wf).scatterDimsToOperandDims from List.mem_singleton.mpr rfl)]
  have hsi : (vecScatter N R wf).siIdx e ⟨List.idxOf (0 : Fin 1) (vecScatter N R wf).scatterDimsToOperandDims,
      List.idxOf_lt_length_iff.2 (List.mem_singleton.mpr rfl)⟩ = ix2 (e 0) (0 : Fin 1) := by
    funext b; refine Fin.ext ?_
    match b with
    | ⟨0, _⟩ => rfl
    | ⟨1, _⟩ => rfl
  rw [hsi]
  rfl

theorem vecScatter_window_zero {N R : Nat}
    (wf : ScatterDims.WF ⟨1, ![N]⟩ ⟨2, ![R, 1]⟩ ⟨1, ![R]⟩ [] [0] [0] 1)
    (e : (⟨1, ![R]⟩ : Shape).Idx) : (vecScatter N R wf).window e (0 : Fin 1) = 0 := by
  unfold ScatterDims.window
  exact dif_neg (by simp [ScatterDims.sKept, Shape.kept, List.mem_filter])

/-- An update whose scatter index, read signed, is the number of an operand entry lands on that entry. -/
theorem vecScatter_lands_of {N R w : Nat}
    (wf : ScatterDims.WF ⟨1, ![N]⟩ ⟨2, ![R, 1]⟩ ⟨1, ![R]⟩ [] [0] [0] 1)
    (idx : IVec ⟨2, ![R, 1]⟩ w) (e : (⟨1, ![R]⟩ : Shape).Idx) (n : Fin N)
    (h : (idx (ix2 (e 0) (0 : Fin 1))).toInt = (n.val : Int)) :
    (vecScatter N R wf).resultIdx? e idx = some (ix1 n) := by
  have hr : ∀ a : Fin 1, 0 ≤ (vecScatter N R wf).start e idx a + (vecScatter N R wf).window e a
      ∧ (vecScatter N R wf).start e idx a + (vecScatter N R wf).window e a < ((⟨1, ![N]⟩ : Shape).size a : Int) := by
    intro a
    match a with
    | ⟨0, _⟩ =>
      show 0 ≤ (vecScatter N R wf).start e idx (0 : Fin 1) + (vecScatter N R wf).window e (0 : Fin 1)
        ∧ (vecScatter N R wf).start e idx (0 : Fin 1) + (vecScatter N R wf).window e (0 : Fin 1) < (N : Int)
      rw [vecScatter_start_zero, vecScatter_window_zero, h]
      have := n.isLt
      omega
  unfold ScatterDims.resultIdx?
  rw [dif_pos hr]
  refine congrArg some (funext fun a => Fin.ext ?_)
  match a with
  | ⟨0, _⟩ =>
    show ((vecScatter N R wf).start e idx (0 : Fin 1) + (vecScatter N R wf).window e (0 : Fin 1)).toNat = n.val
    rw [vecScatter_start_zero, vecScatter_window_zero, h]
    omega

end RowScatter
-- ==== Proof.LibHostReads.lean ====
/-
  Host operations read at an index, for any extents.

  * A scalar spread over a shape is that scalar at every index; a vector `[a]` as a column `[a, 1]` reads, at (p, z),
    entry p; a vector `[C]` as a row `[1, C]` reads, at (z, k), entry k.
  * The accumulating vector scatter `x.at[idx].add(u)` of updates `[R]` into an operand `[N]` at indices `[R, 1]`: an
    update lands on entry `n` exactly when its index, read as a signed integer, is `n`, so on the extended reals the
    result at `n` is `x n` plus the sum of the updates whose index is `n`.
  * One plus that scatter of ones into zeros, raised to the power whose word is `0xBF000000` (`-1/2`): at `n`, the
    power of one plus zero plus a sum of ones over the updates whose index is `n` — a degree's inverse square root.
  * Rows `[N, C]` gathered at indices `[R, 1]` (clamped into `[0, N-1]`) and added into zeros at other indices
    `[R, 1]` (not clamped; out of range dropped): at (n, c), the sum over the rows `p` whose scatter index is `n` of
    column `c` of the table's row at the clamped gather index of `p` — a segment sum of gathered rows.
  Stated for arbitrary N, C, R: nothing in such a statement can be evaluated, whatever tactic is used on it; an instance
  at literal extents is then taken by applying the lemma.
-/
import proofs.«148812_j62852551409829_2_alg».proof.Proof.LibRowGather
import proofs.«148812_j62852551409829_2_alg».proof.Proof.LibScatterRows
import proofs.«148812_j62852551409829_2_alg».proof.Proof.LibRowScatter
import Idealize.ShloMosaic.Lib.Pipeline.Value
import Idealize.ShloMosaic.Lib.ValueIdx
import Idealize.ShloMosaic.PureOps.Ideal.Laws

noncomputable section

namespace HostReads

open Idealize.ShloMosaic Idealize.ShloMosaic.ValueIdx
open scoped BigOperators

variable {α : Type}

/-- A scalar spread over a shape is that scalar at every index. -/
theorem scalar_bcast_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply _ h y i ix0 (fun a => a.elim0)

/-- A vector as a column: entry (p, 0) is entry p. -/
theorem col_bcast_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- A vector of length C as a `[1, C]` row: entry (0, k) is entry k. -/
theorem row_cast_apply {C : Nat} (h : (⟨1, ![C]⟩ : Shape).ShapeCasts ⟨2, ![1, C]⟩) (b : (⟨1, ![C]⟩ : Shape).Idx → α)
    (z : Fin 1) (k : Fin C) : shapeCast ⟨2, ![1, C]⟩ b h (ix2 z k) = b (ix1 k) := by
  refine shapeCast_apply b h (ix2 z k) (ix1 k) ?_
  rw [Shape.rowMajor_val_one, Shape.rowMajor_val_two]
  show k.val = z.val * C + k.val
  have hz : z.val = 0 := by have := z.isLt; omega
  rw [hz]; omega

/-- An update of a vector scatter lands on entry `n` exactly when its index, read signed, is `n`. -/
theorem vecScatter_iff {N R w : Nat} (wf : ScatterDims.WF ⟨1, ![N]⟩ ⟨2, ![R, 1]⟩ ⟨1, ![R]⟩ [] [0] [0] 1)
    (idx : IVec ⟨2, ![R, 1]⟩ w) (e : Fin R) (n : Fin N) :
    (RowScatter.vecScatter N R wf).resultIdx? (ix1 e) idx = some (ix1 n) ↔ (idx (ix2 e (0 : Fin 1))).toInt = (n.val : ℤ) := by
  rw [ScatterRows.resultIdx?_eq_some_iff]
  constructor
  · intro h
    have h0 := h (0 : Fin 1)
    rw [RowScatter.vecScatter_start_zero, RowScatter.vecScatter_window_zero] at h0
    have h1 : (idx (ix2 e (0 : Fin 1))).toInt + ((0 : ℕ) : ℤ) = (n.val : ℤ) := h0
    omega
  · intro h a
    match a with
    | ⟨0, _⟩ =>
      show (RowScatter.vecScatter N R wf).start (ix1 e) idx (0 : Fin 1)
        + (((RowScatter.vecScatter N R wf).window (ix1 e) (0 : Fin 1) : ℕ) : ℤ) = (n.val : ℤ)
      rw [RowScatter.vecScatter_start_zero, RowScatter.vecScatter_window_zero]
      show (idx (ix2 e (0 : Fin 1))).toInt + ((0 : ℕ) : ℤ) = (n.val : ℤ)
      omega

/-- The accumulating vector scatter at `n`: the operand there plus the sum of the updates whose index is `n`. -/
theorem vecScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (n : Fin N) :
    Ideal.hostScatterAdd (RowScatter.vecScatter N R wf) x idx upd (ix1 n)
      = x (ix1 n) + ∑ e ∈ Finset.univ.filter (fun e : Fin R => (idx (ix2 e (0 : Fin 1))).toInt = (n.val : ℤ)), upd (ix1 e) := by
  unfold Ideal.hostScatterAdd
  congr 1
  symm
  refine Finset.sum_bij (fun p _ => ix1 p) ?_ ?_ ?_ ?_
  · intro p hp
    rw [Finset.mem_filter] at hp ⊢
    exact ⟨Finset.mem_univ _, (vecScatter_iff wf idx p n).mpr hp.2⟩
  · intro p₁ _ p₂ _ h
    exact congrFun h (0 : Fin 1)
  · intro j hj
    rw [Finset.mem_filter] at hj
    have hj2 := hj.2
    rw [eq_ix1 j] at hj2
    exact ⟨j 0, Finset.mem_filter.mpr ⟨Finset.mem_univ _, (vecScatter_iff wf idx (j 0) n).mp hj2⟩, (eq_ix1 j).symm⟩
  · intro p _
    rfl

/-- One plus the scatter of ones, to a power, at entry `n`: for any extents, the count as a filtered sum. -/
theorem gen_dis {N R : Nat} (wf : ScatterDims.WF ⟨1, ![N]⟩ ⟨2, ![R, 1]⟩ ⟨1, ![R]⟩ [] [0] [0] 1)
    (hN : (⟨0, ![]⟩ : Shape).BroadcastsInDim ⟨1, ![N]⟩ (![] : Fin 0 → Fin 1))
    (hE : (⟨0, ![]⟩ : Shape).BroadcastsInDim ⟨1, ![R]⟩ (![] : Fin 0 → Fin 1))
    (idx : IVec ⟨2, ![R, 1]⟩ 32) (n : Fin N) :
    Host.powf (F := Ideal) (φ := .f32)
        (addf (broadcastInDim ⟨1, ![N]⟩ ![] hN (constant (F := Ideal) ⟨0, ![]⟩ .f32 0x3F800000#32))
          (Host.scatterAdd (RowScatter.vecScatter N R wf)
            (broadcastInDim ⟨1, ![N]⟩ ![] hN (constant (F := Ideal) ⟨0, ![]⟩ .f32 0x00000000#32)) idx
            (broadcastInDim ⟨1, ![R]⟩ ![] hE (constant (F := Ideal) ⟨0, ![]⟩ .f32 0x3F800000#32))))
        (broadcastInDim ⟨1, ![N]⟩ ![] hN (constant (F := Ideal) ⟨0, ![]⟩ .f32 0xBF000000#32)) (ix1 n)
      = Ideal.pow (Ideal.ofBits .f32 0x3F800000#32 + (Ideal.ofBits .f32 0x00000000#32
          + ∑ _e ∈ Finset.univ.filter (fun e : Fin R => (idx (ix2 e (0 : Fin 1))).toInt = (n.val : ℤ)), Ideal.ofBits .f32 0x3F800000#32))
          (Ideal.ofBits .f32 0xBF000000#32) := by
  simp only [Host.powf, Host.scatterAdd, Ideal.hostPowf_def, Ideal.hostScatterAdd_def, addf_apply, vecScatterAdd_apply]
  rw [scalar_bcast_apply hN (constant (F := Ideal) ⟨0, ![]⟩ .f32 0x3F800000#32),
    scalar_bcast_apply hN (constant (F := Ideal) ⟨0, ![]⟩ .f32 0x00000000#32),
    scalar_bcast_apply hN (constant (F := Ideal) ⟨0, ![]⟩ .f32 0xBF000000#32)]
  exact congrArg (fun s : EReal => Ideal.pow (Ideal.ofBits .f32 0x3F800000#32 + (Ideal.ofBits .f32 0x00000000#32 + s)) (Ideal.ofBits .f32 0xBF000000#32))
    (Finset.sum_congr rfl fun e _ => scalar_bcast_apply hE _ (ix1 e))

/-- Rows gathered at clamped indices and added into zeros at the scatter indices, at (n, c), for any extents. -/
theorem gen_agg {N C R : Nat} (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (hZ : (⟨0, ![]⟩ : Shape).BroadcastsInDim ⟨2, ![N, C]⟩ (![] : Fin 0 → Fin 2))
    (sidx didx : IVec ⟨2, ![R, 1]⟩ 32) (HS : (⟨2, ![N, C]⟩ : Shape).Idx → EReal) (n : Fin N) (c : Fin C) :
    Host.scatterAdd (F := Ideal) (φ := .f32) (ScatterRows.rowDims N C R wfs)
        (broadcastInDim ⟨2, ![N, C]⟩ ![] hZ (constant (F := Ideal) ⟨0, ![]⟩ .f32 0x00000000#32)) didx
        (Host.gather (RowGather.rowDims N C R wfg) HS sidx) (ix2 n c)
      = ∑ p ∈ Finset.univ.filter (fun p : Fin R => (didx (ix2 p (0 : Fin 1))).toInt = (n.val : ℤ)),
          HS (ix2 ⟨min (sidx (ix2 p (0 : Fin 1))).toInt.toNat (N - 1), by omega⟩ c) := by
  refine (ScatterRows.scatterAdd_rows_apply wfs _ didx _ n c).trans ?_
  rw [scalar_bcast_apply, constant_apply, Ideal.ofBits_zero_f32, zero_add]
  exact Finset.sum_congr rfl fun p _ => RowGather.gather_row_apply hN wfg HS sidx p c

end HostReads

end
-- ==== Proof.LibGcnLayout.lean ====
/-
  Layout operations of ranks one and two read at an index, for any extents: a column [a, 1] read as a vector [a] and a
  row [1, b] as a vector [b]; a vector [b] made a row [1, b]; a column [a, 1] and a row [1, b] spread over [a, b]; a
  contiguous piece of a vector. Each result element is one operand element, named by its coordinates.
-/
import Idealize.ShloMosaic.Lib.Pipeline.Value
import Idealize.ShloMosaic.Lib.ValueIdx

noncomputable section

namespace GcnLayout

open Idealize.ShloMosaic Idealize.ShloMosaic.ValueIdx

variable {α : Type}

/-- A column [a, 1] read as a vector: entry p is entry (p, 0). -/
theorem col_cast_apply {a : Nat} (h : (⟨2, ![a, 1]⟩ : Shape).ShapeCasts ⟨1, ![a]⟩)
    (v : (⟨2, ![a, 1]⟩ : Shape).Idx → α) (p : Fin a) :
    shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A row [1, b] read as a vector: entry q is entry (0, q). -/
theorem row_uncast_apply {b : Nat} (h : (⟨2, ![1, b]⟩ : Shape).ShapeCasts ⟨1, ![b]⟩)
    (v : (⟨2, ![1, b]⟩ : Shape).Idx → α) (q : Fin b) :
    shapeCast ⟨1, ![b]⟩ v h (ix1 q) = v (ix2 (0 : Fin 1) q) := by
  refine shapeCast_apply v h (ix1 q) (ix2 (0 : Fin 1) q) ?_
  rw [Shape.rowMajor_val_one, Shape.rowMajor_val_two]
  show 0 * b + q.val = q.val
  omega

/-- A vector [b] made a row [1, b]: entry (0, q) is entry q. -/
theorem row_bcast_apply {b : Nat} (h : (⟨1, ![b]⟩ : Shape).BroadcastsInDim ⟨2, ![1, b]⟩ (![1] : Fin 1 → Fin 2))
    (v : (⟨1, ![b]⟩ : Shape).Idx → α) (z : Fin 1) (q : Fin b) :
    broadcastInDim ⟨2, ![1, b]⟩ ![1] h v (ix2 z q) = v (ix1 q) :=
  broadcastInDim_apply _ h v (ix2 z q) (ix1 q) (fun ax => match ax with
    | ⟨0, _⟩ => by
      show q.val = if b = 1 then 0 else q.val
      split
      · have := q.isLt; omega
      · rfl)

/-- A column [a, 1] spread over [a, b]: entry (p, q) is entry (p, 0). -/
theorem col_spread_apply {a b : Nat}
    (h : (⟨2, ![a, 1]⟩ : Shape).BroadcastsInDim ⟨2, ![a, b]⟩ (![0, 1] : Fin 2 → Fin 2))
    (v : (⟨2, ![a, 1]⟩ : Shape).Idx → α) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else q.val
      rfl)

/-- A row [1, b] spread over [a, b]: entry (p, q) is entry (0, q). -/
theorem row_spread_apply {a b : Nat}
    (h : (⟨2, ![1, b]⟩ : Shape).BroadcastsInDim ⟨2, ![a, b]⟩ (![0, 1] : Fin 2 → Fin 2))
    (v : (⟨2, ![1, b]⟩ : Shape).Idx → α) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun ax => match ax with
    | ⟨0, _⟩ => by
      show (0 : Nat) = if (1 : Nat) = 1 then 0 else p.val
      rfl
    | ⟨1, _⟩ => by
      show q.val = if b = 1 then 0 else q.val
      split
      · have := q.isLt; omega
      · rfl)

/-- A contiguous piece of a vector: entry q of the piece starting at `off` is entry `off + q`. -/
theorem piece_apply {n m off : Nat} (h : (⟨1, ![n]⟩ : Shape).Slices ![off] ⟨1, ![m]⟩)
    (v : (⟨1, ![n]⟩ : Shape).Idx → α) (q : Fin m) (hq : off + q.val < n) :
    extractStridedSlice ⟨1, ![m]⟩ ![off] v h (ix1 q) = v (ix1 ⟨off + q.val, hq⟩) :=
  extractStridedSlice_apply ![off] v h (ix1 q) (ix1 ⟨off + q.val, hq⟩) (fun a => match a with
    | ⟨0, _⟩ => rfl)

end GcnLayout

end
-- ==== Proof.Nzw.lean ====
/-
  An index word made non-negative: a negative index counts back from the end of the N = 132651 nodes.
-/
import Idealize.ShloMosaic.Lib.ValueIdx

namespace Cert.KernelIdeal.HostK

open Idealize.ShloMosaic

/-- w if w is non-negative as a signed word, else w + N. -/
def nzw (w : BitVec 32) : BitVec 32 := Scalar.select (IntOp.cmpi .slt w 0#32) (IntOp.addi w 132651#32) w

end Cert.KernelIdeal.HostK
-- ==== Proof.LibHostEq.lean ====
/-
  On the extended reals the host's accumulating scatter is the exact one: each operand element plus the sum of the
  updates that land on it. Stated over variables, for any shapes and dimension numbers.
-/
import Idealize.ShloMosaic.PureOps.Ideal.Laws

noncomputable section

namespace HostEq

open Idealize.ShloMosaic

/-- The host's scatter-add at the exact instance. -/
theorem scatterAdd_eq {s si u : Shape} {w : Nat} {φ : FTy} (d : ScatterDims s si u) (x : FVec Ideal s φ) (idx : IVec si w)
    (upd : FVec Ideal u φ) : Host.scatterAdd d x idx upd = Ideal.hostScatterAdd d x idx upd := rfl

end HostEq

end
-- ==== Proof.HostKRead.lean ====
/-
  The kernel's host operations before its region, read at an index. With N nodes, R edge slots (the edges and one self
  loop per node) and the index vectors made non-negative and clamped where they are gathered with:
  a(n) is the sum, over the edge slots whose target is n, of the slot's normaliser times the source node's feature;
  h(n, c) = max (a(n) · W(c) + b(c), 0);  g(n) = h(n, 0) + h(n, 1);
  and the four vectors the region reads are g gathered at the sources and targets of the two halves of the edge list.
-/
import proofs.«148812_j62852551409829_2_alg».proof.Proof.HostK
import proofs.«148812_j62852551409829_2_alg».proof.Proof.LibHostReads
import proofs.«148812_j62852551409829_2_alg».proof.Proof.LibGcnLayout
import proofs.«148812_j62852551409829_2_alg».proof.Proof.Nzw
import proofs.«148812_j62852551409829_2_alg».proof.Proof.LibHostEq

noncomputable section

namespace Cert.KernelIdeal.HostK

open Cert.KernelIdeal Cert.KernelIdeal.Gen Idealize.ShloMosaic Idealize.ShloMosaic.TcCoe Idealize.SL.Sem Idealize.ShloMosaic.StableHlo
open Idealize.ShloMosaic.ValueIdx
open scoped BigOperators

/-- The aggregation step for any index columns and any normaliser: the scatter-add into zeros, at the target column
    `colS`, of normaliser × the feature gathered at the source column `rowG`, read at node n. -/
theorem a_gen (x0 : (⟨S132651x1, .f32⟩ : BufTy).Contents (Elt Ideal))
    (colS : IVec S8622315x1 32) (nrm : FVec Ideal S8622315 .f32) (rowG : IVec S8622315x1 32) (n : Fin 132651) :
    Host.scatterAdd (F := Ideal) (φ := .f32) scatter_S132651_S8622315x1_S8622315_n_0_0_1 (t_main_v41 (F := Ideal)) colS
        (mulf nrm (Host.gather gather_S132651_S8622315x1_S8622315_n_0_n_n_0_1_1 (t_main_v32 (F := Ideal) x0) rowG)) (ix1 n)
      = Ideal.ofBits .f32 0x00000000#32
        + ∑ e ∈ Finset.univ.filter (fun e : Fin 8622315 => (colS (ix2 e (0 : Fin 1))).toInt = (n.val : ℤ)),
            nrm (ix1 e) * x0 (ix2 ⟨min (rowG (ix2 e (0 : Fin 1))).toInt.toNat (132651 - 1), by omega⟩ (0 : Fin 1)) := by
  refine (congrFun (HostEq.scatterAdd_eq scatter_S132651_S8622315x1_S8622315_n_0_0_1 (t_main_v41 (F := Ideal)) colS
    (mulf nrm (Host.gather gather_S132651_S8622315x1_S8622315_n_0_n_n_0_1_1 (t_main_v32 (F := Ideal) x0) rowG))) (ix1 n)).trans ?_
  refine (HostReads.vecScatterAdd_apply (N := 132651) (R := 8622315) _ (t_main_v41 (F := Ideal)) colS
    (mulf nrm (Host.gather gather_S132651_S8622315x1_S8622315_n_0_n_n_0_1_1 (t_main_v32 (F := Ideal) x0) rowG)) n).trans ?_
  refine congrArg₂ (· + ·) ?_ (Finset.sum_congr rfl fun e _ => ?_)
  · unfold t_main_v41
    exact HostReads.scalar_bcast_apply _ _ _
  · refine (mulf_apply nrm (Host.gather gather_S132651_S8622315x1_S8622315_n_0_n_n_0_1_1 (t_main_v32 (F := Ideal) x0) rowG) (ix1 e)).trans ?_
    refine congrArg (nrm (ix1 e) * ·) ?_
    refine (RowScatter.gather_vec_apply (N := 132651) (R := 8622315) (by decide) _ (t_main_v32 (F := Ideal) x0) rowG e).trans ?_
    unfold t_main_v32
    exact GcnLayout.col_cast_apply _ x0 _

/-- The kernel's aggregated feature is that step at its own index columns and normaliser. -/
theorem a_unfold (x0 : (⟨S132651x1, .f32⟩ : BufTy).Contents (Elt Ideal)) (x3 : (⟨S2x8489664, .i32⟩ : BufTy).Contents (Elt Ideal)) :
    t_main_v43 (F := Ideal) x0 x3
      = Host.scatterAdd (F := Ideal) (φ := .f32) scatter_S132651_S8622315x1_S8622315_n_0_0_1 (t_main_v41 (F := Ideal)) (t_main_v42 (F := Ideal) x3)
          (mulf (F := Ideal) (t_main_v31 (F := Ideal) x3) (Host.gather gather_S132651_S8622315x1_S8622315_n_0_n_n_0_1_1 (t_main_v32 (F := Ideal) x0) (t_main_v38 (F := Ideal) x3))) := by
  unfold t_main_v43 t_main_v40 t_main_v39
  rfl

/-- The hidden feature of node n in channel c. -/
theorem h_apply (x0 : (⟨S132651x1, .f32⟩ : BufTy).Contents (Elt Ideal)) (x1 : (⟨S1x2, .f32⟩ : BufTy).Contents (Elt Ideal)) (x2 : (⟨S2, .f32⟩ : BufTy).Contents (Elt Ideal)) (x3 : (⟨S2x8489664, .i32⟩ : BufTy).Contents (Elt Ideal)) (n : Fin 132651) (c : Fin 2) :
    t_main_v53 (F := Ideal) x0 x1 x2 x3 (ix2 n c)
      = max (t_main_v43 (F := Ideal) x0 x3 (ix1 n) * x1 (ix2 (0 : Fin 1) c) + x2 (ix1 c)) (Ideal.ofBits .f32 0x00000000#32) := by
  unfold t_main_v53
  refine (maximumf_apply (t_main_v52 (F := Ideal) x0 x1 x2 x3) (t_main_call1_v0 (F := Ideal)) (ix2 n c)).trans ?_
  refine congrArg₂ max ?_ ?_
  · unfold t_main_v52
    refine (addf_apply (t_main_v49 (F := Ideal) x0 x1 x3) (t_main_v51 (F := Ideal) x2) (ix2 n c)).trans ?_
    refine congrArg₂ (· + ·) ?_ ?_
    · unfold t_main_v49
      refine (mulf_apply (t_main_v47 (F := Ideal) x0 x3) (t_main_v48 (F := Ideal) x1) (ix2 n c)).trans ?_
      refine congrArg₂ (· * ·) ?_ ?_
      · unfold t_main_v47
        refine (GcnLayout.col_spread_apply _ (t_main_v44 (F := Ideal) x0 x3) n c).trans ?_
        unfold t_main_v44
        exact HostReads.col_bcast_apply _ (t_main_v43 (F := Ideal) x0 x3) n (0 : Fin 1)
      · unfold t_main_v48
        refine (GcnLayout.row_spread_apply _ (t_main_v46 (F := Ideal) x1) n c).trans ?_
        unfold t_main_v46
        refine (GcnLayout.row_bcast_apply _ (t_main_v45 (F := Ideal) x1) (0 : Fin 1) c).trans ?_
        unfold t_main_v45
        exact GcnLayout.row_uncast_apply _ x1 c
    · unfold t_main_v51
      refine (GcnLayout.row_spread_apply _ (t_main_v50 (F := Ideal) x2) n c).trans ?_
      unfold t_main_v50
      exact GcnLayout.row_bcast_apply _ x2 (0 : Fin 1) c
  · unfold t_main_call1_v0
    exact HostReads.scalar_bcast_apply _ _ _

/-- The per-node total over the two channels. -/
theorem g_apply (x0 : (⟨S132651x1, .f32⟩ : BufTy).Contents (Elt Ideal)) (x1 : (⟨S1x2, .f32⟩ : BufTy).Contents (Elt Ideal)) (x2 : (⟨S2, .f32⟩ : BufTy).Contents (Elt Ideal)) (x3 : (⟨S2x8489664, .i32⟩ : BufTy).Contents (Elt Ideal)) (n : Fin 132651) :
    t_main_v54 (F := Ideal) x0 x1 x2 x3 (ix1 n)
      = Ideal.ofBits .f32 0x00000000#32 + ∑ c : Fin 2, t_main_v53 (F := Ideal) x0 x1 x2 x3 (ix2 n c) := by
  unfold t_main_v54
  generalize t_main_v53 (F := Ideal) x0 x1 x2 x3 = y0
  simp only [Host.reduceAdd, Ideal.hostReduceAdd_def]
  rw [Ideal.hostReduceAdd_single reducesTo_S132651x2_S132651_d1 (by decide)]
  refine congrArg₂ (· + ·) rfl (Finset.sum_congr rfl fun k _ => ?_)
  exact congrArg y0 (funext fun a => Fin.ext (by match a with | ⟨0, _⟩ => rfl | ⟨1, _⟩ => rfl))

/-- Entry q of the region's input `main_v66`: the per-node total at the clamped index. -/
theorem out66_apply (x0 : (⟨S132651x1, .f32⟩ : BufTy).Contents (Elt Ideal)) (x1 : (⟨S1x2, .f32⟩ : BufTy).Contents (Elt Ideal)) (x2 : (⟨S2, .f32⟩ : BufTy).Contents (Elt Ideal)) (x3 : (⟨S2x8489664, .i32⟩ : BufTy).Contents (Elt Ideal)) (q : Fin 4244832) :
    t_main_v66 (F := Ideal) x0 x1 x2 x3 (ix2 (0 : Fin 1) q)
      = t_main_v54 (F := Ideal) x0 x1 x2 x3 (ix1 ⟨min (t_main_v64 (F := Ideal) x3 (ix2 q (0 : Fin 1))).toInt.toNat (132651 - 1), by omega⟩) := by
  unfold t_main_v66
  refine (GcnLayout.row_bcast_apply _ _ (0 : Fin 1) q).trans ?_
  unfold t_main_v65
  exact RowScatter.gather_vec_apply (N := 132651) (R := 4244832) (by decide) _ (t_main_v54 (F := Ideal) x0 x1 x2 x3) (t_main_v64 (F := Ideal) x3) q

/-- Entry q of the region's input `main_v74`: the per-node total at the clamped index. -/
theorem out74_apply (x0 : (⟨S132651x1, .f32⟩ : BufTy).Contents (Elt Ideal)) (x1 : (⟨S1x2, .f32⟩ : BufTy).Contents (Elt Ideal)) (x2 : (⟨S2, .f32⟩ : BufTy).Contents (Elt Ideal)) (x3 : (⟨S2x8489664, .i32⟩ : BufTy).Contents (Elt Ideal)) (q : Fin 4244832) :
    t_main_v74 (F := Ideal) x0 x1 x2 x3 (ix2 (0 : Fin 1) q)
      = t_main_v54 (F := Ideal) x0 x1 x2 x3 (ix1 ⟨min (t_main_v72 (F := Ideal) x3 (ix2 q (0 : Fin 1))).toInt.toNat (132651 - 1), by omega⟩) := by
  unfold t_main_v74
  refine (GcnLayout.row_bcast_apply _ _ (0 : Fin 1) q).trans ?_
  unfold t_main_v73
  exact RowScatter.gather_vec_apply (N := 132651) (R := 4244832) (by decide) _ (t_main_v54 (F := Ideal) x0 x1 x2 x3) (t_main_v72 (F := Ideal) x3) q

/-- Entry q of the region's input `main_v82`: the per-node total at the clamped index. -/
theorem out82_apply (x0 : (⟨S132651x1, .f32⟩ : BufTy).Contents (Elt Ideal)) (x1 : (⟨S1x2, .f32⟩ : BufTy).Contents (Elt Ideal)) (x2 : (⟨S2, .f32⟩ : BufTy).Contents (Elt Ideal)) (x3 : (⟨S2x8489664, .i32⟩ : BufTy).Contents (Elt Ideal)) (q : Fin 4244832) :
    t_main_v82 (F := Ideal) x0 x1 x2 x3 (ix2 (0 : Fin 1) q)
      = t_main_v54 (F := Ideal) x0 x1 x2 x3 (ix1 ⟨min (t_main_v80 (F := Ideal) x3 (ix2 q (0 : Fin 1))).toInt.toNat (132651 - 1), by omega⟩) := by
  unfold t_main_v82
  refine (GcnLayout.row_bcast_apply _ _ (0 : Fin 1) q).trans ?_
  unfold t_main_v81
  exact RowScatter.gather_vec_apply (N := 132651) (R := 4244832) (by decide) _ (t_main_v54 (F := Ideal) x0 x1 x2 x3) (t_main_v80 (F := Ideal) x3) q

/-- Entry q of the region's input `main_v90`: the per-node total at the clamped index. -/
theorem out90_apply (x0 : (⟨S132651x1, .f32⟩ : BufTy).Contents (Elt Ideal)) (x1 : (⟨S1x2, .f32⟩ : BufTy).Contents (Elt Ideal)) (x2 : (⟨S2, .f32⟩ : BufTy).Contents (Elt Ideal)) (x3 : (⟨S2x8489664, .i32⟩ : BufTy).Contents (Elt Ideal)) (q : Fin 4244832) :
    t_main_v90 (F := Ideal) x0 x1 x2 x3 (ix2 (0 : Fin 1) q)
      = t_main_v54 (F := Ideal) x0 x1 x2 x3 (ix1 ⟨min (t_main_v88 (F := Ideal) x3 (ix2 q (0 : Fin 1))).toInt.toNat (132651 - 1), by omega⟩) := by
  unfold t_main_v90
  refine (GcnLayout.row_bcast_apply _ _ (0 : Fin 1) q).trans ?_
  unfold t_main_v89
  exact RowScatter.gather_vec_apply (N := 132651) (R := 4244832) (by decide) _ (t_main_v54 (F := Ideal) x0 x1 x2 x3) (t_main_v88 (F := Ideal) x3) q

/-- Entry (q, 0) of the index column `main_v64`: the first half's index made non-negative. -/
theorem idx64_apply (x3 : (⟨S2x8489664, .i32⟩ : BufTy).Contents (Elt Ideal)) (q : Fin 4244832) :
    t_main_v64 (F := Ideal) x3 (ix2 q (0 : Fin 1)) = nzw (t_main_v1 (F := Ideal) x3 (ix1 ⟨0 + q.val, by have := q.isLt; omega⟩)) := by
  unfold t_main_v64
  refine (HostReads.col_bcast_apply _ _ q (0 : Fin 1)).trans ?_
  unfold t_main_v63
  show Scalar.select (t_main_v60 (F := Ideal) x3 (ix1 q)) (t_main_v62 (F := Ideal) x3 (ix1 q)) (t_main_v55 (F := Ideal) x3 (ix1 q)) = _
  have hs : t_main_v55 (F := Ideal) x3 (ix1 q) = t_main_v1 (F := Ideal) x3 (ix1 ⟨0 + q.val, by have := q.isLt; omega⟩) := by
    unfold t_main_v55
    exact GcnLayout.piece_apply _ _ q _
  have hc : t_main_v60 (F := Ideal) x3 (ix1 q) = IntOp.cmpi .slt (t_main_v55 (F := Ideal) x3 (ix1 q)) 0#32 := by
    unfold t_main_v60
    show IntOp.cmpi .slt (t_main_v55 (F := Ideal) x3 (ix1 q)) (t_main_v59 (F := Ideal) (ix1 q)) = _
    congr 1
  have ha : t_main_v62 (F := Ideal) x3 (ix1 q) = IntOp.addi (t_main_v55 (F := Ideal) x3 (ix1 q)) 132651#32 := by
    unfold t_main_v62
    show IntOp.addi (t_main_v55 (F := Ideal) x3 (ix1 q)) (t_main_v61 (F := Ideal) (ix1 q)) = _
    congr 1
  rw [hc, ha, hs]
  rfl

/-- Entry (q, 0) of the index column `main_v72`: the first half's index made non-negative. -/
theorem idx72_apply (x3 : (⟨S2x8489664, .i32⟩ : BufTy).Contents (Elt Ideal)) (q : Fin 4244832) :
    t_main_v72 (F := Ideal) x3 (ix2 q (0 : Fin 1)) = nzw (t_main_v3 (F := Ideal) x3 (ix1 ⟨0 + q.val, by have := q.isLt; omega⟩)) := by
  unfold t_main_v72
  refine (HostReads.col_bcast_apply _ _ q (0 : Fin 1)).trans ?_
  unfold t_main_v71
  show Scalar.select (t_main_v68 (F := Ideal) x3 (ix1 q)) (t_main_v70 (F := Ideal) x3 (ix1 q)) (t_main_v57 (F := Ideal) x3 (ix1 q)) = _
  have hs : t_main_v57 (F := Ideal) x3 (ix1 q) = t_main_v3 (F := Ideal) x3 (ix1 ⟨0 + q.val, by have := q.isLt; omega⟩) := by
    unfold t_main_v57
    exact GcnLayout.piece_apply _ _ q _
  have hc : t_main_v68 (F := Ideal) x3 (ix1 q) = IntOp.cmpi .slt (t_main_v57 (F := Ideal) x3 (ix1 q)) 0#32 := by
    unfold t_main_v68
    show IntOp.cmpi .slt (t_main_v57 (F := Ideal) x3 (ix1 q)) (t_main_v67 (F := Ideal) (ix1 q)) = _
    congr 1
  have ha : t_main_v70 (F := Ideal) x3 (ix1 q) = IntOp.addi (t_main_v57 (F := Ideal) x3 (ix1 q)) 132651#32 := by
    unfold t_main_v70
    show IntOp.addi (t_main_v57 (F := Ideal) x3 (ix1 q)) (t_main_v69 (F := Ideal) (ix1 q)) = _
    congr 1
  rw [hc, ha, hs]
  rfl

/-- Entry (q, 0) of the index column `main_v80`: the second half's index made non-negative. -/
theorem idx80_apply (x3 : (⟨S2x8489664, .i32⟩ : BufTy).Contents (Elt Ideal)) (q : Fin 4244832) :
    t_main_v80 (F := Ideal) x3 (ix2 q (0 : Fin 1)) = nzw (t_main_v1 (F := Ideal) x3 (ix1 ⟨4244832 + q.val, by have := q.isLt; omega⟩)) := by
  unfold t_main_v80
  refine (HostReads.col_bcast_apply _ _ q (0 : Fin 1)).trans ?_
  unfold t_main_v79
  show Scalar.select (t_main_v76 (F := Ideal) x3 (ix1 q)) (t_main_v78 (F := Ideal) x3 (ix1 q)) (t_main_v56 (F := Ideal) x3 (ix1 q)) = _
  have hs : t_main_v56 (F := Ideal) x3 (ix1 q) = t_main_v1 (F := Ideal) x3 (ix1 ⟨4244832 + q.val, by have := q.isLt; omega⟩) := by
    unfold t_main_v56
    exact GcnLayout.piece_apply _ _ q _
  have hc : t_main_v76 (F := Ideal) x3 (ix1 q) = IntOp.cmpi .slt (t_main_v56 (F := Ideal) x3 (ix1 q)) 0#32 := by
    unfold t_main_v76
    show IntOp.cmpi .slt (t_main_v56 (F := Ideal) x3 (ix1 q)) (t_main_v75 (F := Ideal) (ix1 q)) = _
    congr 1
  have ha : t_main_v78 (F := Ideal) x3 (ix1 q) = IntOp.addi (t_main_v56 (F := Ideal) x3 (ix1 q)) 132651#32 := by
    unfold t_main_v78
    show IntOp.addi (t_main_v56 (F := Ideal) x3 (ix1 q)) (t_main_v77 (F := Ideal) (ix1 q)) = _
    congr 1
  rw [hc, ha, hs]
  rfl

/-- Entry (q, 0) of the index column `main_v88`: the second half's index made non-negative. -/
theorem idx88_apply (x3 : (⟨S2x8489664, .i32⟩ : BufTy).Contents (Elt Ideal)) (q : Fin 4244832) :
    t_main_v88 (F := Ideal) x3 (ix2 q (0 : Fin 1)) = nzw (t_main_v3 (F := Ideal) x3 (ix1 ⟨4244832 + q.val, by have := q.isLt; omega⟩)) := by
  unfold t_main_v88
  refine (HostReads.col_bcast_apply _ _ q (0 : Fin 1)).trans ?_
  unfold t_main_v87
  show Scalar.select (t_main_v84 (F := Ideal) x3 (ix1 q)) (t_main_v86 (F := Ideal) x3 (ix1 q)) (t_main_v58 (F := Ideal) x3 (ix1 q)) = _
  have hs : t_main_v58 (F := Ideal) x3 (ix1 q) = t_main_v3 (F := Ideal) x3 (ix1 ⟨4244832 + q.val, by have := q.isLt; omega⟩) := by
    unfold t_main_v58
    exact GcnLayout.piece_apply _ _ q _
  have hc : t_main_v84 (F := Ideal) x3 (ix1 q) = IntOp.cmpi .slt (t_main_v58 (F := Ideal) x3 (ix1 q)) 0#32 := by
    unfold t_main_v84
    show IntOp.cmpi .slt (t_main_v58 (F := Ideal) x3 (ix1 q)) (t_main_v83 (F := Ideal) (ix1 q)) = _
    congr 1
  have ha : t_main_v86 (F := Ideal) x3 (ix1 q) = IntOp.addi (t_main_v58 (F := Ideal) x3 (ix1 q)) 132651#32 := by
    unfold t_main_v86
    show IntOp.addi (t_main_v58 (F := Ideal) x3 (ix1 q)) (t_main_v85 (F := Ideal) (ix1 q)) = _
    congr 1
  rw [hc, ha, hs]
  rfl

end Cert.KernelIdeal.HostK

end
-- ==== Proof.Bridge1.lean ====
/-
  The two programs' shared prefix: the kernel's host operations and the reference compute the same edge lists, the same
  index columns and the same normaliser from the edge array, as the same terms; and the reference's index columns for
  its per-edge gathers, read at an entry, are the edge's endpoint made non-negative.
-/
import proofs.«148812_j62852551409829_2_alg».proof.Proof.HostK
import proofs.«148812_j62852551409829_2_alg».proof.Proof.Nzw
import proofs.«148812_j62852551409829_2_alg».proof.Proof.RefStages

noncomputable section

namespace Cert.Bridge

open Idealize.ShloMosaic Idealize.ShloMosaic.ValueIdx
open Cert.KernelIdeal.HostK Cert.ReferenceIdeal.Stages

/-- The edge array's type. -/
abbrev X3 : Type := (⟨Cert.KernelIdeal.S2x8489664, .i32⟩ : BufTy).Contents (Elt Ideal)

/-- The source list of the edges: one term in both programs. -/
theorem v1_eq (x3 : X3) : t_main_v1 (F := Ideal) x3 = val_main_v1 (F := Ideal) x3 := rfl
/-- The target list of the edges. -/
theorem v3_eq (x3 : X3) : t_main_v3 (F := Ideal) x3 = val_main_v3 (F := Ideal) x3 := rfl
/-- The sources of the edge slots, made non-negative, as a column. -/
theorem v38_eq (x3 : X3) : t_main_v38 (F := Ideal) x3 = val_main_v39 (F := Ideal) x3 := rfl
/-- The targets of the edge slots as a column. -/
theorem v42_eq (x3 : X3) : t_main_v42 (F := Ideal) x3 = val_main_v44 (F := Ideal) x3 := rfl
/-- The degree vector. -/
theorem v10_eq (x3 : X3) : t_main_v10 (F := Ideal) x3 = val_main_v10 (F := Ideal) x3 := rfl
/-- The inverse square roots of the degrees. -/
theorem v16_eq (x3 : X3) : t_main_v16 (F := Ideal) x3 = val_main_v16 (F := Ideal) x3 := by
  unfold t_main_v16 val_main_v16 t_main_v12 val_main_v12 t_main_v15 val_main_v15 t_main_v14 val_main_v14
  rw [v10_eq]
  rfl
/-- The normaliser of every edge slot. -/
theorem v31_eq (x3 : X3) : t_main_v31 (F := Ideal) x3 = val_main_v31 (F := Ideal) x3 := by
  unfold t_main_v31 val_main_v31 t_main_v23 val_main_v23 t_main_v30 val_main_v30
  rw [v16_eq]
  rfl

/-- The reference's source column for its per-edge gather, at edge e: the source made non-negative. -/
theorem ridx55_apply (x3 : X3) (e : Fin 8489664) :
    val_main_v55 (F := Ideal) x3 (ix2 e (0 : Fin 1)) = nzw (val_main_v1 (F := Ideal) x3 (ix1 e)) := by
  rw [val_main_v55_apply, val_main_v54_apply, val_main_v51_apply, val_main_v53_apply, val_main_v50_apply, val_main_v52_apply]
  have hi : idx_main_v55 (ix2 e (0 : Fin 1)) = ix1 e := funext fun a => Fin.ext (by match a with | ⟨0, _⟩ => rfl)
  rw [hi]
  rfl

/-- The reference's target column likewise. -/
theorem ridx62_apply (x3 : X3) (e : Fin 8489664) :
    val_main_v62 (F := Ideal) x3 (ix2 e (0 : Fin 1)) = nzw (val_main_v3 (F := Ideal) x3 (ix1 e)) := by
  rw [val_main_v62_apply, val_main_v61_apply, val_main_v58_apply, val_main_v60_apply, val_main_v57_apply, val_main_v59_apply]
  have hi : idx_main_v62 (ix2 e (0 : Fin 1)) = ix1 e := funext fun a => Fin.ext (by match a with | ⟨0, _⟩ => rfl)
  rw [hi]
  rfl

end Cert.Bridge

end
-- ==== Proof.RefValueH.lean ====
/-
  The reference's hidden layer read at an index. With N = 132651 nodes and R = 8622315 edge slots (the edges and one
  self loop per node): the feature of node n in channel c is
    h(n, c) = max (0 + (sum over the slots e whose target index is n of norm(e) * (x W)(src(e), c)) + b(c), 0),
  where src(e) is the slot's source index made non-negative and clamped into [0, N - 1], the target index is read as
  it is (a slot whose target lies outside [0, N) contributes to no node), and (x W)(m, c) is the one-term sum over the
  contracted axis of x(m, k) * W(k, c).
-/
import proofs.«148812_j62852551409829_2_alg».proof.Proof.RefStages
import proofs.«148812_j62852551409829_2_alg».proof.Proof.LibHostReads
import proofs.«148812_j62852551409829_2_alg».proof.Proof.LibGcnLayout
import proofs.«148812_j62852551409829_2_alg».proof.Proof.LibHostEq

noncomputable section

namespace Cert.ReferenceIdeal.RefValue

open Cert.ReferenceIdeal Cert.ReferenceIdeal.Gen Cert.ReferenceIdeal.Stages Idealize.ShloMosaic Idealize.ShloMosaic.TcCoe Idealize.SL.Sem Idealize.ShloMosaic.StableHlo
open Idealize.ShloMosaic.ValueIdx
open scoped BigOperators

variable (x0 : (⟨S132651x1, .f32⟩ : BufTy).Contents (Elt Ideal)) (x1 : (⟨S1x2, .f32⟩ : BufTy).Contents (Elt Ideal))
  (x2 : (⟨S2, .f32⟩ : BufTy).Contents (Elt Ideal)) (x3 : (⟨S2x8489664, .i32⟩ : BufTy).Contents (Elt Ideal))

/-- A row of the projected features gathered at a slot's source: the one-term product sum at the clamped source index. -/
theorem xw_gather_apply (e : Fin 8622315) (c : Fin 2) :
    val_main_v40 (F := Ideal) x0 x1 x3 (ix2 e c)
      = ∑ k : Fin 1, x0 (ix2 (⟨min (val_main_v39 (F := Ideal) x3 (ix2 e (0 : Fin 1))).toInt.toNat (132651 - 1), by omega⟩ : Fin 132651) k) * x1 (ix2 k c) := by
  unfold val_main_v40
  refine (RowGather.gather_row_apply (N := 132651) (C := 2) (R := 8622315) (by decide) _ (val_main_v32 (F := Ideal) x0 x1) (val_main_v39 (F := Ideal) x3) e c).trans ?_
  refine (val_main_v32_apply x0 x1 _).trans ?_
  refine Finset.sum_congr rfl fun k _ => ?_
  refine congrArg₂ (· * ·) (congrArg x0 ?_) (congrArg x1 ?_)
  · funext a; refine Fin.ext ?_
    match a with
    | ⟨0, _⟩ => rfl
    | ⟨1, _⟩ => rfl
  · funext a; refine Fin.ext ?_
    match a with
    | ⟨0, _⟩ => rfl
    | ⟨1, _⟩ => rfl

/-- The normaliser spread over the two channels: at (e, c) it is the normaliser of slot e. -/
theorem norm_spread_apply (e : Fin 8622315) (c : Fin 2) :
    val_main_v41 (F := Ideal) x3 (ix2 e c) = val_main_v31 (F := Ideal) x3 (ix1 e) := by
  unfold val_main_v41
  refine (GcnLayout.col_spread_apply _ _ e c).trans ?_
  unfold val_main_v33
  exact HostReads.col_bcast_apply _ _ e (0 : Fin 1)

/-- The message of slot e in channel c: normaliser times the gathered row. -/
theorem msg_apply (e : Fin 8622315) (c : Fin 2) :
    val_main_v42 (F := Ideal) x0 x1 x3 (ix2 e c)
      = val_main_v31 (F := Ideal) x3 (ix1 e)
          * (∑ k : Fin 1, x0 (ix2 (⟨min (val_main_v39 (F := Ideal) x3 (ix2 e (0 : Fin 1))).toInt.toNat (132651 - 1), by omega⟩ : Fin 132651) k) * x1 (ix2 k c)) := by
  unfold val_main_v42
  refine (mulf_apply (val_main_v41 (F := Ideal) x3) (val_main_v40 (F := Ideal) x0 x1 x3) (ix2 e c)).trans ?_
  exact congrArg₂ (· * ·) (norm_spread_apply x3 e c) (xw_gather_apply x0 x1 x3 e c)

/-- The array the messages are added into is zero everywhere. -/
theorem zeros_apply (n : Fin 132651) (c : Fin 2) :
    val_main_v43 (F := Ideal) (ix2 n c) = Ideal.ofBits .f32 0x00000000#32 := by
  unfold val_main_v43
  exact HostReads.scalar_bcast_apply _ _ _

/-- The dimension numbers of the message scatter are those of a row scatter. -/
theorem scatter_dims_eq : scatter_S132651x2_S8622315x1_S8622315x2_1_0_0_1
    = ScatterRows.rowDims 132651 2 8622315 scatter_S132651x2_S8622315x1_S8622315x2_1_0_0_1_wf := rfl

/-- The message scatter as the exact accumulating row scatter. -/
theorem scatter_bridge (n : Fin 132651) (c : Fin 2) :
    val_main_v45 (F := Ideal) x0 x1 x3 (ix2 n c)
      = Ideal.hostScatterAdd (ScatterRows.rowDims 132651 2 8622315 scatter_S132651x2_S8622315x1_S8622315x2_1_0_0_1_wf)
          (val_main_v43 (F := Ideal)) (val_main_v44 (F := Ideal) x3) (val_main_v42 (F := Ideal) x0 x1 x3) (ix2 n c) := by
  unfold val_main_v45
  refine (congrFun (HostEq.scatterAdd_eq scatter_S132651x2_S8622315x1_S8622315x2_1_0_0_1 (val_main_v43 (F := Ideal)) (val_main_v44 (F := Ideal) x3) (val_main_v42 (F := Ideal) x0 x1 x3)) (ix2 n c)).trans ?_
  exact congrArg (fun d => Ideal.hostScatterAdd d (val_main_v43 (F := Ideal)) (val_main_v44 (F := Ideal) x3) (val_main_v42 (F := Ideal) x0 x1 x3) (ix2 n c)) scatter_dims_eq

/-- The accumulating scatter at (n, c): the zero there plus the sum of the messages of the slots whose target is n. -/
theorem scatter_apply (n : Fin 132651) (c : Fin 2) :
    val_main_v45 (F := Ideal) x0 x1 x3 (ix2 n c)
      = val_main_v43 (F := Ideal) (ix2 n c)
        + ∑ e ∈ Finset.univ.filter (fun e : Fin 8622315 => (val_main_v44 (F := Ideal) x3 (ix2 e (0 : Fin 1))).toInt = (n.val : ℤ)),
            val_main_v42 (F := Ideal) x0 x1 x3 (ix2 e c) :=
  (scatter_bridge x0 x1 x3 n c).trans
    (ScatterRows.scatterAdd_rows_apply (N := 132651) (C := 2) (R := 8622315) scatter_S132651x2_S8622315x1_S8622315x2_1_0_0_1_wf (val_main_v43 (F := Ideal)) (val_main_v44 (F := Ideal) x3) (val_main_v42 (F := Ideal) x0 x1 x3) n c)

/-- The aggregate before the bias: zero plus the sum over the slots landing on node n of normaliser times gathered row. -/
theorem agg_apply (n : Fin 132651) (c : Fin 2) :
    val_main_v45 (F := Ideal) x0 x1 x3 (ix2 n c)
      = Ideal.ofBits .f32 0x00000000#32
        + ∑ e ∈ Finset.univ.filter (fun e : Fin 8622315 => (val_main_v44 (F := Ideal) x3 (ix2 e (0 : Fin 1))).toInt = (n.val : ℤ)),
            val_main_v31 (F := Ideal) x3 (ix1 e)
              * (∑ k : Fin 1, x0 (ix2 (⟨min (val_main_v39 (F := Ideal) x3 (ix2 e (0 : Fin 1))).toInt.toNat (132651 - 1), by omega⟩ : Fin 132651) k) * x1 (ix2 k c)) := by
  refine (scatter_apply x0 x1 x3 n c).trans ?_
  exact congrArg₂ (· + ·) (zeros_apply n c) (Finset.sum_congr rfl fun e _ => msg_apply x0 x1 x3 e c)

/-- The bias spread over the nodes: at (n, c) it is entry c of the bias. -/
theorem bias_apply (n : Fin 132651) (c : Fin 2) : val_main_v47 (F := Ideal) x2 (ix2 n c) = x2 (ix1 c) := by
  unfold val_main_v47
  refine (GcnLayout.row_spread_apply _ _ n c).trans ?_
  unfold val_main_v46
  exact GcnLayout.row_bcast_apply _ x2 (0 : Fin 1) c

/-- The threshold of the rectifier is zero everywhere. -/
theorem relu_zero_apply (n : Fin 132651) (c : Fin 2) :
    val_main_call1_v0 (F := Ideal) (ix2 n c) = Ideal.ofBits .f32 0x00000000#32 := by
  unfold val_main_call1_v0
  exact HostReads.scalar_bcast_apply _ _ _

/-- The hidden feature of node n in channel c, as a function of the four arguments. -/
def Hr (n : Fin 132651) (c : Fin 2) : EReal :=
  max ((Ideal.ofBits .f32 0x00000000#32
      + ∑ e ∈ Finset.univ.filter (fun e : Fin 8622315 => (val_main_v44 (F := Ideal) x3 (ix2 e (0 : Fin 1))).toInt = (n.val : ℤ)),
          val_main_v31 (F := Ideal) x3 (ix1 e)
            * (∑ k : Fin 1, x0 (ix2 (⟨min (val_main_v39 (F := Ideal) x3 (ix2 e (0 : Fin 1))).toInt.toNat (132651 - 1), by omega⟩ : Fin 132651) k) * x1 (ix2 k c)))
    + x2 (ix1 c)) (Ideal.ofBits .f32 0x00000000#32)

/-- The reference's hidden layer at (n, c). -/
theorem h_apply (n : Fin 132651) (c : Fin 2) :
    val_main_v49 (F := Ideal) x0 x1 x2 x3 (ix2 n c) = Hr x0 x1 x2 x3 n c := by
  unfold Hr val_main_v49
  refine (maximumf_apply (val_main_v48 (F := Ideal) x0 x1 x2 x3) (val_main_call1_v0 (F := Ideal)) (ix2 n c)).trans ?_
  refine congrArg₂ max ?_ (relu_zero_apply n c)
  unfold val_main_v48
  refine (addf_apply (val_main_v45 (F := Ideal) x0 x1 x3) (val_main_v47 (F := Ideal) x2) (ix2 n c)).trans ?_
  exact congrArg₂ (· + ·) (agg_apply x0 x1 x3 n c) (bias_apply x2 n c)

end Cert.ReferenceIdeal.RefValue

end
-- ==== Proof.RefValueY.lean ====
/-
  The reference's per-edge total read at an index: for edge e of the E = 8489664 edges,
    y(e) = 0 + sum over the two channels c of (h(row(e), c) + h(col(e), c)),
  where row(e) and col(e) are the edge's two endpoint indices made non-negative and clamped into [0, N - 1], and h is
  the hidden layer.
-/
import proofs.«148812_j62852551409829_2_alg».proof.Proof.RefValueH

noncomputable section

namespace Cert.ReferenceIdeal.RefValue

open Cert.ReferenceIdeal Cert.ReferenceIdeal.Gen Cert.ReferenceIdeal.Stages Idealize.ShloMosaic Idealize.ShloMosaic.TcCoe Idealize.SL.Sem Idealize.ShloMosaic.StableHlo
open Idealize.ShloMosaic.ValueIdx
open scoped BigOperators

variable (x0 : (⟨S132651x1, .f32⟩ : BufTy).Contents (Elt Ideal)) (x1 : (⟨S1x2, .f32⟩ : BufTy).Contents (Elt Ideal))
  (x2 : (⟨S2, .f32⟩ : BufTy).Contents (Elt Ideal)) (x3 : (⟨S2x8489664, .i32⟩ : BufTy).Contents (Elt Ideal))

/-- The per-edge total, as a function of the four arguments. -/
def Yr (e : Fin 8489664) : EReal :=
  Ideal.ofBits .f32 0x00000000#32
    + ∑ c : Fin 2,
        (Hr x0 x1 x2 x3 (⟨min (val_main_v55 (F := Ideal) x3 (ix2 e (0 : Fin 1))).toInt.toNat (132651 - 1), by omega⟩ : Fin 132651) c
          + Hr x0 x1 x2 x3 (⟨min (val_main_v62 (F := Ideal) x3 (ix2 e (0 : Fin 1))).toInt.toNat (132651 - 1), by omega⟩ : Fin 132651) c)

/-- A row of the hidden layer gathered at an edge's first endpoint. -/
theorem hrow_apply (e : Fin 8489664) (c : Fin 2) :
    val_main_v56 (F := Ideal) x0 x1 x2 x3 (ix2 e c)
      = Hr x0 x1 x2 x3 (⟨min (val_main_v55 (F := Ideal) x3 (ix2 e (0 : Fin 1))).toInt.toNat (132651 - 1), by omega⟩ : Fin 132651) c := by
  unfold val_main_v56
  refine (RowGather.gather_row_apply (N := 132651) (C := 2) (R := 8489664) (by decide) gather_S132651x2_S8489664x1_S8489664x2_1_0_n_n_0_1_12_wf (val_main_v49 (F := Ideal) x0 x1 x2 x3) (val_main_v55 (F := Ideal) x3) e c).trans ?_
  exact h_apply x0 x1 x2 x3 _ c

/-- A row of the hidden layer gathered at an edge's second endpoint. -/
theorem hcol_apply (e : Fin 8489664) (c : Fin 2) :
    val_main_v63 (F := Ideal) x0 x1 x2 x3 (ix2 e c)
      = Hr x0 x1 x2 x3 (⟨min (val_main_v62 (F := Ideal) x3 (ix2 e (0 : Fin 1))).toInt.toNat (132651 - 1), by omega⟩ : Fin 132651) c := by
  unfold val_main_v63
  refine (RowGather.gather_row_apply (N := 132651) (C := 2) (R := 8489664) (by decide) gather_S132651x2_S8489664x1_S8489664x2_1_0_n_n_0_1_12_wf (val_main_v49 (F := Ideal) x0 x1 x2 x3) (val_main_v62 (F := Ideal) x3) e c).trans ?_
  exact h_apply x0 x1 x2 x3 _ c

/-- The reference's per-edge total at e. -/
theorem y_apply (e : Fin 8489664) :
    val_main_v65 (F := Ideal) x0 x1 x2 x3 (ix1 e) = Yr x0 x1 x2 x3 e := by
  unfold Yr
  refine (val_main_v65_apply x0 x1 x2 x3 (ix1 e)).trans ?_
  refine congrArg₂ (· + ·) (val_main_cst_14_apply _) (Finset.sum_congr rfl fun c _ => ?_)
  have hi : idx_main_v65 (ix1 e) c = ix2 e c := funext fun a => Fin.ext (by
    match a with
    | ⟨0, _⟩ => rfl
    | ⟨1, _⟩ => rfl)
  refine (congrArg (val_main_v64 (F := Ideal) x0 x1 x2 x3) hi).trans ?_
  unfold val_main_v64
  refine (addf_apply (val_main_v56 (F := Ideal) x0 x1 x2 x3) (val_main_v63 (F := Ideal) x0 x1 x2 x3) (ix2 e c)).trans ?_
  exact congrArg₂ (· + ·) (hrow_apply x0 x1 x2 x3 e c) (hcol_apply x0 x1 x2 x3 e c)

end Cert.ReferenceIdeal.RefValue

end
-- ==== Proof.RefValue.lean ====
/-
  The reference's result read at an index: entry q of the H = 4244832 results is
    1 / (1 + exp (-((0 + y(q) + y(H + q)) / 2))),
  the two halves of the per-edge totals folded onto each other, halved, and passed through the logistic function written
  with a division, a negation and an exponential.
-/
import proofs.«148812_j62852551409829_2_alg».proof.Proof.RefValueY

noncomputable section

namespace Cert.ReferenceIdeal.RefValue

open Cert.ReferenceIdeal Cert.ReferenceIdeal.Gen Cert.ReferenceIdeal.Stages Idealize.ShloMosaic Idealize.ShloMosaic.TcCoe Idealize.SL.Sem Idealize.ShloMosaic.StableHlo
open Idealize.ShloMosaic.ValueIdx
open scoped BigOperators

variable (x0 : (⟨S132651x1, .f32⟩ : BufTy).Contents (Elt Ideal)) (x1 : (⟨S1x2, .f32⟩ : BufTy).Contents (Elt Ideal))
  (x2 : (⟨S2, .f32⟩ : BufTy).Contents (Elt Ideal)) (x3 : (⟨S2x8489664, .i32⟩ : BufTy).Contents (Elt Ideal))

/-- The numerator of the last division is one everywhere. -/
theorem one75_apply (q : Fin 4244832) :
    val_main_v75 (F := Ideal) (ix2 q (0 : Fin 1)) = Ideal.ofBits .f32 0x3F800000#32 := by
  unfold val_main_v75
  exact HostReads.scalar_bcast_apply _ _ _

/-- The constant added to the exponential is one everywhere. -/
theorem one73_apply (q : Fin 4244832) :
    val_main_v73 (F := Ideal) (ix2 q (0 : Fin 1)) = Ideal.ofBits .f32 0x3F800000#32 := by
  unfold val_main_v73
  exact HostReads.scalar_bcast_apply _ _ _

/-- The divisor of the mean is two everywhere. -/
theorem two68_apply (q : Fin 4244832) :
    val_main_v68 (F := Ideal) (ix1 q) = Ideal.ofBits .f32 0x40000000#32 := by
  unfold val_main_v68
  exact HostReads.scalar_bcast_apply _ _ _

/-- The fold of the two halves at q: zero plus the per-edge totals of edges q and H + q. -/
theorem fold_apply (q : Fin 4244832) :
    val_main_v67 (F := Ideal) x0 x1 x2 x3 (ix1 q)
      = Ideal.ofBits .f32 0x00000000#32
        + ∑ j : Fin 2, Yr x0 x1 x2 x3 ⟨j.val * 4244832 + q.val, by have := j.isLt; have := q.isLt; omega⟩ := by
  refine (val_main_v67_apply x0 x1 x2 x3 (ix1 q)).trans ?_
  refine congrArg₂ (· + ·) (val_main_cst_15_apply _) (Finset.sum_congr rfl fun j _ => ?_)
  refine (val_main_v66_apply x0 x1 x2 x3 _).trans ?_
  refine (congrArg (val_main_v65 (F := Ideal) x0 x1 x2 x3) ?_).trans (y_apply x0 x1 x2 x3 _)
  funext a
  refine Fin.ext ?_
  match a with
  | ⟨0, _⟩ => rfl

/-- The mean of the two halves at (q, 0), as a column. -/
theorem mean_apply (q : Fin 4244832) :
    val_main_v70 (F := Ideal) x0 x1 x2 x3 (ix2 q (0 : Fin 1))
      = Ideal.div
          (Ideal.ofBits .f32 0x00000000#32
            + ∑ j : Fin 2, Yr x0 x1 x2 x3 ⟨j.val * 4244832 + q.val, by have := j.isLt; have := q.isLt; omega⟩)
          (Ideal.ofBits .f32 0x40000000#32) := by
  unfold val_main_v70
  refine (HostReads.col_bcast_apply _ _ q (0 : Fin 1)).trans ?_
  refine (val_main_v69_apply x0 x1 x2 x3 (ix1 q)).trans ?_
  refine (Ideal.hostDivf_def _ _).trans ?_
  exact congrArg₂ Ideal.div (fold_apply x0 x1 x2 x3 q) (two68_apply q)

/-- The reference's result at (q, 0). -/
theorem out_apply (q : Fin 4244832) :
    val_main_v76 (F := Ideal) x0 x1 x2 x3 (ix2 q (0 : Fin 1))
      = Ideal.div (Ideal.ofBits .f32 0x3F800000#32)
          (Ideal.ofBits .f32 0x3F800000#32
            + Ideal.exp (-(Ideal.div
                (Ideal.ofBits .f32 0x00000000#32
                  + ∑ j : Fin 2, Yr x0 x1 x2 x3 ⟨j.val * 4244832 + q.val, by have := j.isLt; have := q.isLt; omega⟩)
                (Ideal.ofBits .f32 0x40000000#32)))) := by
  refine (val_main_v76_apply x0 x1 x2 x3 (ix2 q (0 : Fin 1))).trans ?_
  refine (Ideal.hostDivf_def _ _).trans ?_
  refine congrArg₂ Ideal.div (one75_apply q) ?_
  refine (val_main_v74_apply x0 x1 x2 x3 (ix2 q (0 : Fin 1))).trans ?_
  refine (Ideal.addf_def _ _).trans ?_
  refine congrArg₂ (· + ·) (one73_apply q) ?_
  refine (val_main_v72_apply x0 x1 x2 x3 (ix2 q (0 : Fin 1))).trans ?_
  refine (Ideal.hostUnary_exp_def _).trans ?_
  refine congrArg Ideal.exp ?_
  refine (val_main_v71_apply x0 x1 x2 x3 (ix2 q (0 : Fin 1))).trans ?_
  refine (Ideal.hostNegf_def _).trans ?_
  refine (Ideal.negf_def _).trans ?_
  exact congrArg Neg.neg (mean_apply x0 x1 x2 x3 q)

end Cert.ReferenceIdeal.RefValue

end
-- ==== Proof.LibRealEntries2.lean ====
/-
  Entries that are real numbers, through the host operations that keep them so, for any shapes and dimension numbers.

  An extended real is "real" when it is the image of a real number. Sums, products and maxima of reals are real; a
  finite sum of reals is real. A gather reads, at every result index, SOME entry of its operand, so when every entry of
  the operand is real so is every entry of the result, whatever the dimension numbers and the indices. An accumulating
  scatter yields, at every index, the operand's entry plus a finite sum of update entries, so reals in, reals out. The
  reciprocal square root of a positive real is the real 1 / sqrt r. A selection between two reals is real.
-/
import Idealize.ShloMosaic.Lib.ValueIdx
import Idealize.ShloMosaic.Lib.Pipeline.Value
import Idealize.ShloMosaic.PureOps.Ideal.Laws

noncomputable section

namespace RealEntries2

open Idealize.ShloMosaic
open scoped BigOperators

/-- The extended real is (the image of) a real number. -/
def IsReal (x : EReal) : Prop := ∃ r : ℝ, x = (r : EReal)

/-- The extended real is a positive real number. -/
def IsPosReal (x : EReal) : Prop := ∃ r : ℝ, 0 < r ∧ x = (r : EReal)

theorem IsPosReal.isReal {x : EReal} (h : IsPosReal x) : IsReal x := by
  obtain ⟨r, _, hr⟩ := h
  exact ⟨r, hr⟩

/-- Realness passes along an equality. -/
theorem isReal_of_eq {x y : EReal} (h : x = y) (hy : IsReal y) : IsReal x := by
  obtain ⟨r, hr⟩ := hy
  exact ⟨r, h.trans hr⟩

theorem isPosReal_of_eq {x y : EReal} (h : x = y) (hy : IsPosReal y) : IsPosReal x := by
  obtain ⟨r, h0, hr⟩ := hy
  exact ⟨r, h0, h.trans hr⟩

theorem isReal_coe (r : ℝ) : IsReal (r : EReal) := ⟨r, rfl⟩

theorem isReal_zero : IsReal (0 : EReal) := ⟨0, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact isReal_add (h a (Finset.mem_insert_self a s)) (ih fun i hi => h i (Finset.mem_insert_of_mem hi))

/-- The larger of a real and a positive real is a positive real. -/
theorem isPosReal_max {x y : EReal} (hx : IsReal x) (hy : IsPosReal y) : IsPosReal (max x y) := by
  obtain ⟨a, rfl⟩ := hx
  obtain ⟨b, hb, rfl⟩ := hy
  rcases le_total (a : EReal) (b : EReal) with h | h
  · rw [max_eq_right h]
    exact ⟨b, hb, rfl⟩
  · rw [max_eq_left h]
    exact ⟨a, lt_of_lt_of_le hb (EReal.coe_le_coe_iff.mp h), rfl⟩

/-- The reciprocal square root of a positive real is a real. -/
theorem isReal_rsqrt {x : EReal} (hx : IsPosReal x) : IsReal (Ideal.rsqrt x) := by
  obtain ⟨r, hr, rfl⟩ := hx
  rw [Ideal.rsqrt_coe, if_neg (not_lt.mpr hr.le), if_neg (ne_of_gt hr)]
  exact ⟨_, rfl⟩

/-- A selection between two reals is real. -/
theorem isReal_select (c : BitVec 1) {a b : EReal} (ha : IsReal a) (hb : IsReal b) : IsReal (Scalar.select c a b) := by
  unfold Scalar.select
  split
  · exact ha
  · exact hb

/-- A gather of an array of reals is an array of reals: every result entry is some operand entry. -/
theorem gather_real {s si t : Shape} {w : Nat} (d : GatherDims s si t) (x : s.Idx → EReal) (idx : IVec si w)
    (hx : ∀ i, IsReal (x i)) (j : t.Idx) : IsReal (Host.gather d x idx j) :=
  hx (d.operandIdx j idx)

/-- An accumulating scatter of real updates into an array of reals is an array of reals. -/
theorem scatterAdd_real {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact isReal_add (hx i) (isReal_sum _ _ fun j _ => hu j)

/-- The same for the host's accumulating scatter read on the extended reals. -/
theorem hostScatterAdd_real {s si su : Shape} {w : Nat} {φ : FTy} (d : ScatterDims s si su) (x : FVec Ideal s φ) (idx : IVec si w)
    (upd : FVec Ideal su φ) (hx : ∀ i, IsReal (x i)) (hu : ∀ j, IsReal (upd j)) (i : s.Idx) :
    IsReal (Host.scatterAdd d x idx upd i) :=
  scatterAdd_real d x idx upd hx hu i

end RealEntries2

end
-- ==== Proof.RefValueNorm.lean ====
/-
  The normaliser of every edge slot is a real number.

  The degree of a node is zero plus a finite sum of ones, a real; its maximum with the positive constant 1e-12 is a
  positive real, whose reciprocal square root is the real 1 / sqrt; the selection between that and zero is real. The
  normaliser of a slot is the product of two entries of that vector, read through gathers, hence real.
-/
import proofs.«148812_j62852551409829_2_alg».proof.Proof.RefStages
import proofs.«148812_j62852551409829_2_alg».proof.Proof.LibRealEntries2

noncomputable section

namespace Cert.ReferenceIdeal.RefValue

open Cert.ReferenceIdeal Cert.ReferenceIdeal.Gen Cert.ReferenceIdeal.Stages Idealize.ShloMosaic Idealize.ShloMosaic.TcCoe Idealize.SL.Sem Idealize.ShloMosaic.StableHlo
open Idealize.ShloMosaic.ValueIdx
open scoped BigOperators

open RealEntries2

variable (x0 : (⟨S132651x1, .f32⟩ : BufTy).Contents (Elt Ideal)) (x1 : (⟨S1x2, .f32⟩ : BufTy).Contents (Elt Ideal))
  (x2 : (⟨S2, .f32⟩ : BufTy).Contents (Elt Ideal)) (x3 : (⟨S2x8489664, .i32⟩ : BufTy).Contents (Elt Ideal))

/-- The word of 1.0 denotes a real. -/
theorem one_isReal : IsReal (Ideal.ofBits .f32 0x3F800000#32) := by
  refine ⟨8388608 * (2 ^ 23)⁻¹, ?_⟩
  simp [Ideal.ofBits, Ideal.ieee]

/-- The word of 0.0 denotes a real. -/
theorem zero_isReal : IsReal (Ideal.ofBits .f32 0x00000000#32) := by
  rw [Ideal.ofBits_zero_f32]
  exact isReal_zero

/-- The word of the lower bound 1e-12 (rounded to the format) denotes a positive real. -/
theorem eps_isPosReal : IsPosReal (Ideal.ofBits .f32 0x2B8CBCCC#32) := by
  refine ⟨9223372 * (2 ^ 63)⁻¹, by positivity, ?_⟩
  simp [Ideal.ofBits, Ideal.ieee]

/-- Every update of the degree count is one. -/
theorem ones_real (j : S8622315.Idx) : IsReal (val_main_v7 (F := Ideal) j) := by
  have h : val_main_v7 (F := Ideal) j = Ideal.ofBits .f32 0x3F800000#32 :=
    (val_main_v7_apply j).trans (val_main_cst_apply _)
  exact isReal_of_eq h one_isReal

/-- The degree count starts from zero. -/
theorem zeros_real (i : S132651.Idx) : IsReal (val_main_v8 (F := Ideal) i) := by
  have h : val_main_v8 (F := Ideal) i = Ideal.ofBits .f32 0x00000000#32 :=
    (val_main_v8_apply i).trans (val_main_cst_0_apply _)
  exact isReal_of_eq h zero_isReal

/-- The degree of every node is a real. -/
theorem deg_real (i : S132651.Idx) : IsReal (val_main_v10 (F := Ideal) x3 i) := by
  unfold val_main_v10
  exact hostScatterAdd_real scatter_S132651_S8622315x1_S8622315_n_0_0_1 (val_main_v8 (F := Ideal)) (val_main_v9 (F := Ideal) x3) (val_main_v7 (F := Ideal)) zeros_real ones_real i

/-- The lower bound is the same positive constant at every node. -/
theorem eps_apply (i : S132651.Idx) : val_main_v13 (F := Ideal) i = Ideal.ofBits .f32 0x2B8CBCCC#32 :=
  (val_main_v13_apply i).trans (val_main_cst_2_apply _)

/-- The degree bounded below by the constant is a positive real. -/
theorem degmax_pos (i : S132651.Idx) : IsPosReal (val_main_v14 (F := Ideal) x3 i) := by
  have h : val_main_v14 (F := Ideal) x3 i = max (val_main_v10 (F := Ideal) x3 i) (Ideal.ofBits .f32 0x2B8CBCCC#32) :=
    ((val_main_v14_apply x3 i).trans (Ideal.maximumf_def _ _)).trans (congrArg (max (val_main_v10 (F := Ideal) x3 i)) (eps_apply i))
  exact isPosReal_of_eq h (isPosReal_max (deg_real x3 i) eps_isPosReal)

/-- The inverse square root of the degree, or zero where the degree is not positive, is a real. -/
theorem dinv_real (i : S132651.Idx) : IsReal (val_main_v16 (F := Ideal) x3 i) := by
  refine isReal_of_eq (val_main_v16_apply x3 i) (isReal_select _ ?_ ?_)
  · refine isReal_of_eq ((val_main_v15_apply x3 i).trans (Ideal.hostUnary_rsqrt_def _)) ?_
    exact isReal_rsqrt (degmax_pos x3 i)
  · have h : val_main_call0_v1 (F := Ideal) i = Ideal.ofBits .f32 0x00000000#32 :=
      ((val_main_call0_v1_apply i).trans (val_main_call0_v0_apply _)).trans (val_main_cst_3_apply _)
    exact isReal_of_eq h zero_isReal

/-- The factor read at a slot's source is a real. -/
theorem dinv_src_real (j : S8622315.Idx) : IsReal (val_main_v23 (F := Ideal) x3 j) := by
  unfold val_main_v23
  exact gather_real _ _ _ (dinv_real x3) j

/-- The factor read at a slot's target is a real. -/
theorem dinv_dst_real (j : S8622315.Idx) : IsReal (val_main_v30 (F := Ideal) x3 j) := by
  unfold val_main_v30
  exact gather_real _ _ _ (dinv_real x3) j

/-- The normaliser of every slot is a real. -/
theorem norm_isReal (j : S8622315.Idx) : IsReal (val_main_v31 (F := Ideal) x3 j) := by
  refine isReal_of_eq ((val_main_v31_apply x3 j).trans (Ideal.mulf_def _ _)) ?_
  exact isReal_mul (dinv_src_real x3 j) (dinv_dst_real x3 j)

/-- The normaliser of slot e is a real number. -/
theorem norm_real (e : Fin 8622315) : ∃ r : ℝ, val_main_v31 (F := Ideal) x3 (ix1 e) = (r : EReal) :=
  norm_isReal x3 (ix1 e)

end Cert.ReferenceIdeal.RefValue

end
-- ==== Proof.LibGcnFoldLaw.lean ====
/-
  The algebra that joins two arrangements of a one-feature graph convolution followed by an edge fold, on the
  extended reals.

  * With every term real, a real factor moves into a finite sum: (Σ f e) · w = Σ (f e · w). (On the extended reals
    this needs the terms real: infinities of opposite sign do not distribute.) So a node's feature computed by
    aggregating scalars and multiplying the total by the channel weight equals the one computed by aggregating the
    already weighted scalars:  max ((0 + Σ ν e · ξ e) · w + β, 0) = max ((0 + Σ ν e · Σ_{k<1} ξ e · w) + β, 0).
  * The edge fold needs no finiteness: the logistic of half the four per-node totals, each total the sum of the node's
    two channels, is 1 / (1 + exp (−(s / 2))) for s the sum over the two halves of the per-edge channel sums, because
    addition on the extended reals is commutative and associative and dividing by the real 2 is multiplying by 1/2.
  * The words 0x3F800000, 0x3F000000, 0x40000000 and 0x2B8CBCCC are the reals 1, 1/2, 2 and a positive number.
-/
import Mathlib
import Idealize.ShloMosaic.PureOps.Ideal

noncomputable section

namespace GcnFoldLaw

open Idealize.ShloMosaic
open scoped BigOperators

/-- An extended real that is the image of a real number. -/
def IsReal (x : EReal) : Prop := ∃ r : ℝ, x = (r : EReal)

theorem isReal_zero : IsReal (0 : EReal) := ⟨0, rfl⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real factor moves into a finite sum of real terms. -/
theorem sum_mul_real {ι : Type*} (s : Finset ι) (f : ι → EReal) (w : EReal) (hf : ∀ i ∈ s, IsReal (f i)) (hw : IsReal w) :
    (∑ i ∈ s, f i) * w = ∑ i ∈ s, f i * w := by
  classical
  induction s using Finset.induction_on with
  | empty => simp
  | insert a s ha ih =>
    rw [Finset.sum_insert ha, Finset.sum_insert ha, ← ih fun i hi => hf i (Finset.mem_insert_of_mem hi)]
    obtain ⟨r, hr⟩ := hf a (Finset.mem_insert_self a s)
    obtain ⟨t, ht⟩ := isReal_sum s f fun i hi => hf i (Finset.mem_insert_of_mem hi)
    obtain ⟨u, rfl⟩ := hw
    rw [hr, ht, ← EReal.coe_add, ← EReal.coe_mul, ← EReal.coe_mul, ← EReal.coe_mul, ← EReal.coe_add, add_mul]

/-- The channel weight factored out of the aggregation: both arrangements give one node feature. -/
theorem node_law {ι : Type*} (s : Finset ι) (ν ξ : ι → EReal) (w β : EReal)
    (hν : ∀ e, IsReal (ν e)) (hξ : ∀ e, IsReal (ξ e)) (hw : IsReal w) :
    max ((0 + ∑ e ∈ s, ν e * ξ e) * w + β) 0 = max ((0 + ∑ e ∈ s, ν e * (∑ _k : Fin 1, ξ e * w)) + β) 0 := by
  rw [zero_add, zero_add, sum_mul_real s _ w (fun e _ => (hν e).mul (hξ e)) hw]
  refine congrArg (fun t => max (t + β) 0) (Finset.sum_congr rfl fun e _ => ?_)
  rw [Fin.sum_univ_one, mul_assoc]

/-- The word of 1.0. -/
theorem ofBits_one : Ideal.ofBits .f32 0x3F800000#32 = 1 := by
  simp [Ideal.ofBits, Ideal.ieee, -EReal.coe_mul]; norm_num

/-- The word of 0.5. -/
theorem ofBits_half : Ideal.ofBits .f32 0x3F000000#32 = ((1 / 2 : ℝ) : EReal) := by
  simp [Ideal.ofBits, Ideal.ieee, -EReal.coe_mul]; norm_num

/-- The word of 2.0. -/
theorem ofBits_two : Ideal.ofBits .f32 0x40000000#32 = ((2 : ℝ) : EReal) := by
  simp [Ideal.ofBits, Ideal.ieee, -EReal.coe_mul]; norm_num

/-- The word of 0.0. -/
theorem ofBits_zero : Ideal.ofBits .f32 0x00000000#32 = 0 := by
  simp [Ideal.ofBits, Ideal.ieee]

/-- The edge fold: half the four per-node totals under the logistic, against the mean of the two halves' per-edge
    channel sums under 1 / (1 + exp (−·)). -/
theorem fold_law (a0 a1 b0 b1 c0 c1 d0 d1 : EReal) :
    Ideal.logistic (((1 / 2 : ℝ) : EReal) * ((((0 + (a0 + a1)) + (0 + (b0 + b1))) + (0 + (c0 + c1))) + (0 + (d0 + d1))))
      = Ideal.div 1 (1 + Ideal.exp (-(Ideal.div (0 + ((0 + ((a0 + b0) + (a1 + b1))) + (0 + ((c0 + d0) + (c1 + d1)))))
          ((2 : ℝ) : EReal)))) := by
  rw [Ideal.div_coe (by norm_num : (2 : ℝ) ≠ 0), Ideal.logistic]
  have e : (((0 + (a0 + a1)) + (0 + (b0 + b1))) + (0 + (c0 + c1))) + (0 + (d0 + d1))
      = 0 + ((0 + ((a0 + b0) + (a1 + b1))) + (0 + ((c0 + d0) + (c1 + d1)))) := by
    simp only [zero_add]
    ac_rfl
  rw [e, mul_comm]

end GcnFoldLaw

end
-- ==== Proof.Bridge2.lean ====
/-
  The two arrangements meet, entry by entry. With every float input real: a node's hidden feature computed by the
  kernel's host operations (aggregate scalars, then multiply by the channel weight) is the reference's (aggregate the
  weighted scalars): the weight moves into the finite sum of real terms. Then the kernel's result at edge pair q — the
  logistic of half the per-node totals at the four endpoints of edges q and H + q — is the reference's
  1 / (1 + exp (−mean)) of the two edges' per-edge channel sums, by commutativity and associativity of the sum.
-/
import proofs.«148812_j62852551409829_2_alg».proof.Proof.HostKRead
import proofs.«148812_j62852551409829_2_alg».proof.Proof.Bridge1
import proofs.«148812_j62852551409829_2_alg».proof.Proof.RefValue
import proofs.«148812_j62852551409829_2_alg».proof.Proof.RefValueNorm
import proofs.«148812_j62852551409829_2_alg».proof.Proof.LibGcnFoldLaw

noncomputable section

namespace Cert.Bridge

open Idealize.ShloMosaic Idealize.ShloMosaic.ValueIdx
open Cert.KernelIdeal.HostK Cert.ReferenceIdeal.Stages Cert.ReferenceIdeal.RefValue
open scoped BigOperators

/-- A node's hidden feature in channel c: the kernel's arrangement equals the reference's when the features and the
    weights are real (the normaliser always is). -/
theorem h_eq (x0 : (⟨Cert.KernelIdeal.S132651x1, .f32⟩ : BufTy).Contents (Elt Ideal)) (x1 : (⟨Cert.KernelIdeal.S1x2, .f32⟩ : BufTy).Contents (Elt Ideal)) (x2 : (⟨Cert.KernelIdeal.S2, .f32⟩ : BufTy).Contents (Elt Ideal)) (x3 : X3) (hx0 : ∀ i, ∃ r : ℝ, x0 i = (r : EReal)) (hx1 : ∀ i, ∃ r : ℝ, x1 i = (r : EReal))
    (n : Fin 132651) (c : Fin 2) :
    t_main_v53 (F := Ideal) x0 x1 x2 x3 (ix2 n c) = Hr x0 x1 x2 x3 n c := by
  refine (Cert.KernelIdeal.HostK.h_apply x0 x1 x2 x3 n c).trans ?_
  have ha : t_main_v43 (F := Ideal) x0 x3 (ix1 n)
      = Ideal.ofBits .f32 0x00000000#32
        + ∑ e ∈ Finset.univ.filter (fun e : Fin 8622315 => (val_main_v44 (F := Ideal) x3 (ix2 e (0 : Fin 1))).toInt = (n.val : ℤ)),
            val_main_v31 (F := Ideal) x3 (ix1 e) * x0 (ix2 (⟨min (val_main_v39 (F := Ideal) x3 (ix2 e (0 : Fin 1))).toInt.toNat (132651 - 1), by omega⟩ : Fin 132651) (0 : Fin 1)) := by
    rw [a_unfold, v42_eq, v31_eq, v38_eq]
    exact a_gen x0 (val_main_v44 (F := Ideal) x3) (val_main_v31 (F := Ideal) x3) (val_main_v39 (F := Ideal) x3) n
  rw [ha, GcnFoldLaw.ofBits_zero]
  unfold Hr
  rw [GcnFoldLaw.ofBits_zero]
  refine (GcnFoldLaw.node_law _ (fun e : Fin 8622315 => val_main_v31 (F := Ideal) x3 (ix1 e))
    (fun e : Fin 8622315 => x0 (ix2 (⟨min (val_main_v39 (F := Ideal) x3 (ix2 e (0 : Fin 1))).toInt.toNat (132651 - 1), by omega⟩ : Fin 132651) (0 : Fin 1)))
    (x1 (ix2 (0 : Fin 1) c)) (x2 (ix1 c)) (fun e => norm_real x3 e) (fun e => hx0 _) (hx1 _)).trans ?_
  refine congrArg (fun t : EReal => max ((0 + t) + x2 (ix1 c)) 0) (Finset.sum_congr rfl fun e _ => ?_)
  rw [Fin.sum_univ_one, Fin.sum_univ_one]

/-- The kernel's per-node total: the node's two channels of the common hidden feature. -/
theorem gk_eq (x0 : (⟨Cert.KernelIdeal.S132651x1, .f32⟩ : BufTy).Contents (Elt Ideal)) (x1 : (⟨Cert.KernelIdeal.S1x2, .f32⟩ : BufTy).Contents (Elt Ideal)) (x2 : (⟨Cert.KernelIdeal.S2, .f32⟩ : BufTy).Contents (Elt Ideal)) (x3 : X3) (hx0 : ∀ i, ∃ r : ℝ, x0 i = (r : EReal)) (hx1 : ∀ i, ∃ r : ℝ, x1 i = (r : EReal))
    (n : Fin 132651) :
    t_main_v54 (F := Ideal) x0 x1 x2 x3 (ix1 n) = 0 + (Hr x0 x1 x2 x3 n 0 + Hr x0 x1 x2 x3 n 1) := by
  refine (g_apply x0 x1 x2 x3 n).trans ?_
  rw [Fin.sum_univ_two, h_eq x0 x1 x2 x3 hx0 hx1 n 0, h_eq x0 x1 x2 x3 hx0 hx1 n 1, GcnFoldLaw.ofBits_zero]

/-- The reference's per-edge total, its two channels written out. -/
theorem yr_eq (x0 : (⟨Cert.KernelIdeal.S132651x1, .f32⟩ : BufTy).Contents (Elt Ideal)) (x1 : (⟨Cert.KernelIdeal.S1x2, .f32⟩ : BufTy).Contents (Elt Ideal)) (x2 : (⟨Cert.KernelIdeal.S2, .f32⟩ : BufTy).Contents (Elt Ideal)) (x3 : X3) (e : Fin 8489664) :
    Yr x0 x1 x2 x3 e
      = 0 + ((Hr x0 x1 x2 x3 (⟨min (val_main_v55 (F := Ideal) x3 (ix2 e (0 : Fin 1))).toInt.toNat (132651 - 1), by omega⟩ : Fin 132651) 0
              + Hr x0 x1 x2 x3 (⟨min (val_main_v62 (F := Ideal) x3 (ix2 e (0 : Fin 1))).toInt.toNat (132651 - 1), by omega⟩ : Fin 132651) 0)
            + (Hr x0 x1 x2 x3 (⟨min (val_main_v55 (F := Ideal) x3 (ix2 e (0 : Fin 1))).toInt.toNat (132651 - 1), by omega⟩ : Fin 132651) 1
              + Hr x0 x1 x2 x3 (⟨min (val_main_v62 (F := Ideal) x3 (ix2 e (0 : Fin 1))).toInt.toNat (132651 - 1), by omega⟩ : Fin 132651) 1)) := by
  unfold Yr
  rw [Fin.sum_univ_two, GcnFoldLaw.ofBits_zero]

/-- The kernel's index word for its gather `main_v64` at q is the reference's for edge q. -/
theorem word64_eq (x3 : X3) (q : Fin 4244832) :
    t_main_v64 (F := Ideal) x3 (ix2 q (0 : Fin 1)) = val_main_v55 (F := Ideal) x3 (ix2 (⟨(0 : Fin 2).val * 4244832 + q.val, by have := q.isLt; have := (0 : Fin 2).isLt; omega⟩ : Fin 8489664) (0 : Fin 1)) := by
  rw [idx64_apply, ridx55_apply, v1_eq]
  refine congrArg (fun i : Fin 8489664 => nzw (val_main_v1 (F := Ideal) x3 (ix1 i))) (Fin.ext ?_)
  show _ = (0 : Fin 2).val * 4244832 + q.val
  simp

/-- The kernel's index word for its gather `main_v72` at q is the reference's for edge q. -/
theorem word72_eq (x3 : X3) (q : Fin 4244832) :
    t_main_v72 (F := Ideal) x3 (ix2 q (0 : Fin 1)) = val_main_v62 (F := Ideal) x3 (ix2 (⟨(0 : Fin 2).val * 4244832 + q.val, by have := q.isLt; have := (0 : Fin 2).isLt; omega⟩ : Fin 8489664) (0 : Fin 1)) := by
  rw [idx72_apply, ridx62_apply, v3_eq]
  refine congrArg (fun i : Fin 8489664 => nzw (val_main_v3 (F := Ideal) x3 (ix1 i))) (Fin.ext ?_)
  show _ = (0 : Fin 2).val * 4244832 + q.val
  simp

/-- The kernel's index word for its gather `main_v80` at q is the reference's for edge H + q. -/
theorem word80_eq (x3 : X3) (q : Fin 4244832) :
    t_main_v80 (F := Ideal) x3 (ix2 q (0 : Fin 1)) = val_main_v55 (F := Ideal) x3 (ix2 (⟨(1 : Fin 2).val * 4244832 + q.val, by have := q.isLt; have := (1 : Fin 2).isLt; omega⟩ : Fin 8489664) (0 : Fin 1)) := by
  rw [idx80_apply, ridx55_apply, v1_eq]
  refine congrArg (fun i : Fin 8489664 => nzw (val_main_v1 (F := Ideal) x3 (ix1 i))) (Fin.ext ?_)
  show _ = (1 : Fin 2).val * 4244832 + q.val
  simp

/-- The kernel's index word for its gather `main_v88` at q is the reference's for edge H + q. -/
theorem word88_eq (x3 : X3) (q : Fin 4244832) :
    t_main_v88 (F := Ideal) x3 (ix2 q (0 : Fin 1)) = val_main_v62 (F := Ideal) x3 (ix2 (⟨(1 : Fin 2).val * 4244832 + q.val, by have := q.isLt; have := (1 : Fin 2).isLt; omega⟩ : Fin 8489664) (0 : Fin 1)) := by
  rw [idx88_apply, ridx62_apply, v3_eq]
  refine congrArg (fun i : Fin 8489664 => nzw (val_main_v3 (F := Ideal) x3 (ix1 i))) (Fin.ext ?_)
  show _ = (1 : Fin 2).val * 4244832 + q.val
  simp

/-- The kernel's four gathered totals under the logistic of their half sum are the reference's result at (q, 0). -/
theorem point_eq (x0 : (⟨Cert.KernelIdeal.S132651x1, .f32⟩ : BufTy).Contents (Elt Ideal)) (x1 : (⟨Cert.KernelIdeal.S1x2, .f32⟩ : BufTy).Contents (Elt Ideal)) (x2 : (⟨Cert.KernelIdeal.S2, .f32⟩ : BufTy).Contents (Elt Ideal)) (x3 : X3) (hx0 : ∀ i, ∃ r : ℝ, x0 i = (r : EReal)) (hx1 : ∀ i, ∃ r : ℝ, x1 i = (r : EReal))
    (q : Fin 4244832) :
    Ideal.logistic (Ideal.ofBits .f32 0x3F000000#32
        * (((t_main_v66 (F := Ideal) x0 x1 x2 x3 (ix2 (0 : Fin 1) q) + t_main_v74 (F := Ideal) x0 x1 x2 x3 (ix2 (0 : Fin 1) q))
            + t_main_v82 (F := Ideal) x0 x1 x2 x3 (ix2 (0 : Fin 1) q)) + t_main_v90 (F := Ideal) x0 x1 x2 x3 (ix2 (0 : Fin 1) q)))
      = val_main_v76 (F := Ideal) x0 x1 x2 x3 (ix2 q (0 : Fin 1)) := by
  refine Eq.trans ?_ (Cert.ReferenceIdeal.RefValue.out_apply x0 x1 x2 x3 q).symm
  rw [Fin.sum_univ_two, yr_eq, yr_eq]
  rw [out66_apply, out74_apply, out82_apply, out90_apply]
  rw [gk_eq x0 x1 x2 x3 hx0 hx1, gk_eq x0 x1 x2 x3 hx0 hx1, gk_eq x0 x1 x2 x3 hx0 hx1, gk_eq x0 x1 x2 x3 hx0 hx1]
  have hA : (⟨min (t_main_v64 (F := Ideal) x3 (ix2 q (0 : Fin 1))).toInt.toNat (132651 - 1), by omega⟩ : Fin 132651) = (⟨min (val_main_v55 (F := Ideal) x3 (ix2 (⟨(0 : Fin 2).val * 4244832 + q.val, by have := q.isLt; have := (0 : Fin 2).isLt; omega⟩ : Fin 8489664) (0 : Fin 1))).toInt.toNat (132651 - 1), by omega⟩ : Fin 132651) :=
    Fin.ext (congrArg (fun w : BitVec 32 => min w.toInt.toNat (132651 - 1)) (word64_eq x3 q))
  have hB : (⟨min (t_main_v72 (F := Ideal) x3 (ix2 q (0 : Fin 1))).toInt.toNat (132651 - 1), by omega⟩ : Fin 132651) = (⟨min (val_main_v62 (F := Ideal) x3 (ix2 (⟨(0 : Fin 2).val * 4244832 + q.val, by have := q.isLt; have := (0 : Fin 2).isLt; omega⟩ : Fin 8489664) (0 : Fin 1))).toInt.toNat (132651 - 1), by omega⟩ : Fin 132651) :=
    Fin.ext (congrArg (fun w : BitVec 32 => min w.toInt.toNat (132651 - 1)) (word72_eq x3 q))
  have hC : (⟨min (t_main_v80 (F := Ideal) x3 (ix2 q (0 : Fin 1))).toInt.toNat (132651 - 1), by omega⟩ : Fin 132651) = (⟨min (val_main_v55 (F := Ideal) x3 (ix2 (⟨(1 : Fin 2).val * 4244832 + q.val, by have := q.isLt; have := (1 : Fin 2).isLt; omega⟩ : Fin 8489664) (0 : Fin 1))).toInt.toNat (132651 - 1), by omega⟩ : Fin 132651) :=
    Fin.ext (congrArg (fun w : BitVec 32 => min w.toInt.toNat (132651 - 1)) (word80_eq x3 q))
  have hD : (⟨min (t_main_v88 (F := Ideal) x3 (ix2 q (0 : Fin 1))).toInt.toNat (132651 - 1), by omega⟩ : Fin 132651) = (⟨min (val_main_v62 (F := Ideal) x3 (ix2 (⟨(1 : Fin 2).val * 4244832 + q.val, by have := q.isLt; have := (1 : Fin 2).isLt; omega⟩ : Fin 8489664) (0 : Fin 1))).toInt.toNat (132651 - 1), by omega⟩ : Fin 132651) :=
    Fin.ext (congrArg (fun w : BitVec 32 => min w.toInt.toNat (132651 - 1)) (word88_eq x3 q))
  rw [hA, hB, hC, hD, GcnFoldLaw.ofBits_one, GcnFoldLaw.ofBits_half, GcnFoldLaw.ofBits_two, GcnFoldLaw.ofBits_zero]
  exact GcnFoldLaw.fold_law _ _ _ _ _ _ _ _

end Cert.Bridge

end
-- ==== Proof.Assemble.lean ====
/-
  The certificate's value claim assembled. The kernel's result is the reshaped row whose lane q is the logistic of
  one half of the four gathered totals at q; the reference's result at (q, 0) is the same extended real once every
  entry of the node features and of the weights is real, which the precondition gives. So from memories agreeing on
  the arguments the two programs end with equal results, and each leaves its arguments unchanged.
-/
import proofs.«148812_j62852551409829_2_alg».proof.Defs
import proofs.«148812_j62852551409829_2_alg».proof.Proof.OutKI
import proofs.«148812_j62852551409829_2_alg».proof.Proof.HostKV
import proofs.«148812_j62852551409829_2_alg».proof.Proof.Finite
import proofs.«148812_j62852551409829_2_alg».proof.Proof.RefRun
import proofs.«148812_j62852551409829_2_alg».proof.Proof.Bridge2
import proofs.«148812_j62852551409829_2_alg».proof.Proof.Gen.Pre_finite_inputs
import Idealize.ShloMosaic.Lib.ValueIdx
import Idealize.ShloMosaic.Lib.Pipeline.Value

noncomputable section

namespace Cert.Assemble

open Idealize.ShloMosaic Idealize.ShloMosaic.TcCoe Idealize.ShloMosaic.ValueIdx Idealize.SL.Sem
open Cert.KernelIdeal Cert.KernelIdeal.Gen Cert.KernelIdeal.HostK

/-- One lane of the result row at the ideal instance: the logistic of one half of the four-term sum, as extended
    reals. -/
theorem lane (a b c d : Ideal .f32) :
    FloatOps.logistic (FloatOps.mulf (FloatOps.ofBits (F := Ideal) .f32 0x3F000000#32)
        (FloatOps.addf (FloatOps.addf (FloatOps.addf a b) c) d))
      = Ideal.logistic (Ideal.ofBits .f32 0x3F000000#32 * (((a + b) + c) + d)) := by rfl

/-- The row reshaped into a column, read at (q, 0), is the row at (0, q). -/
theorem col_of_row_apply {α : Type} (v : S1x4244832.Idx → α) (q : Fin 4244832) :
    shapeCast S4244832x1 v shapeCasts_S1x4244832_S4244832x1 (ix2 q (0 : Fin 1)) = v (ix2 (0 : Fin 1) q) := by
  refine shapeCast_apply v shapeCasts_S1x4244832_S4244832x1 (ix2 q (0 : Fin 1)) (ix2 (0 : Fin 1) q) ?_
  rw [Shape.rowMajor_val_two, Shape.rowMajor_val_two]
  show 0 * 4244832 + q.val = q.val * 1 + 0
  omega

variable (m : (ℓ : Loc nD τ sig) → Buf (Elt Ideal) ℓ)

/-- THE TWO RESULTS AGREE: with every entry of the node features and of the weights real, the kernel's reshaped
    result row is the reference's result, entry by entry. -/
theorem result_eq (c : Dev nD)
    (hx0 : ∀ i, ∃ r : ℝ, m ((c.tc : Thread nD τ).loc main_arg0) i = (r : EReal))
    (hx1 : ∀ i, ∃ r : ℝ, m ((c.tc : Thread nD τ).loc main_arg1) i = (r : EReal)) :
    shapeCast S4244832x1 (Cert.KernelIdeal.Body.G (F := Ideal) m c) shapeCasts_S1x4244832_S4244832x1
      = Cert.ReferenceIdeal.Stages.val_main_v76 (F := Ideal) (m ((c.tc : Thread nD τ).loc main_arg0)) (m ((c.tc : Thread nD τ).loc main_arg1))
          (m ((c.tc : Thread nD τ).loc main_arg2)) (m ((c.tc : Thread nD τ).loc main_arg3)) := by
  have key : ∀ q : Fin 4244832,
      shapeCast S4244832x1 (Cert.KernelIdeal.Body.G (F := Ideal) m c) shapeCasts_S1x4244832_S4244832x1 (ix2 q (0 : Fin 1))
        = Cert.ReferenceIdeal.Stages.val_main_v76 (F := Ideal) (m ((c.tc : Thread nD τ).loc main_arg0)) (m ((c.tc : Thread nD τ).loc main_arg1))
            (m ((c.tc : Thread nD τ).loc main_arg2)) (m ((c.tc : Thread nD τ).loc main_arg3)) (ix2 q (0 : Fin 1)) := by
    intro q
    refine (col_of_row_apply _ q).trans ?_
    refine (Cert.KernelIdeal.Body.OutRow_apply _ _ _ _ _).trans ?_
    refine (lane _ _ _ _).trans ?_
    rw [V66_eq m c, V74_eq m c, V82_eq m c, V90_eq m c]
    exact Cert.Bridge.point_eq _ _ _ _ hx0 hx1 q
  funext i
  have hi : i = ix2 (i 0) (0 : Fin 1) := (eq_ix2 i).trans (congrArg (ix2 (i 0)) (Subsingleton.elim (α := Fin 1) (i 1) 0))
  rw [hi]
  exact key (i 0)

/-- At the ideal instance the kernel and the reference, from memories agreeing on the arguments with every float
    input finite, both run, end with equal results and leave the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => shapeCast S4244832x1 (Cert.KernelIdeal.Body.G (F := Ideal) m c) shapeCasts_S1x4244832_S4244832x1,
    Cert.KernelIdeal.Body.run_value (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  obtain ⟨h0, h1, -⟩ := Cert.Finite.reals_of_pre _ _ _ _ (hpre c)
  exact (result_eq m c h0 h1).symm

end Cert.Assemble

end
-- ==== Proof.lean ====
/- The certificate's claim: the kernel at the word-level and at the ideal instance and the reference each run and leave
   their argument arrays unchanged; and at the ideal instance kernel and reference end with equal results. -/
import proofs.«148812_j62852551409829_2_alg».proof.Defs
import proofs.«148812_j62852551409829_2_alg».proof.Proof.Gen.Kernel
import proofs.«148812_j62852551409829_2_alg».proof.Proof.Gen.KernelIdeal
import proofs.«148812_j62852551409829_2_alg».proof.Proof.Gen.ReferenceIdeal
import proofs.«148812_j62852551409829_2_alg».proof.Proof.Gen.Pre_finite_inputs
import proofs.«148812_j62852551409829_2_alg».proof.Proof.BodyK
import proofs.«148812_j62852551409829_2_alg».proof.Proof.BodyKI
import proofs.«148812_j62852551409829_2_alg».proof.Proof.RefRun
import proofs.«148812_j62852551409829_2_alg».proof.Proof.Assemble
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Body.frame (F := Bits) m ρ,
  fun m ρ _ => Cert.KernelIdeal.Body.frame (F := Ideal) m ρ,
  fun m ρ _ => (θ_run Cert.ReferenceIdeal.defs _ _).mono (fun _ h c => (h c).2) (Cert.ReferenceIdeal.RefRun.run (F := Ideal) m ρ),
  trivial, Cert.Assemble.algebraic⟩

end Cert.Proof

end
